-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S64x64 : Shape := ⟨2, ![64, 64]⟩
abbrev S32x64 : Shape := ⟨2, ![32, 64]⟩
abbrev S32 : Shape := ⟨1, ![32]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S64 .f32) (main_arg14 : FVec F S32x64 .f32) (main_arg15 : FVec F S32 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S32x64 .f32 := Host.absf main_arg14
  let main_cst_22 : FVec F S_ .f32 := constant S_ .f32 0x7F800000#32
  let main_v60 : FVec F S32x64 .f32 := broadcastInDim S32x64 ![] bcast_S_S32x64 main_cst_22
  let main_v61 : IVec S32x64 1 := cmpf .olt main_v59 main_v60
  let main_c_23 : IVec S_ 1 := constantI S_ 1 1#1
  let main_v62 : IVec S_ 1 := (fun x v => Host.reduce IntOp.andi x v reducesTo_S32x64_S_d0_1 h_S_) main_v61 main_c_23
  let main_v63 : IVec S_ 1 := andi main_v58 main_v62
  let main_v64 : FVec F S32 .f32 := Host.absf main_arg15
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_v63 main_v67

def fn_part2 {F : FTy → Type} [FloatOps F] (main_arg9 : FVec F S64x64 .f32) (main_arg10 : FVec F S64 .f32) (main_arg11 : FVec F S64x64 .f32) (main_arg12 : FVec F S64x64 .f32) (main_arg13 : FVec F S64 .f32) (main_arg14 : FVec F S32x64 .f32) (main_arg15 : FVec F S32 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_arg14 main_arg15 main_v48 main_v49 main_v50

def fn_part1 {F : FTy → Type} [FloatOps F] (main_arg6 : FVec F S64x128 .f32) (main_arg7 : FVec F S64 .f32) (main_arg8 : FVec F S64x128 .f32) (main_arg9 : FVec F S64x64 .f32) (main_arg10 : FVec F S64 .f32) (main_arg11 : FVec F S64x64 .f32) (main_arg12 : FVec F S64x64 .f32) (main_arg13 : FVec F S64 .f32) (main_arg14 : FVec F S32x64 .f32) (main_arg15 : FVec F S32 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S64x128 .f32 := Host.absf main_arg6
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg8
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x128 .f32) (main_arg1 : IVec S2x600000 32) (main_arg2 : IVec S50000 32) (main_arg3 : FVec F S128x128 .f32) (main_arg4 : FVec F S128 .f32) (main_arg5 : FVec F S128x128 .f32) (main_arg6 : FVec F S64x128 .f32) (main_arg7 : FVec F S64 .f32) (main_arg8 : FVec F S64x128 .f32) (main_arg9 : FVec F S64x64 .f32) (main_arg10 : FVec F S64 .f32) (main_arg11 : FVec F S64x64 .f32) (main_arg12 : FVec F S64x64 .f32) (main_arg13 : FVec F S64 .f32) (main_arg14 : FVec F S32x64 .f32) (main_arg15 : FVec F S32 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S64x64 : Shape := ⟨2, ![64, 64]⟩
abbrev S32x64 : Shape := ⟨2, ![32, 64]⟩
abbrev S32 : Shape := ⟨1, ![32]⟩
abbrev S1x600000 : Shape := ⟨2, ![1, 600000]⟩
abbrev S600000 : Shape := ⟨1, ![600000]⟩
abbrev S128x64 : Shape := ⟨2, ![128, 64]⟩
abbrev S64x32 : Shape := ⟨2, ![64, 32]⟩
abbrev S5000x128 : Shape := ⟨2, ![5000, 128]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S50000x64 : Shape := ⟨2, ![50000, 64]⟩
abbrev S5000x64 : Shape := ⟨2, ![5000, 64]⟩
abbrev S600000x64 : Shape := ⟨2, ![600000, 64]⟩
abbrev S1x64 : Shape := ⟨2, ![1, 64]⟩
abbrev S512x64 : Shape := ⟨2, ![512, 64]⟩
abbrev S50000x1 : Shape := ⟨2, ![50000, 1]⟩
abbrev S1x32 : Shape := ⟨2, ![1, 32]⟩
abbrev S512x32 : Shape := ⟨2, ![512, 32]⟩
abbrev S512 : Shape := ⟨1, ![512]⟩
abbrev S512x1 : Shape := ⟨2, ![512, 1]⟩

abbrev nBuf : Space → Nat
  | .hbm => 86
  | .vmem => 51
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S64x128, .f32⟩
  | .hbm, ⟨7, _⟩ => ⟨S64, .f32⟩
  | .hbm, ⟨8, _⟩ => ⟨S64x128, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64x64, .f32⟩
  | .hbm, ⟨13, _⟩ => ⟨S64, .f32⟩
  | .hbm, ⟨14, _⟩ => ⟨S32x64, .f32⟩
  | .hbm, ⟨15, _⟩ => ⟨S32, .f32⟩
  | .hbm, ⟨16, _⟩ => ⟨S1x600000, .i32⟩
  | .hbm, ⟨17, _⟩ => ⟨S600000, .i32⟩
  | .hbm, ⟨18, _⟩ => ⟨S1x600000, .i32⟩
  | .hbm, ⟨19, _⟩ => ⟨S600000, .i32⟩
  | .hbm, ⟨20, _⟩ => ⟨S128x128, .f32⟩
  | .hbm, ⟨21, _⟩ => ⟨S128x128, .f32⟩
  | .hbm, ⟨22, _⟩ => ⟨S128x64, .f32⟩
  | .hbm, ⟨23, _⟩ => ⟨S128x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x32, .f32⟩
  | .hbm, ⟨28, _⟩ => ⟨S50000x128, .f32⟩
  | .hbm, ⟨29, _⟩ => ⟨S50000x128, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000x128, .f32⟩
  | .hbm, ⟨39, _⟩ => ⟨S_, .f32⟩
  | .hbm, ⟨40, _⟩ => ⟨S50000x128, .f32⟩
  | .hbm, ⟨41, _⟩ => ⟨S600000x1, .i32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S50000x64, .f32⟩
  | .hbm, ⟨46, _⟩ => ⟨S50000x64, .f32⟩
  | .hbm, ⟨47, _⟩ => ⟨S_, .i32⟩
  | .hbm, ⟨48, _⟩ => ⟨S600000, .i32⟩
  | .hbm, ⟨49, _⟩ => ⟨S600000, .i1⟩
  | .hbm, ⟨50, _⟩ => ⟨S_, .i32⟩
  | .hbm, ⟨51, _⟩ => ⟨S600000, .i32⟩
  | .hbm, ⟨52, _⟩ => ⟨S600000, .i32⟩
  | .hbm, ⟨53, _⟩ => ⟨S600000, .i32⟩
  | .hbm, ⟨54, _⟩ => ⟨S600000x1, .i32⟩
  | .hbm, ⟨55, _⟩ => ⟨S600000x64, .f32⟩
  | .hbm, ⟨56, _⟩ => ⟨S_, .f32⟩
  | .hbm, ⟨57, _⟩ => ⟨S50000x64, .f32⟩
  | .hbm, ⟨58, _⟩ => ⟨S600000x1, .i32⟩
  | .hbm, ⟨59, _⟩ => ⟨S50000x64, .f32⟩
  | .hbm, ⟨60, _⟩ => ⟨S1x64, .f32⟩
  | .hbm, ⟨61, _⟩ => ⟨S50000x64, .f32⟩
  | .hbm, ⟨62, _⟩ => ⟨S50000x64, .f32⟩
  | .hbm, ⟨63, _⟩ => ⟨S50000x64, .f32⟩
  | .hbm, ⟨64, _⟩ => ⟨S_, .i32⟩
  | .hbm, ⟨65, _⟩ => ⟨S600000, .i32⟩
  | .hbm, ⟨66, _⟩ => ⟨S600000, .i1⟩
  | .hbm, ⟨67, _⟩ => ⟨S_, .i32⟩
  | .hbm, ⟨68, _⟩ => ⟨S600000, .i32⟩
  | .hbm, ⟨69, _⟩ => ⟨S600000, .i32⟩
  | .hbm, ⟨70, _⟩ => ⟨S600000, .i32⟩
  | .hbm, ⟨71, _⟩ => ⟨S600000x1, .i32⟩
  | .hbm, ⟨72, _⟩ => ⟨S600000x64, .f32⟩
  | .hbm, ⟨73, _⟩ => ⟨S_, .f32⟩
  | .hbm, ⟨74, _⟩ => ⟨S50000x64, .f32⟩
  | .hbm, ⟨75, _⟩ => ⟨S600000x1, .i32⟩
  | .hbm, ⟨76, _⟩ => ⟨S50000x64, .f32⟩
  | .hbm, ⟨77, _⟩ => ⟨S1x64, .f32⟩
  | .hbm, ⟨78, _⟩ => ⟨S50000x64, .f32⟩
  | .hbm, ⟨79, _⟩ => ⟨S_, .f32⟩
  | .hbm, ⟨80, _⟩ => ⟨S512x64, .f32⟩
  | .hbm, ⟨81, _⟩ => ⟨S50000x1, .i32⟩
  | .hbm, ⟨82, _⟩ => ⟨S512x64, .f32⟩
  | .hbm, ⟨83, _⟩ => ⟨S1x64, .f32⟩
  | .hbm, ⟨84, _⟩ => ⟨S1x32, .f32⟩
  | .hbm, ⟨85, _⟩ => ⟨S512x32, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x64, .f32⟩
  | .local _ .vmem, ⟨18, _⟩ => ⟨S128x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S64x64, .f32⟩
  | .local _ .vmem, ⟨33, _⟩ => ⟨S64x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S1x64, .f32⟩
  | .local _ .vmem, ⟨43, _⟩ => ⟨S5000x64, .f32⟩
  | .local _ .vmem, ⟨44, _⟩ => ⟨S5000x64, .f32⟩
  | .local _ .vmem, ⟨45, _⟩ => ⟨S512x64, .f32⟩
  | .local _ .vmem, ⟨46, _⟩ => ⟨S64x64, .f32⟩
  | .local _ .vmem, ⟨47, _⟩ => ⟨S1x64, .f32⟩
  | .local _ .vmem, ⟨48, _⟩ => ⟨S64x32, .f32⟩
  | .local _ .vmem, ⟨49, _⟩ => ⟨S1x32, .f32⟩
  | .local _ .vmem, ⟨50, _⟩ => ⟨S512x32, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12_0 : Ref sig .tc := ⟨.hbm, 28, rfl⟩
abbrev main_v12_1 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_0 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25_0 : Ref sig .tc := ⟨.hbm, 45, rfl⟩
abbrev main_v25_1 : Ref sig .tc := ⟨.hbm, 46, rfl⟩
abbrev main_c_1 : Ref sig .tc := ⟨.hbm, 47, rfl⟩
abbrev main_v26 : Ref sig .tc := ⟨.hbm, 48, rfl⟩
abbrev main_v27 : Ref sig .tc := ⟨.hbm, 49, rfl⟩
abbrev main_c_2 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_3 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38_0 : Ref sig .tc := ⟨.hbm, 62, rfl⟩
abbrev main_v38_1 : Ref sig .tc := ⟨.hbm, 63, rfl⟩
abbrev main_c_4 : Ref sig .tc := ⟨.hbm, 64, rfl⟩
abbrev main_v39 : Ref sig .tc := ⟨.hbm, 65, rfl⟩
abbrev main_v40 : Ref sig .tc := ⟨.hbm, 66, rfl⟩
abbrev main_c_5 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_6 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_7 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc4_stg4_0 : Ref sig .tc := ⟨.vmem, 36, rfl⟩
abbrev cc4_stg4_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg3_1 : Ref sig .tc := ⟨.vmem, 44, rfl⟩
abbrev cc6_stg0_0 : Ref sig .tc := ⟨.vmem, 45, rfl⟩
abbrev cc6_stg1_0 : Ref sig .tc := ⟨.vmem, 46, rfl⟩
abbrev cc6_stg2_0 : Ref sig .tc := ⟨.vmem, 47, rfl⟩
abbrev cc6_stg3_0 : Ref sig .tc := ⟨.vmem, 48, rfl⟩
abbrev cc6_stg4_0 : Ref sig .tc := ⟨.vmem, 49, rfl⟩
abbrev cc6_stg5_0 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35
abbrev cc4_sem4_0 : DmaSem sig := 36
abbrev cc4_sem4_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem3_0 : DmaSem sig := 43
abbrev cc5_sem3_1 : DmaSem sig := 44
abbrev cc6_sem0_0 : DmaSem sig := 45
abbrev cc6_sem1_0 : DmaSem sig := 46
abbrev cc6_sem2_0 : DmaSem sig := 47
abbrev cc6_sem3_0 : DmaSem sig := 48
abbrev cc6_sem4_0 : DmaSem sig := 49
abbrev cc6_sem5_0 : DmaSem sig := 50

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S512x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x32 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x32 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S512x32 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  transposes_S128x128_S128x128_1_0 : S128x128.Transposes [1, 0] S128x128
  transposes_S64x128_S128x64_1_0 : S64x128.Transposes [1, 0] S128x64
  transposes_S64x64_S64x64_1_0 : S64x64.Transposes [1, 0] S64x64
  transposes_S32x64_S64x32_1_0 : S32x64.Transposes [1, 0] S64x32
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S512x64 : S_.BroadcastsInDim S512x64 (![] : Fin 0 → Fin S512x64.rank)
  bcast_S50000_S50000x1_0 : S50000.BroadcastsInDim S50000x1 (![0] : Fin 1 → Fin S50000x1.rank)
  shapeCasts_S32_S1x32 : S32.ShapeCasts S1x32
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x64_S512x64 : S1x64.Broadcasts S512x64
  broadcasts_S1x32_S512x32 : S1x32.Broadcasts S512x32
  reduces_S512x32_S512 : S512x32.Reduces [1] S512
  shapeCasts_S512_S512x1 : S512.ShapeCasts S512x1
  broadcasts_S512x1_S512x32 : S512x1.Broadcasts S512x32
  inb_S512x32_S512x32_0_0 : ∀ a, (![0, 0] : Fin 2 → Nat) a + S512x32.size a ≤ S512x32.size a
  h_S512x32 : 0 < S512x32.numel
  dot_S5000x128_S128x128_S5000x128_1_0_0_1_n_n_wf : DotDims.WF S5000x128 S128x128 S5000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x64_S5000x64_1_0_0_1_n_n_wf : DotDims.WF S5000x128 S128x64 S5000x64 [1] [0] [0] [1] [] []
  gather_S50000x64_S600000x1_S600000x64_1_0_n_n_0_1_164_wf : GatherDims.WF S50000x64 S600000x1 S600000x64 [1] [0] [] [0] [] 1 ![1, 64]
  scatter_S50000x64_S600000x1_S600000x64_1_0_0_1_wf : ScatterDims.WF S50000x64 S600000x1 S600000x64 [1] [0] [0] 1
  dot_S5000x64_S64x64_S5000x64_1_0_0_1_n_n_wf : DotDims.WF S5000x64 S64x64 S5000x64 [1] [0] [0] [1] [] []
  scatter_S512x64_S50000x1_S50000x64_1_0_0_1_wf : ScatterDims.WF S512x64 S50000x1 S50000x64 [1] [0] [0] 1
  dot_S512x64_S64x64_S512x64_1_0_0_1_n_n_wf : DotDims.WF S512x64 S64x64 S512x64 [1] [0] [0] [1] [] []
  dot_S512x64_S64x32_S512x32_1_0_0_1_n_n_wf : DotDims.WF S512x64 S64x32 S512x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S50000x64.size a
  hwx4_3 : ∀ i : grid4.Coords, EltTy.bits .f32 = 32 ∨ (Rect.block (s := S50000x64) S5000x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S50000x64.size a
  hwx4_4 : ∀ i : grid4.Coords, EltTy.bits .f32 = 32 ∨ (Rect.block (s := S50000x64) S5000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S50000x64.size a
  hwx5_1 : ∀ i : grid5.Coords, EltTy.bits .f32 = 32 ∨ (Rect.block (s := S50000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S50000x64.size a
  hwx5_3 : ∀ i : grid5.Coords, EltTy.bits .f32 = 32 ∨ (Rect.block (s := S50000x64) S5000x64.size (cc5_transform_3 i) (hinb5_3 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S512x64.size a ≤ S512x64.size a
  hwx6_0 : ∀ i : grid6.Coords, EltTy.bits .f32 = 32 ∨ (Rect.block (s := S512x64) S512x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x32.size a ≤ S64x32.size a
  hwx6_3 : ∀ i : grid6.Coords, EltTy.bits .f32 = 32 ∨ (Rect.block (s := S64x32) S64x32.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x32.size a ≤ S1x32.size a
  hwx6_4 : ∀ i : grid6.Coords, EltTy.bits .f32 = 32 ∨ (Rect.block (s := S1x32) S1x32.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S512x32.size a ≤ S512x32.size a
  hwx6_5 : ∀ i : grid6.Coords, EltTy.bits .f32 = 32 ∨ (Rect.block (s := S512x32) S512x32.size (cc6_transform_5 i) (hinb6_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12_1) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12_1) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v24) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v7) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v25_0) S5000x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v25_1) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v35) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v25_1) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v36) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v37) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v37) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v8) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v9) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v38_0) S5000x64.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v38_1) S5000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v48) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v38_1) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v49) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v50) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v53) S512x64.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_v10) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v54) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v11) S64x32.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v55) S1x32.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v56) S512x32.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S64x64 : Shape := ⟨2, ![64, 64]⟩
abbrev S32x64 : Shape := ⟨2, ![32, 64]⟩
abbrev S32 : Shape := ⟨1, ![32]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S128x64 : Shape := ⟨2, ![128, 64]⟩
abbrev S50000x64 : Shape := ⟨2, ![50000, 64]⟩
abbrev S1x64 : Shape := ⟨2, ![1, 64]⟩
abbrev S600000x64 : Shape := ⟨2, ![600000, 64]⟩
abbrev S512x64 : Shape := ⟨2, ![512, 64]⟩
abbrev S50000x1 : Shape := ⟨2, ![50000, 1]⟩
abbrev S64x32 : Shape := ⟨2, ![64, 32]⟩
abbrev S512x32 : Shape := ⟨2, ![512, 32]⟩
abbrev S1x32 : Shape := ⟨2, ![1, 32]⟩
abbrev S512 : Shape := ⟨1, ![512]⟩
abbrev S512x1 : Shape := ⟨2, ![512, 1]⟩

abbrev nBuf : Space → Nat
  | .hbm => 121
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S64x128, .f32⟩
  | .hbm, ⟨7, _⟩ => ⟨S64, .f32⟩
  | .hbm, ⟨8, _⟩ => ⟨S64x128, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64x64, .f32⟩
  | .hbm, ⟨13, _⟩ => ⟨S64, .f32⟩
  | .hbm, ⟨14, _⟩ => ⟨S32x64, .f32⟩
  | .hbm, ⟨15, _⟩ => ⟨S32, .f32⟩
  | .hbm, ⟨16, _⟩ => ⟨S1x600000, .i32⟩
  | .hbm, ⟨17, _⟩ => ⟨S600000, .i32⟩
  | .hbm, ⟨18, _⟩ => ⟨S1x600000, .i32⟩
  | .hbm, ⟨19, _⟩ => ⟨S600000, .i32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S600000x128, .f32⟩
  | .hbm, ⟨29, _⟩ => ⟨S_, .f32⟩
  | .hbm, ⟨30, _⟩ => ⟨S50000x128, .f32⟩
  | .hbm, ⟨31, _⟩ => ⟨S600000x1, .i32⟩
  | .hbm, ⟨32, _⟩ => ⟨S50000x128, .f32⟩
  | .hbm, ⟨33, _⟩ => ⟨S128x128, .f32⟩
  | .hbm, ⟨34, _⟩ => ⟨S50000x128, .f32⟩
  | .hbm, ⟨35, _⟩ => ⟨S1x128, .f32⟩
  | .hbm, ⟨36, _⟩ => ⟨S50000x128, .f32⟩
  | .hbm, ⟨37, _⟩ => ⟨S50000x128, .f32⟩
  | .hbm, ⟨38, _⟩ => ⟨S128x128, .f32⟩
  | .hbm, ⟨39, _⟩ => ⟨S50000x128, .f32⟩
  | .hbm, ⟨40, _⟩ => ⟨S50000x128, .f32⟩
  | .hbm, ⟨41, _⟩ => ⟨S_, .f32⟩
  | .hbm, ⟨42, _⟩ => ⟨S50000x128, .f32⟩
  | .hbm, ⟨43, _⟩ => ⟨S50000x128, .f32⟩
  | .hbm, ⟨44, _⟩ => ⟨S_, .i32⟩
  | .hbm, ⟨45, _⟩ => ⟨S600000, .i32⟩
  | .hbm, ⟨46, _⟩ => ⟨S600000, .i1⟩
  | .hbm, ⟨47, _⟩ => ⟨S_, .i32⟩
  | .hbm, ⟨48, _⟩ => ⟨S600000, .i32⟩
  | .hbm, ⟨49, _⟩ => ⟨S600000, .i32⟩
  | .hbm, ⟨50, _⟩ => ⟨S600000, .i32⟩
  | .hbm, ⟨51, _⟩ => ⟨S600000x1, .i32⟩
  | .hbm, ⟨52, _⟩ => ⟨S600000x128, .f32⟩
  | .hbm, ⟨53, _⟩ => ⟨S_, .f32⟩
  | .hbm, ⟨54, _⟩ => ⟨S50000x128, .f32⟩
  | .hbm, ⟨55, _⟩ => ⟨S600000x1, .i32⟩
  | .hbm, ⟨56, _⟩ => ⟨S50000x128, .f32⟩
  | .hbm, ⟨57, _⟩ => ⟨S128x64, .f32⟩
  | .hbm, ⟨58, _⟩ => ⟨S50000x64, .f32⟩
  | .hbm, ⟨59, _⟩ => ⟨S1x64, .f32⟩
  | .hbm, ⟨60, _⟩ => ⟨S50000x64, .f32⟩
  | .hbm, ⟨61, _⟩ => ⟨S50000x64, .f32⟩
  | .hbm, ⟨62, _⟩ => ⟨S128x64, .f32⟩
  | .hbm, ⟨63, _⟩ => ⟨S50000x64, .f32⟩
  | .hbm, ⟨64, _⟩ => ⟨S50000x64, .f32⟩
  | .hbm, ⟨65, _⟩ => ⟨S_, .f32⟩
  | .hbm, ⟨66, _⟩ => ⟨S50000x64, .f32⟩
  | .hbm, ⟨67, _⟩ => ⟨S50000x64, .f32⟩
  | .hbm, ⟨68, _⟩ => ⟨S_, .i32⟩
  | .hbm, ⟨69, _⟩ => ⟨S600000, .i32⟩
  | .hbm, ⟨70, _⟩ => ⟨S600000, .i1⟩
  | .hbm, ⟨71, _⟩ => ⟨S_, .i32⟩
  | .hbm, ⟨72, _⟩ => ⟨S600000, .i32⟩
  | .hbm, ⟨73, _⟩ => ⟨S600000, .i32⟩
  | .hbm, ⟨74, _⟩ => ⟨S600000, .i32⟩
  | .hbm, ⟨75, _⟩ => ⟨S600000x1, .i32⟩
  | .hbm, ⟨76, _⟩ => ⟨S600000x64, .f32⟩
  | .hbm, ⟨77, _⟩ => ⟨S_, .f32⟩
  | .hbm, ⟨78, _⟩ => ⟨S50000x64, .f32⟩
  | .hbm, ⟨79, _⟩ => ⟨S600000x1, .i32⟩
  | .hbm, ⟨80, _⟩ => ⟨S50000x64, .f32⟩
  | .hbm, ⟨81, _⟩ => ⟨S64x64, .f32⟩
  | .hbm, ⟨82, _⟩ => ⟨S50000x64, .f32⟩
  | .hbm, ⟨83, _⟩ => ⟨S1x64, .f32⟩
  | .hbm, ⟨84, _⟩ => ⟨S50000x64, .f32⟩
  | .hbm, ⟨85, _⟩ => ⟨S50000x64, .f32⟩
  | .hbm, ⟨86, _⟩ => ⟨S64x64, .f32⟩
  | .hbm, ⟨87, _⟩ => ⟨S50000x64, .f32⟩
  | .hbm, ⟨88, _⟩ => ⟨S50000x64, .f32⟩
  | .hbm, ⟨89, _⟩ => ⟨S_, .f32⟩
  | .hbm, ⟨90, _⟩ => ⟨S512x64, .f32⟩
  | .hbm, ⟨91, _⟩ => ⟨S50000x1, .i32⟩
  | .hbm, ⟨92, _⟩ => ⟨S512x64, .f32⟩
  | .hbm, ⟨93, _⟩ => ⟨S64x64, .f32⟩
  | .hbm, ⟨94, _⟩ => ⟨S512x64, .f32⟩
  | .hbm, ⟨95, _⟩ => ⟨S1x64, .f32⟩
  | .hbm, ⟨96, _⟩ => ⟨S512x64, .f32⟩
  | .hbm, ⟨97, _⟩ => ⟨S512x64, .f32⟩
  | .hbm, ⟨98, _⟩ => ⟨S_, .f32⟩
  | .hbm, ⟨99, _⟩ => ⟨S512x64, .f32⟩
  | .hbm, ⟨100, _⟩ => ⟨S512x64, .f32⟩
  | .hbm, ⟨101, _⟩ => ⟨S64x32, .f32⟩
  | .hbm, ⟨102, _⟩ => ⟨S512x32, .f32⟩
  | .hbm, ⟨103, _⟩ => ⟨S1x32, .f32⟩
  | .hbm, ⟨104, _⟩ => ⟨S512x32, .f32⟩
  | .hbm, ⟨105, _⟩ => ⟨S512x32, .f32⟩
  | .hbm, ⟨106, _⟩ => ⟨S_, .f32⟩
  | .hbm, ⟨107, _⟩ => ⟨S512, .f32⟩
  | .hbm, ⟨108, _⟩ => ⟨S_, .f32⟩
  | .hbm, ⟨109, _⟩ => ⟨S512, .f32⟩
  | .hbm, ⟨110, _⟩ => ⟨S512, .f32⟩
  | .hbm, ⟨111, _⟩ => ⟨S512x1, .f32⟩
  | .hbm, ⟨112, _⟩ => ⟨S512x32, .f32⟩
  | .hbm, ⟨113, _⟩ => ⟨S512x32, .f32⟩
  | .hbm, ⟨114, _⟩ => ⟨S512x32, .f32⟩
  | .hbm, ⟨115, _⟩ => ⟨S_, .f32⟩
  | .hbm, ⟨116, _⟩ => ⟨S512, .f32⟩
  | .hbm, ⟨117, _⟩ => ⟨S512x1, .f32⟩
  | .hbm, ⟨118, _⟩ => ⟨S512x1, .f32⟩
  | .hbm, ⟨119, _⟩ => ⟨S512x32, .f32⟩
  | .hbm, ⟨120, _⟩ => ⟨S512x32, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_call0_cst : Ref sig .tc := ⟨.hbm, 41, rfl⟩
abbrev main_call0_v0 : Ref sig .tc := ⟨.hbm, 42, rfl⟩
abbrev main_v22 : Ref sig .tc := ⟨.hbm, 43, rfl⟩
abbrev main_c_1 : Ref sig .tc := ⟨.hbm, 44, rfl⟩
abbrev main_v23 : Ref sig .tc := ⟨.hbm, 45, rfl⟩
abbrev main_v24 : Ref sig .tc := ⟨.hbm, 46, rfl⟩
abbrev main_c_2 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_3 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_call1_cst : Ref sig .tc := ⟨.hbm, 65, rfl⟩
abbrev main_call1_v0 : Ref sig .tc := ⟨.hbm, 66, rfl⟩
abbrev main_v41 : Ref sig .tc := ⟨.hbm, 67, rfl⟩
abbrev main_c_4 : Ref sig .tc := ⟨.hbm, 68, rfl⟩
abbrev main_v42 : Ref sig .tc := ⟨.hbm, 69, rfl⟩
abbrev main_v43 : Ref sig .tc := ⟨.hbm, 70, rfl⟩
abbrev main_c_5 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_6 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_7 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_call2_cst : Ref sig .tc := ⟨.hbm, 98, rfl⟩
abbrev main_call2_v0 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_call3_cst : Ref sig .tc := ⟨.hbm, 106, rfl⟩
abbrev main_call3_v0 : Ref sig .tc := ⟨.hbm, 107, rfl⟩
abbrev main_call3_cst_0 : Ref sig .tc := ⟨.hbm, 108, rfl⟩
abbrev main_call3_v1 : Ref sig .tc := ⟨.hbm, 109, rfl⟩
abbrev main_call3_v2 : Ref sig .tc := ⟨.hbm, 110, rfl⟩
abbrev main_call3_v3 : Ref sig .tc := ⟨.hbm, 111, rfl⟩
abbrev main_call3_v4 : Ref sig .tc := ⟨.hbm, 112, rfl⟩
abbrev main_call3_v5 : Ref sig .tc := ⟨.hbm, 113, rfl⟩
abbrev main_call3_v6 : Ref sig .tc := ⟨.hbm, 114, rfl⟩
abbrev main_call3_cst_1 : Ref sig .tc := ⟨.hbm, 115, rfl⟩
abbrev main_call3_v7 : Ref sig .tc := ⟨.hbm, 116, rfl⟩
abbrev main_call3_v8 : Ref sig .tc := ⟨.hbm, 117, rfl⟩
abbrev main_call3_v9 : Ref sig .tc := ⟨.hbm, 118, rfl⟩
abbrev main_call3_v10 : Ref sig .tc := ⟨.hbm, 119, rfl⟩
abbrev main_v74 : Ref sig .tc := ⟨.hbm, 120, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  transposes_S64x64_S64x64_1_0 : S64x64.Transposes [1, 0] S64x64
  bcast_S_S512x64 : S_.BroadcastsInDim S512x64 (![] : Fin 0 → Fin S512x64.rank)
  bcast_S50000_S50000x1_0 : S50000.BroadcastsInDim S50000x1 (![0] : Fin 1 → Fin S50000x1.rank)
  bcast_S1x64_S512x64_0_1 : S1x64.BroadcastsInDim S512x64 (![0, 1] : Fin 2 → Fin S512x64.rank)
  transposes_S32x64_S64x32_1_0 : S32x64.Transposes [1, 0] S64x32
  bcast_S32_S1x32_1 : S32.BroadcastsInDim S1x32 (![1] : Fin 1 → Fin S1x32.rank)
  bcast_S1x32_S512x32_0_1 : S1x32.BroadcastsInDim S512x32 (![0, 1] : Fin 2 → Fin S512x32.rank)
  reducesTo_S512x32_S512_d1 : S512x32.ReducesTo [1] S512
  h_S_ : 0 < S_.numel
  bcast_S_S512 : S_.BroadcastsInDim S512 (![] : Fin 0 → Fin S512.rank)
  bcast_S512_S512x1_0 : S512.BroadcastsInDim S512x1 (![0] : Fin 1 → Fin S512x1.rank)
  bcast_S512x1_S512x32_0_1 : S512x1.BroadcastsInDim S512x32 (![0, 1] : Fin 2 → Fin S512x32.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  gather_S50000x64_S600000x1_S600000x64_1_0_n_n_0_1_164_wf : GatherDims.WF S50000x64 S600000x1 S600000x64 [1] [0] [] [0] [] 1 ![1, 64]
  scatter_S50000x64_S600000x1_S600000x64_1_0_0_1_wf : ScatterDims.WF S50000x64 S600000x1 S600000x64 [1] [0] [0] 1
  dot_S50000x64_S64x64_S50000x64_1_0_0_1_n_n_wf : DotDims.WF S50000x64 S64x64 S50000x64 [1] [0] [0] [1] [] []
  scatter_S512x64_S50000x1_S50000x64_1_0_0_1_wf : ScatterDims.WF S512x64 S50000x1 S50000x64 [1] [0] [0] 1
  dot_S512x64_S64x64_S512x64_1_0_0_1_n_n_wf : DotDims.WF S512x64 S64x64 S512x64 [1] [0] [0] [1] [] []
  dot_S512x64_S64x32_S512x32_1_0_0_1_n_n_wf : DotDims.WF S512x64 S64x32 S512x32 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf

class Facts : Prop extends Facts₀ where

variable [Facts]
-- ==== Proof.RunResult.lean ====
/-
  The idealized kernel's run, re-posted with its result: the program's seven regions and the host operations between them
  run as one chain of segments; every unscoped buffer ends at the contents the last segment boundary gives it, so the
  result buffer ends at that boundary's contents and the sixteen argument arrays at what they were launched with.
-/
import proofs.«154709_j85770496901295_2_alg».proof.Proof.KernelIdealFrameP

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; in the final state the result buffer holds
    what the last region's write-backs leave in it (the contents at the last segment boundary), and the argument arrays
    hold what they were launched with. -/
theorem run_result : θ_run defs (onTc (τ := τ) (main (F := F))) ⟨m, fun _ => 0, ρ⟩ (fun r => ∀ c : Dev nD,
      r.2.mem ((c.tc : Thread nD τ).loc main_v56) = W12 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v56 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c)⟩)

end Cert.KernelIdeal.Hand

end
-- ==== Proof.LibPlainDot.lean ====
/-
  A PLAIN MATRIX PRODUCT READ AT AN INDEX, generic in the three extents.

  For the dimension numbers of a plain product  [A, K] · [K, B] → [A, B]  (the left operand's axis 1 contracted
  with the right operand's axis 0, no batch axis: the library's `DotDims.plain A K B`), the sum over the
  contraction index set that the ideal instance gives a kernel's `tpu.matmul` and the host's `dot_general` is the
  textbook sum over `k : Fin K` of  l (r, k) · r (k, c)  at the output index (r, c):

  * `plain_sum`                — the re-indexing of the contraction sum through its one coordinate;
  * `matmul_zero_plain_apply`  — a kernel's matmul into the zero accumulator, read at an output index;
  * `dotGeneral_plain_apply`   — the host's dot_general, read at an output index;
  * `eq_plain`                 — any dimension-number record with these six lists IS `DotDims.plain`
                                 (the side condition is a proposition), so a printed record is replaced by it.

  Nothing here depends on a program.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {A K B : Nat}

/-- A dimension-number record for [A, K] · [K, B] → [A, B] whose six lists are the plain product's is the
    library's `DotDims.plain A K B`: the records differ at most in the proof of their side condition. -/
theorem eq_plain (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain A K B := by
  cases d
  simp only at h1 h2 h3 h4 h5 h6
  subst h1 h2 h3 h4 h5 h6
  rfl

/-- The contraction sum of a plain product at the output index `j = (r, c)`, re-indexed through the contraction's one
    coordinate: the sum over `k` of the left operand at (r, k) times the right operand at (k, c). -/
theorem plain_sum (l : (⟨2, ![A, K]⟩ : Shape).Idx → EReal) (r : (⟨2, ![K, B]⟩ : Shape).Idx → EReal)
    (j : (⟨2, ![A, B]⟩ : Shape).Idx) :
    ∑ q : (DotDims.plain A K B).contr.Idx, l ((DotDims.plain A K B).lhsIdx j q) * r ((DotDims.plain A K B).rhsIdx j q)
      = ∑ k : Fin K, l (ix2 (j 0) k) * r (ix2 k (j 1)) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx j ((contrEquiv1 (DotDims.plain A K B) K rfl rfl).symm k) = ix2 (j 0) k :=
    funext fun a => Fin.ext (by
      match a with
      | ⟨0, _⟩ => rfl
      | ⟨1, _⟩ => exact ((DotDims.plain A K B).lhsIdx_val_of_single rfl j _).trans hk)
  have er : (DotDims.plain A K B).rhsIdx j ((contrEquiv1 (DotDims.plain A K B) K rfl rfl).symm k) = ix2 k (j 1) :=
    funext fun a => Fin.ext (by
      match a with
      | ⟨0, _⟩ => exact ((DotDims.plain A K B).rhsIdx_val_of_single rfl j _).trans hk
      | ⟨1, _⟩ => rfl)
  exact congrArg₂ (fun a b => l a * r b) el er

/-- A kernel's matmul of a plain product into the zero accumulator, at the ideal values, read at an output index. -/
theorem matmul_zero_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    matmul (DotDims.plain A K B) prec l r (constant ⟨2, ![A, B]⟩ .f32 0x00000000#32) j
      = ∑ k : Fin K, l (ix2 (j 0) k) * r (ix2 k (j 1)) :=
  (Ideal.matmul_constant_zero_apply (DotDims.plain A K B) prec l r j).trans (plain_sum l r j)

/-- The host's dot_general of a plain product, at the ideal values, read at an output index. -/
theorem dotGeneral_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    Host.dotGeneral (DotDims.plain A K B) prec l r j = ∑ k : Fin K, l (ix2 (j 0) k) * r (ix2 k (j 1)) :=
  (Ideal.dotGeneral_apply (DotDims.plain A K B) prec .single l r j).trans (plain_sum l r j)

end Cert.Lib.PlainDot

end
-- ==== Proof.LibSegSum.lean ====
/-
  Gathering rows by an index list and adding rows into segments, read at an index, and the law that lets a factor
  which depends only on the SEGMENT leave a segment sum.

  * a gather of whole rows of an [N, C] array at start indices [R, 1] reads row clamp(idx e) of the operand, and the
    rank-1 form (an [N] vector gathered at [R, 1]) reads entry clamp(idx e);
  * an update (e, k) of an add-scatter of [R, C] updates into an [N, C] operand at scatter indices [R, 1] lands on
    element (n, k') only if the signed index of e IS n;
  * on the extended reals a factor D with 0 ≤ D < ⊤ distributes over a finite sum, whatever the summands are
    (no summand needs to be finite);
  * hence, for per-node factors D that are all in [0, ⊤): scaling the gathered rows by D at their SOURCE node before the
    segment sum and the sum by D at the TARGET node after it gives, element by element, the segment sum of the rows each
    scaled by the product of the two factors gathered per edge — provided the edge's target factor is gathered at the
    index the scatter itself uses whenever that index is in range (the update is dropped otherwise).
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibSegSum

open Idealize.ShloMosaic Idealize.ShloMosaic.ValueIdx

/-! ## The dimension numbers -/

/-- Rows of an [N, C] operand gathered at start indices [R, 1]: result [R, C]. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entries of an [N] operand gathered at start indices [R, 1]: result [R]. -/
abbrev entriesDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Rows [R, C] added into an [N, C] operand at scatter indices [R, 1]. -/
abbrev addRowsDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The start-indices index [e, 0] of edge e. -/
abbrev at0 {R : Nat} (e : Fin R) : (⟨2, ![R, 1]⟩ : Shape).Idx := ix2 e (⟨0, Nat.one_pos⟩ : Fin 1)

/-- A signed index clamped into [0, N − 1]. -/
abbrev clampIx {N : Nat} (hN : 0 < N) (v : BitVec 32) : Fin N := ⟨min v.toInt.toNat (N - 1), by omega⟩

/-! ## The gathers read at an index -/

section Gather
variable {α : Type}

theorem gather_rows_apply {N R C : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ 32) (e : Fin R) (k : Fin C) :
    Host.gather (rowsDims N R C wf) x idx (ix2 e k) = x (ix2 (clampIx hN (idx (at0 e))) k) := by
  unfold Host.gather
  congr 1
  funext a
  refine Fin.ext ?_
  have hsi : (rowsDims N R C wf).siIdx (ix2 e k) ⟨List.idxOf (0 : Fin 2) (rowsDims N R C wf).startIndexMap,
      List.idxOf_lt_length_iff.2 (List.mem_singleton.mpr rfl)⟩ = at0 e := by
    funext b; refine Fin.ext ?_
    match b with
    | ⟨0, _⟩ => rfl
    | ⟨1, _⟩ => rfl
  match a with
  | ⟨0, _⟩ =>
    show (rowsDims N R C wf).start (ix2 e k) idx 0 + (rowsDims N R C wf).batchCoord (ix2 e k) 0
      + (rowsDims N R C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    rw [hsi]
    rfl
  | ⟨1, _⟩ =>
    show (rowsDims N R C wf).start (ix2 e k) idx 1 + (rowsDims N R C wf).batchCoord (ix2 e k) 1
      + (rowsDims N R C wf).offCoord (ix2 e k) 1 = _
    rw [GatherDims.batchCoord_eq_zero _ _ _ List.not_mem_nil]
    unfold GatherDims.start
    rw [dif_neg (show (1 : Fin 2) ∉ (rowsDims N R C wf).startIndexMap from (by decide : (1 : Fin 2) ∉ ([0] : List (Fin 2))))]
    simp only [Nat.add_zero, Nat.zero_add]
    rfl

theorem gather_entries_apply {N R : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ 32) (e : Fin R) :
    Host.gather (entriesDims N R wf) x idx (ix1 e) = x (ix1 (clampIx hN (idx (at0 e)))) := by
  unfold Host.gather
  congr 1
  funext a
  obtain rfl : a = 0 := Subsingleton.elim _ _
  refine Fin.ext ?_
  show (entriesDims N R wf).start (ix1 e) idx 0 + (entriesDims N R wf).batchCoord (ix1 e) 0
    + (entriesDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesDims N R wf).startIndexMap from List.mem_singleton.mpr rfl)]
  have hsi : (entriesDims N R wf).siIdx (ix1 e) ⟨List.idxOf (0 : Fin 1) (entriesDims N R wf).startIndexMap,
      List.idxOf_lt_length_iff.2 (List.mem_singleton.mpr rfl)⟩ = at0 e := by
    funext b; refine Fin.ext ?_
    match b with
    | ⟨0, _⟩ => rfl
    | ⟨1, _⟩ => rfl
  rw [hsi]
  rfl

end Gather

/-! ## Where an added row lands -/

theorem addRows_lands {N R C : Nat}
    (wf : ScatterDims.WF ⟨2, ![N, C]⟩ ⟨2, ![R, 1]⟩ ⟨2, ![R, C]⟩ [1] [0] [0] 1)
    (idx : IVec ⟨2, ![R, 1]⟩ 32) (e : Fin R) (k : Fin C) (i : (⟨2, ![N, C]⟩ : Shape).Idx)
    (h : (addRowsDims N R C wf).resultIdx? (ix2 e k) idx = some i) :
    (idx (at0 e)).toInt = ((i 0).val : Int) := by
  have hsi : (addRowsDims N R C wf).siIdx (ix2 e k) ⟨List.idxOf (0 : Fin 2) (addRowsDims N R C wf).scatterDimsToOperandDims,
      List.idxOf_lt_length_iff.2 (List.mem_singleton.mpr rfl)⟩ = at0 e := by
    funext b; refine Fin.ext ?_
    match b with
    | ⟨0, _⟩ => rfl
    | ⟨1, _⟩ => rfl
  have hstart : (addRowsDims N R C wf).start (ix2 e k) idx 0 = (idx (at0 e)).toInt := by
    unfold ScatterDims.start
    rw [dif_pos (show (0 : Fin 2) ∈ (addRowsDims N R C wf).scatterDimsToOperandDims from List.mem_singleton.mpr rfl), hsi]
  have hwin : (addRowsDims N R C wf).window (ix2 e k) 0 = 0 := by
    unfold ScatterDims.window
    rw [dif_neg (show (0 : Fin 2) ∉ (addRowsDims N R C wf).sKept from (by decide : (0 : Fin 2) ∉ (List.finRange 2).filter (· ∉ ([0] : List (Fin 2)))))]
  unfold ScatterDims.resultIdx? at h
  split at h
  · rename_i hin
    have h0 := congrArg (fun f => (f 0).val) (Option.some.inj h)
    simp only at h0
    have hb := (hin 0).1
    rw [hstart, hwin] at h0 hb
    simp only [Nat.cast_zero, add_zero] at h0 hb
    omega
  · exact absurd h (by simp)

/-! ## A factor in [0, ⊤) leaves a sum -/

theorem sum_mul_of_nonneg_ne_top {ι : Type} [DecidableEq ι] (s : Finset ι) (f : ι → EReal) (D : EReal)
    (h0 : 0 ≤ D) (ht : D ≠ ⊤) : (∑ j ∈ s, f j) * D = ∑ j ∈ s, f j * D := by
  induction s using Finset.induction_on with
  | empty => simp
  | insert a s ha ih =>
    rw [Finset.sum_insert ha, Finset.sum_insert ha, EReal.right_distrib_of_nonneg_of_ne_top h0 ht, ih]

/-! ## Two keepdims broadcasts in a row: a vector down the rows of a matrix -/

section Bcast
variable {α : Type}

/-- [A] → [A, 1] → [A, B], read at (a, b): the vector's entry a. -/
theorem bcast_col_apply {A B : Nat}
    (h1 : (⟨1, ![A]⟩ : Shape).BroadcastsInDim ⟨2, ![A, 1]⟩ ![0])
    (h2 : (⟨2, ![A, 1]⟩ : Shape).BroadcastsInDim ⟨2, ![A, B]⟩ ![0, 1])
    (v : (⟨1, ![A]⟩ : Shape).Idx → α) (a : Fin A) (b : Fin B) :
    broadcastInDim ⟨2, ![A, B]⟩ ![0, 1] h2 (broadcastInDim ⟨2, ![A, 1]⟩ ![0] h1 v) (ix2 a b) = v (ix1 a) := by
  refine (broadcastInDim_apply ![0, 1] h2 _ (ix2 a b) (ix2 a (⟨0, Nat.one_pos⟩ : Fin 1)) fun d => ?_).trans
    (broadcastInDim_apply ![0] h1 v (ix2 a (⟨0, Nat.one_pos⟩ : Fin 1)) (ix1 a) fun d => ?_)
  · match d with
    | ⟨0, _⟩ =>
      show a.val = if A = 1 then 0 else a.val
      split
      · have := a.isLt; omega
      · rfl
    | ⟨1, _⟩ => exact (if_pos rfl).symm
  · match d with
    | ⟨0, _⟩ =>
      show a.val = if A = 1 then 0 else a.val
      split
      · have := a.isLt; omega
      · rfl

/-- [A] → [A, 1], read at (a, 0): the vector's entry a. -/
theorem bcast_unit_apply {A : Nat}
    (h1 : (⟨1, ![A]⟩ : Shape).BroadcastsInDim ⟨2, ![A, 1]⟩ ![0])
    (v : (⟨1, ![A]⟩ : Shape).Idx → α) (a : Fin A) :
    broadcastInDim ⟨2, ![A, 1]⟩ ![0] h1 v (at0 a) = v (ix1 a) := by
  refine broadcastInDim_apply ![0] h1 v (at0 a) (ix1 a) fun d => ?_
  match d with
  | ⟨0, _⟩ =>
    show a.val = if A = 1 then 0 else a.val
    split
    · have := a.isLt; omega
    · rfl

/-- [B] → [1, B] → [A, B], read at (a, b): the vector's entry b. -/
theorem bcast_row_apply {A B : Nat}
    (h1 : (⟨1, ![B]⟩ : Shape).BroadcastsInDim ⟨2, ![1, B]⟩ ![1])
    (h2 : (⟨2, ![1, B]⟩ : Shape).BroadcastsInDim ⟨2, ![A, B]⟩ ![0, 1])
    (v : (⟨1, ![B]⟩ : Shape).Idx → α) (a : Fin A) (b : Fin B) :
    broadcastInDim ⟨2, ![A, B]⟩ ![0, 1] h2 (broadcastInDim ⟨2, ![1, B]⟩ ![1] h1 v) (ix2 a b) = v (ix1 b) := by
  refine (broadcastInDim_apply ![0, 1] h2 _ (ix2 a b) (ix2 (⟨0, Nat.one_pos⟩ : Fin 1) b) fun d => ?_).trans
    (broadcastInDim_apply ![1] h1 v (ix2 (⟨0, Nat.one_pos⟩ : Fin 1) b) (ix1 b) fun d => ?_)
  · match d with
    | ⟨0, _⟩ => exact (if_pos rfl).symm
    | ⟨1, _⟩ =>
      show b.val = if B = 1 then 0 else b.val
      split
      · have := b.isLt; omega
      · rfl
  · match d with
    | ⟨0, _⟩ =>
      show b.val = if B = 1 then 0 else b.val
      split
      · have := b.isLt; omega
      · rfl

end Bcast

/-! ## A negative index wrapped, an index that is not negative left alone -/

/-- select(v < 0, a, v) is v when v is not negative as a signed word. -/
theorem wrap_of_nonneg (v a : BitVec 32) (h : 0 ≤ v.toInt) : Scalar.select (IntOp.cmpi .slt v 0#32) a v = v := by
  have hs : v.slt 0#32 = false := by
    simp only [BitVec.slt, BitVec.toInt_zero, decide_eq_false_iff_not, not_lt]
    exact h
  have hc : IntOp.cmpi .slt v 0#32 = 0#1 := by
    show BitVec.ofBool (v.slt 0#32) = 0#1
    rw [hs]; rfl
  rw [hc]
  exact select_zero _ _

/-! ## The inverse square root of a degree, guarded at zero, lies in [0, ⊤) -/

theorem rsqrt_range (v : EReal) (hv : 0 < v) : 0 ≤ Ideal.rsqrt v ∧ Ideal.rsqrt v ≠ ⊤ := by
  induction v using EReal.rec with
  | bot => exact absurd hv (by simp)
  | coe r =>
    have hr : 0 < r := by exact_mod_cast hv
    rw [Ideal.rsqrt_coe, if_neg (not_lt.mpr hr.le), if_neg hr.ne']
    exact ⟨by exact_mod_cast (inv_nonneg.mpr (Real.sqrt_nonneg r)), EReal.coe_ne_top _⟩
  | top => rw [Ideal.rsqrt_top]; exact ⟨le_refl _, EReal.zero_ne_top⟩

/-- select(g > z, rsqrt(max(g, ε)), z) with ε > 0 and z = 0 is a number in [0, ⊤), whatever g is. -/
theorem guarded_rsqrt_range (g eps z : EReal) (heps : 0 < eps) (hz : z = 0) :
    0 ≤ Scalar.select (Ideal.cmp .ogt g z) (Ideal.rsqrt (max g eps)) z
      ∧ Scalar.select (Ideal.cmp .ogt g z) (Ideal.rsqrt (max g eps)) z ≠ ⊤ := by
  unfold Scalar.select
  split
  · exact rsqrt_range _ (lt_of_lt_of_le heps (le_max_right _ _))
  · rw [hz]; exact ⟨le_refl _, EReal.zero_ne_top⟩

/-! ## The law -/

/-- Rows scaled by D at the source before the segment sum and by D at the target after it, against the rows scaled per
    edge by the product of the two gathered factors: equal element by element when every D is in [0, ⊤), the operand
    being added into is zero, and the target factor's gather index is the scatter's own index wherever that is not
    negative. -/
theorem hoist {N R C : Nat} (hN : 0 < N)
    (wfS : ScatterDims.WF ⟨2, ![N, C]⟩ ⟨2, ![R, 1]⟩ ⟨2, ![R, C]⟩ [1] [0] [0] 1)
    (wfG : GatherDims.WF ⟨2, ![N, C]⟩ ⟨2, ![R, 1]⟩ ⟨2, ![R, C]⟩ [1] [0] [] [0] [] 1 ![1, C])
    (wfV : GatherDims.WF ⟨1, ![N]⟩ ⟨2, ![R, 1]⟩ ⟨1, ![R]⟩ [] [0] [] [0] [] 1 ![1])
    (h1 : (⟨1, ![N]⟩ : Shape).BroadcastsInDim ⟨2, ![N, 1]⟩ ![0])
    (h2 : (⟨2, ![N, 1]⟩ : Shape).BroadcastsInDim ⟨2, ![N, C]⟩ ![0, 1])
    (g1 : (⟨1, ![R]⟩ : Shape).BroadcastsInDim ⟨2, ![R, 1]⟩ ![0])
    (g2 : (⟨2, ![R, 1]⟩ : Shape).BroadcastsInDim ⟨2, ![R, C]⟩ ![0, 1])
    (Z XL : FVec Ideal ⟨2, ![N, C]⟩ .f32) (hZ : ∀ i, Z i = 0)
    (D : FVec Ideal ⟨1, ![N]⟩ .f32) (hD : ∀ n, 0 ≤ D n ∧ D n ≠ ⊤)
    (rW cW cB : IVec ⟨2, ![R, 1]⟩ 32)
    (hW : ∀ e : Fin R, 0 ≤ (cB (at0 e)).toInt → cW (at0 e) = cB (at0 e)) :
    mulf (Host.scatterAdd (addRowsDims N R C wfS) Z cB
        (Host.gather (rowsDims N R C wfG)
          (mulf XL (broadcastInDim ⟨2, ![N, C]⟩ ![0, 1] h2 (broadcastInDim ⟨2, ![N, 1]⟩ ![0] h1 D))) rW))
      (broadcastInDim ⟨2, ![N, C]⟩ ![0, 1] h2 (broadcastInDim ⟨2, ![N, 1]⟩ ![0] h1 D))
    = Host.scatterAdd (addRowsDims N R C wfS) Z cB
        (mulf (Host.gather (rowsDims N R C wfG) XL rW)
          (broadcastInDim ⟨2, ![R, C]⟩ ![0, 1] g2 (broadcastInDim ⟨2, ![R, 1]⟩ ![0] g1
            (mulf (Host.gather (entriesDims N R wfV) D rW) (Host.gather (entriesDims N R wfV) D cW))))) := by
  funext i
  obtain ⟨n, k, rfl⟩ : ∃ (n : Fin N) (k : Fin C), i = ix2 n k := ⟨i 0, i 1, eq_ix2 i⟩
  rw [mulf_apply, bcast_col_apply]
  simp only [Host.scatterAdd, Ideal.hostScatterAdd_def, Ideal.hostScatterAdd]
  rw [hZ, zero_add, zero_add, sum_mul_of_nonneg_ne_top _ _ _ (hD _).1 (hD _).2]
  refine Finset.sum_congr rfl fun j hj => ?_
  obtain ⟨e, k', rfl⟩ : ∃ (e : Fin R) (k' : Fin C), j = ix2 e k' := ⟨j 0, j 1, eq_ix2 j⟩
  have hland := addRows_lands wfS cB e k' (ix2 n k) (Finset.mem_filter.mp hj).2
  have hcl : clampIx hN (cW (at0 e)) = n := by
    rw [hW e (by rw [hland]; exact Int.natCast_nonneg _)]
    refine Fin.ext ?_
    show min (cB (at0 e)).toInt.toNat (N - 1) = n.val
    have hn := n.isLt
    rw [hland]
    show min ((n.val : Int)).toNat (N - 1) = n.val
    rw [Int.toNat_natCast]
    omega
  rw [gather_rows_apply hN, mulf_apply, bcast_col_apply, mulf_apply, gather_rows_apply hN, bcast_col_apply, mulf_apply,
    gather_entries_apply hN, gather_entries_apply hN, hcl, mul_assoc]

end Cert.LibSegSum

end
-- ==== Proof.LibDenseLayer.lean ====
/-
  DENSE-LAYER STAGES AS FUNCTIONS OF WHOLE ARRAYS, element by element on the extended reals, generic in the extents:
  a plain product, a bias added to every row followed by a maximum with a constant, a bias added to every row; and
  the host operations (dot_general; two keepdims broadcasts of a vector, add, maximum with a broadcast scalar) that
  compute them. Nothing here depends on a program.

  * `prod X W`      — the plain product  [A, K] · [K, B] → [A, B]:  (r, c) ↦ Σ_k X(r, k) · W(k, c);
  * `actRow Z b z`  — the bias row b : [1, K] added to every row of Z : [A, K], then the maximum with z;
  * `act Z b z`     — the same with the bias a vector b : [K];
  * `addRowRow`, `addRow` — a row o : [1, B] (a vector o : [B]) added to every row of Y : [A, B].

  A vector cast to a one-row matrix reads its entry k at (0, k), so the row forms and the vector forms agree.
  The host's dot_general of a plain product is `prod`; two keepdims broadcasts [K] → [1, K] → [A, K] of a vector read
  its entry k at (a, k), so the host's bias-add-then-maximum is `act` and its bias add is `addRow`.
-/
import proofs.«154709_j85770496901295_2_alg».proof.Proof.LibPlainDot
import proofs.«154709_j85770496901295_2_alg».proof.Proof.LibSegSum
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Layer

open Idealize.ShloMosaic Idealize.ShloMosaic.ValueIdx

variable {A K B : Nat}

/-- The plain product of an [A, K] array with a [K, B] array. -/
def prod (X : (⟨2, ![A, K]⟩ : Shape).Idx → EReal) (W : (⟨2, ![K, B]⟩ : Shape).Idx → EReal) :
    (⟨2, ![A, B]⟩ : Shape).Idx → EReal :=
  fun i => ∑ k : Fin K, X (ix2 (i 0) k) * W (ix2 k (i 1))

/-- A bias ROW added to every row, then the maximum with `z`. -/
def actRow (Z : (⟨2, ![A, K]⟩ : Shape).Idx → EReal) (b : (⟨2, ![1, K]⟩ : Shape).Idx → EReal) (z : EReal) :
    (⟨2, ![A, K]⟩ : Shape).Idx → EReal :=
  fun i => max (Z i + b (ix2 (0 : Fin 1) (i 1))) z

/-- A bias VECTOR added to every row, then the maximum with `z`. -/
def act (Z : (⟨2, ![A, K]⟩ : Shape).Idx → EReal) (b : (⟨1, ![K]⟩ : Shape).Idx → EReal) (z : EReal) :
    (⟨2, ![A, K]⟩ : Shape).Idx → EReal :=
  fun i => max (Z i + b (ix1 (i 1))) z

/-- A ROW added to every row. -/
def addRowRow (Y : (⟨2, ![A, B]⟩ : Shape).Idx → EReal) (o : (⟨2, ![1, B]⟩ : Shape).Idx → EReal) :
    (⟨2, ![A, B]⟩ : Shape).Idx → EReal :=
  fun i => Y i + o (ix2 (0 : Fin 1) (i 1))

/-- A VECTOR added to every row. -/
def addRow (Y : (⟨2, ![A, B]⟩ : Shape).Idx → EReal) (o : (⟨1, ![B]⟩ : Shape).Idx → EReal) :
    (⟨2, ![A, B]⟩ : Shape).Idx → EReal :=
  fun i => Y i + o (ix1 (i 1))

/-- The row form at the vector cast to one row is the vector form. -/
theorem actRow_cast (Z : (⟨2, ![A, K]⟩ : Shape).Idx → EReal) (b : (⟨1, ![K]⟩ : Shape).Idx → EReal)
    (h : (⟨1, ![K]⟩ : Shape).ShapeCasts ⟨2, ![1, K]⟩) (z : EReal) :
    actRow Z (shapeCast ⟨2, ![1, K]⟩ b h) z = act Z b z :=
  funext fun i => by
    obtain ⟨a, k, rfl⟩ : ∃ (a : Fin A) (k : Fin K), i = ix2 a k := ⟨i 0, i 1, eq_ix2 i⟩
    show max (Z (ix2 a k) + shapeCast ⟨2, ![1, K]⟩ b h (ix2 (0 : Fin 1) k)) z = max (Z (ix2 a k) + b (ix1 k)) z
    rw [shapeCast_a_1a_apply]

theorem addRowRow_cast (Y : (⟨2, ![A, B]⟩ : Shape).Idx → EReal) (o : (⟨1, ![B]⟩ : Shape).Idx → EReal)
    (h : (⟨1, ![B]⟩ : Shape).ShapeCasts ⟨2, ![1, B]⟩) :
    addRowRow Y (shapeCast ⟨2, ![1, B]⟩ o h) = addRow Y o :=
  funext fun i => by
    obtain ⟨a, k, rfl⟩ : ∃ (a : Fin A) (k : Fin B), i = ix2 a k := ⟨i 0, i 1, eq_ix2 i⟩
    show Y (ix2 a k) + shapeCast ⟨2, ![1, B]⟩ o h (ix2 (0 : Fin 1) k) = Y (ix2 a k) + o (ix1 k)
    rw [shapeCast_a_1a_apply]

/-- The host's dot_general of a plain product (whatever record spells its dimension numbers) is `prod`. -/
theorem dotGeneral_eq_prod (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (X : FVec Ideal ⟨2, ![A, K]⟩ .f32) (W : FVec Ideal ⟨2, ![K, B]⟩ .f32) :
    Host.dotGeneral d none X W = prod X W := by
  rw [Cert.Lib.PlainDot.eq_plain d h1 h2 h3 h4 h5 h6]
  exact funext fun i => Cert.Lib.PlainDot.dotGeneral_plain_apply none X W i

/-- The host's bias add (the vector broadcast to one row, the row to every row) and maximum with a broadcast
    scalar constant is `act` at that constant's value. -/
theorem hostAct_eq (Z : FVec Ideal ⟨2, ![A, K]⟩ .f32) (b : FVec Ideal ⟨1, ![K]⟩ .f32)
    (h1 : (⟨1, ![K]⟩ : Shape).BroadcastsInDim ⟨2, ![1, K]⟩ ![1])
    (h2 : (⟨2, ![1, K]⟩ : Shape).BroadcastsInDim ⟨2, ![A, K]⟩ ![0, 1])
    (z : FVec Ideal ⟨0, ![]⟩ .f32) (h0 : (⟨0, ![]⟩ : Shape).BroadcastsInDim ⟨2, ![A, K]⟩ ![]) :
    maximumf (addf Z (broadcastInDim ⟨2, ![A, K]⟩ ![0, 1] h2 (broadcastInDim ⟨2, ![1, K]⟩ ![1] h1 b)))
        (broadcastInDim ⟨2, ![A, K]⟩ ![] h0 z)
      = act Z b (z ix0) :=
  funext fun i => by
    obtain ⟨a, k, rfl⟩ : ∃ (a : Fin A) (k : Fin K), i = ix2 a k := ⟨i 0, i 1, eq_ix2 i⟩
    show max (Z (ix2 a k) + broadcastInDim ⟨2, ![A, K]⟩ ![0, 1] h2 (broadcastInDim ⟨2, ![1, K]⟩ ![1] h1 b) (ix2 a k))
        (broadcastInDim ⟨2, ![A, K]⟩ ![] h0 z (ix2 a k)) = max (Z (ix2 a k) + b (ix1 k)) (z ix0)
    have hz : broadcastInDim ⟨2, ![A, K]⟩ ![] h0 z (ix2 a k) = z ix0 :=
      broadcastInDim_apply ![] h0 z (ix2 a k) ix0 fun d => d.elim0
    rw [hz, Cert.LibSegSum.bcast_row_apply]

/-- The host's bias add of a vector to every row is `addRow`. -/
theorem hostAddRow_eq (Y : FVec Ideal ⟨2, ![A, B]⟩ .f32) (o : FVec Ideal ⟨1, ![B]⟩ .f32)
    (h1 : (⟨1, ![B]⟩ : Shape).BroadcastsInDim ⟨2, ![1, B]⟩ ![1])
    (h2 : (⟨2, ![1, B]⟩ : Shape).BroadcastsInDim ⟨2, ![A, B]⟩ ![0, 1]) :
    addf Y (broadcastInDim ⟨2, ![A, B]⟩ ![0, 1] h2 (broadcastInDim ⟨2, ![1, B]⟩ ![1] h1 o)) = addRow Y o :=
  funext fun i => by
    obtain ⟨a, k, rfl⟩ : ∃ (a : Fin A) (k : Fin B), i = ix2 a k := ⟨i 0, i 1, eq_ix2 i⟩
    show Y (ix2 a k) + broadcastInDim ⟨2, ![A, B]⟩ ![0, 1] h2 (broadcastInDim ⟨2, ![1, B]⟩ ![1] h1 o) (ix2 a k)
      = Y (ix2 a k) + o (ix1 k)
    rw [Cert.LibSegSum.bcast_row_apply]

end Cert.Layer

end
-- ==== Proof.LibRowLocal.lean ====
/-
  DENSE STAGES THAT ACT ROW BY ROW, as functions of whole arrays on the extended reals, generic in the extents.

  * `scaleRows Y s`  — row a of Y : [A, B] multiplied by the entry s(a, 0) of a column s : [A, 1];
  * `mapEntries f Y` — a function of one extended real applied to every entry.

  Three things are proved about them and about the product, the bias-then-maximum and the bias add of the dense-layer
  file (`prod`, `act`, `addRow`):

  1. the HOST's spelling is the stage: a column broadcast along the rows by `broadcast_in_dim` and multiplied;
  2. a KERNEL's spelling is the stage: a matmul into the zero accumulator is `prod`; a column cast to its own shape,
     broadcast along the rows and multiplied is `scaleRows`; a vector cast to one row, broadcast down the rows, added and
     met with a broadcast scalar is `act`, without the maximum `addRow`;
  3. each stage is ROW-LOCAL: if a block x : [a, ·] holds the rows e(0), …, e(a−1) of X : [A, ·] (and a block of the
     column the same rows of the column), then the stage of the blocks, read at (p, q), is the stage of the whole arrays
     read at (e p, q). A matrix that is not cut (the weights, the bias) is the same on both sides.

  Nothing here depends on a program.
-/
import proofs.«154709_j85770496901295_2_alg».proof.Proof.LibDenseLayer
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.RowLocal

open Idealize.ShloMosaic Idealize.ShloMosaic.ValueIdx Cert.Layer

variable {A K B : Nat}

/-- The index (a, 0) of a column. -/
abbrev col0 (a : Fin A) : (⟨2, ![A, 1]⟩ : Shape).Idx := ix2 a (⟨0, Nat.one_pos⟩ : Fin 1)

/-- Row a of Y multiplied by s(a, 0). -/
def scaleRows (Y : (⟨2, ![A, B]⟩ : Shape).Idx → EReal) (s : (⟨2, ![A, 1]⟩ : Shape).Idx → EReal) :
    (⟨2, ![A, B]⟩ : Shape).Idx → EReal :=
  fun i => Y i * s (col0 (i 0))

/-- A function of one extended real applied entry by entry. -/
def mapEntries (f : EReal → EReal) (Y : (⟨2, ![A, B]⟩ : Shape).Idx → EReal) : (⟨2, ![A, B]⟩ : Shape).Idx → EReal :=
  fun i => f (Y i)

theorem scaleRows_apply (Y : (⟨2, ![A, B]⟩ : Shape).Idx → EReal) (s : (⟨2, ![A, 1]⟩ : Shape).Idx → EReal)
    (a : Fin A) (b : Fin B) : scaleRows Y s (ix2 a b) = Y (ix2 a b) * s (col0 a) := rfl

/-! ## The host's spelling -/

/-- A column [A, 1] broadcast along the rows to [A, B], read at (a, b): the column's entry (a, 0). -/
theorem bcastCol_apply (h : (⟨2, ![A, 1]⟩ : Shape).BroadcastsInDim ⟨2, ![A, B]⟩ ![0, 1])
    (s : (⟨2, ![A, 1]⟩ : Shape).Idx → EReal) (a : Fin A) (b : Fin B) :
    broadcastInDim ⟨2, ![A, B]⟩ ![0, 1] h s (ix2 a b) = s (col0 a) := by
  refine broadcastInDim_apply ![0, 1] h s (ix2 a b) (col0 a) fun d => ?_
  match d with
  | ⟨0, _⟩ =>
    show a.val = if A = 1 then 0 else a.val
    split
    · have := a.isLt; omega
    · rfl
  | ⟨1, _⟩ => exact (if_pos rfl).symm

/-- The host's product with a column broadcast along the rows is `scaleRows`. -/
theorem hostScale_eq (Y : FVec Ideal ⟨2, ![A, B]⟩ .f32) (s : FVec Ideal ⟨2, ![A, 1]⟩ .f32)
    (h : (⟨2, ![A, 1]⟩ : Shape).BroadcastsInDim ⟨2, ![A, B]⟩ ![0, 1]) :
    mulf Y (broadcastInDim ⟨2, ![A, B]⟩ ![0, 1] h s) = scaleRows Y s :=
  funext fun i => by
    obtain ⟨a, b, rfl⟩ : ∃ (a : Fin A) (b : Fin B), i = ix2 a b := ⟨i 0, i 1, eq_ix2 i⟩
    show Y (ix2 a b) * broadcastInDim ⟨2, ![A, B]⟩ ![0, 1] h s (ix2 a b) = Y (ix2 a b) * s (col0 a)
    rw [bcastCol_apply]

/-- The host's hyperbolic tangent is the entrywise one. -/
theorem hostTanh_eq (Y : FVec Ideal ⟨2, ![A, B]⟩ .f32) : Host.tanh Y = mapEntries Ideal.tanh Y := rfl

/-! ## A kernel's spelling -/

/-- A column [A, 1] broadcast (as a vector broadcast) to [A, B], read at (a, b): the column's entry (a, 0). -/
theorem bcastToCol_apply (h : (⟨2, ![A, 1]⟩ : Shape).Broadcasts ⟨2, ![A, B]⟩)
    (s : (⟨2, ![A, 1]⟩ : Shape).Idx → EReal) (a : Fin A) (b : Fin B) :
    broadcastTo ⟨2, ![A, B]⟩ s h (ix2 a b) = s (col0 a) := by
  refine broadcastTo_apply s h (ix2 a b) (col0 a) fun d => ?_
  match d with
  | ⟨0, _⟩ =>
    show a.val = if A = 1 then 0 else a.val
    split
    · have := a.isLt; omega
    · rfl
  | ⟨1, _⟩ => exact (if_pos rfl).symm

/-- A kernel's product with a column, cast to its own shape and broadcast along the rows, is `scaleRows`. -/
theorem kernelScale_eq (Y : FVec Ideal ⟨2, ![A, B]⟩ .f32) (s : FVec Ideal ⟨2, ![A, 1]⟩ .f32)
    (hc : (⟨2, ![A, 1]⟩ : Shape).ShapeCasts ⟨2, ![A, 1]⟩) (hb : (⟨2, ![A, 1]⟩ : Shape).Broadcasts ⟨2, ![A, B]⟩) :
    mulf Y (broadcastTo ⟨2, ![A, B]⟩ (shapeCast ⟨2, ![A, 1]⟩ s hc) hb) = scaleRows Y s :=
  funext fun i => by
    obtain ⟨a, b, rfl⟩ : ∃ (a : Fin A) (b : Fin B), i = ix2 a b := ⟨i 0, i 1, eq_ix2 i⟩
    show Y (ix2 a b) * broadcastTo ⟨2, ![A, B]⟩ (shapeCast ⟨2, ![A, 1]⟩ s hc) hb (ix2 a b) = Y (ix2 a b) * s (col0 a)
    rw [bcastToCol_apply, shapeCast_self]

/-- A kernel's matmul of a plain product into the zero accumulator (whatever record spells its dimension numbers, and
    whatever formats the operands were narrowed to) is `prod`. -/
theorem kernelProd_eq {φ₁ φ₂ : FTy} (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (X : FVec Ideal ⟨2, ![A, K]⟩ φ₁) (W : FVec Ideal ⟨2, ![K, B]⟩ φ₂) :
    matmul d none X W (constant ⟨2, ![A, B]⟩ .f32 0x00000000#32) = prod X W := by
  rw [Cert.Lib.PlainDot.eq_plain d h1 h2 h3 h4 h5 h6]
  exact funext fun i => Cert.Lib.PlainDot.matmul_zero_plain_apply none X W i

/-- A kernel's bias add (the vector cast to one row, the row broadcast down the rows) and maximum with a broadcast
    scalar is `act`. -/
theorem kernelAct_eq (Z : FVec Ideal ⟨2, ![A, K]⟩ .f32) (b : FVec Ideal ⟨1, ![K]⟩ .f32)
    (hc : (⟨1, ![K]⟩ : Shape).ShapeCasts ⟨2, ![1, K]⟩) (hb : (⟨2, ![1, K]⟩ : Shape).Broadcasts ⟨2, ![A, K]⟩) (z : EReal) :
    maximumf (addf Z (broadcastTo ⟨2, ![A, K]⟩ (shapeCast ⟨2, ![1, K]⟩ b hc) hb)) (broadcast ⟨2, ![A, K]⟩ z) = act Z b z :=
  funext fun i => by
    obtain ⟨a, k, rfl⟩ : ∃ (a : Fin A) (k : Fin K), i = ix2 a k := ⟨i 0, i 1, eq_ix2 i⟩
    show max (Z (ix2 a k) + broadcastTo ⟨2, ![A, K]⟩ (shapeCast ⟨2, ![1, K]⟩ b hc) hb (ix2 a k)) z
      = max (Z (ix2 a k) + b (ix1 k)) z
    rw [broadcastTo_1b_ab_apply, shapeCast_a_1a_apply]

/-- A kernel's bias add of a vector to every row is `addRow`. -/
theorem kernelAddRow_eq (Y : FVec Ideal ⟨2, ![A, B]⟩ .f32) (o : FVec Ideal ⟨1, ![B]⟩ .f32)
    (hc : (⟨1, ![B]⟩ : Shape).ShapeCasts ⟨2, ![1, B]⟩) (hb : (⟨2, ![1, B]⟩ : Shape).Broadcasts ⟨2, ![A, B]⟩) :
    addf Y (broadcastTo ⟨2, ![A, B]⟩ (shapeCast ⟨2, ![1, B]⟩ o hc) hb) = addRow Y o :=
  funext fun i => by
    obtain ⟨a, k, rfl⟩ : ∃ (a : Fin A) (k : Fin B), i = ix2 a k := ⟨i 0, i 1, eq_ix2 i⟩
    show Y (ix2 a k) + broadcastTo ⟨2, ![A, B]⟩ (shapeCast ⟨2, ![1, B]⟩ o hc) hb (ix2 a k) = Y (ix2 a k) + o (ix1 k)
    rw [broadcastTo_1b_ab_apply, shapeCast_a_1a_apply]

/-! ## Row-locality: the stage of a block of rows is that block of the stage -/

section Blocks
variable {a : Nat} (e : Fin a → Fin A)

/-- A block x : [a, C] holds the rows e(0), …, e(a−1) of X : [A, C]. -/
def RowsOf {C : Nat} (x : (⟨2, ![a, C]⟩ : Shape).Idx → EReal) (X : (⟨2, ![A, C]⟩ : Shape).Idx → EReal) : Prop :=
  ∀ (p : Fin a) (q : Fin C), x (ix2 p q) = X (ix2 (e p) q)

theorem rowsOf_prod {x : (⟨2, ![a, K]⟩ : Shape).Idx → EReal} {X : (⟨2, ![A, K]⟩ : Shape).Idx → EReal}
    (hx : RowsOf e x X) (W : (⟨2, ![K, B]⟩ : Shape).Idx → EReal) : RowsOf e (prod x W) (prod X W) :=
  fun p q => Finset.sum_congr rfl fun k _ => by
    show x (ix2 p k) * W (ix2 k q) = X (ix2 (e p) k) * W (ix2 k q)
    rw [hx p k]

theorem rowsOf_scaleRows {y : (⟨2, ![a, B]⟩ : Shape).Idx → EReal} {Y : (⟨2, ![A, B]⟩ : Shape).Idx → EReal}
    {s : (⟨2, ![a, 1]⟩ : Shape).Idx → EReal} {S : (⟨2, ![A, 1]⟩ : Shape).Idx → EReal}
    (hy : RowsOf e y Y) (hs : RowsOf e s S) : RowsOf e (scaleRows y s) (scaleRows Y S) :=
  fun p q => by
    show y (ix2 p q) * s (col0 p) = Y (ix2 (e p) q) * S (col0 (e p))
    rw [hy p q, hs p ⟨0, Nat.one_pos⟩]

theorem rowsOf_act {z' : (⟨2, ![a, K]⟩ : Shape).Idx → EReal} {Z : (⟨2, ![A, K]⟩ : Shape).Idx → EReal}
    (hz : RowsOf e z' Z) (b : (⟨1, ![K]⟩ : Shape).Idx → EReal) (z : EReal) : RowsOf e (act z' b z) (act Z b z) :=
  fun p q => by
    show max (z' (ix2 p q) + b (ix1 q)) z = max (Z (ix2 (e p) q) + b (ix1 q)) z
    rw [hz p q]

theorem rowsOf_addRow {y : (⟨2, ![a, B]⟩ : Shape).Idx → EReal} {Y : (⟨2, ![A, B]⟩ : Shape).Idx → EReal}
    (hy : RowsOf e y Y) (o : (⟨1, ![B]⟩ : Shape).Idx → EReal) : RowsOf e (addRow y o) (addRow Y o) :=
  fun p q => by
    show y (ix2 p q) + o (ix1 q) = Y (ix2 (e p) q) + o (ix1 q)
    rw [hy p q]

theorem rowsOf_mapEntries (f : EReal → EReal) {y : (⟨2, ![a, B]⟩ : Shape).Idx → EReal}
    {Y : (⟨2, ![A, B]⟩ : Shape).Idx → EReal} (hy : RowsOf e y Y) : RowsOf e (mapEntries f y) (mapEntries f Y) :=
  fun p q => congrArg f (hy p q)

end Blocks

end Cert.RowLocal

end
-- ==== Proof.RegionCommon.lean ====
/-
  Facts shared by the regions' value lemmas: the zero offsets of a whole-buffer access as a function, and the
  combination stage (two arrays added, a bias row added to every row, an entrywise map last) as a whole-array function.
-/
import proofs.«154709_j85770496901295_2_alg».proof.Proof.KernelIdealFrameP
import proofs.«154709_j85770496901295_2_alg».proof.Proof.LibRowLocal

set_option maxRecDepth 16384

noncomputable section

open scoped BigOperators

namespace Cert.KernelIdeal.Hand

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

/-- The offsets (0, 0) of an access to a whole rank-2 buffer, as the constant function 0. -/
theorem hz2 : (![0, 0] : Fin 2 → Nat) = fun _ => 0 := funext fun a => by fin_cases a <;> rfl

/-- The maximum with the zero word's value. -/
def reluZ : EReal → EReal := fun v => max v (Scalar.ofBits (F := Ideal) .f32 0x00000000#32)

/-- Two arrays added, a one-row bias added to every row, an entrywise map applied last. -/
def rowComb {A C : Nat} (f : EReal → EReal) (X Y : (⟨2, ![A, C]⟩ : Shape).Idx → EReal)
    (b : (⟨2, ![1, C]⟩ : Shape).Idx → EReal) : (⟨2, ![A, C]⟩ : Shape).Idx → EReal :=
  fun i => f ((X i + Y i) + b (ix2 (0 : Fin 1) (i 1)))

end Cert.KernelIdeal.Hand

end
-- ==== Proof.Region0.lean ====
/-
  Region 0: the dense transform of a layer before its aggregation. The grid has ten points; point t reads rows
  5000 t … 5000 t + 4999 of the [50000, 128] input array and the two whole [128, 128] weight matrices, and writes the same
  rows of two [50000, 128] arrays: the block's product with each matrix. A row of a product depends only on that row of
  the left operand, and the ten row blocks tile the arrays; so after the region the two arrays hold the products of the
  whole input array with the two matrices.
-/
import proofs.«154709_j85770496901295_2_alg».proof.Proof.RegionCommon

set_option maxRecDepth 16384

noncomputable section

open scoped BigOperators

namespace Cert.KernelIdeal.Hand

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The index maps over the grid: the row-tiled windows are at block (t, 0), the weight windows at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The body's two payloads are plain products of the loaded blocks. -/
theorem pay0_rel (x0 : Vec Ideal S5000x128 .f32) (x1 : Vec Ideal S128x128 .f32) :
    k0_pay1 x0 x1 = Cert.Layer.prod x0 x1 := by
  unfold k0_pay1
  simp only [shapeCast_self]
  exact Cert.RowLocal.kernelProd_eq _ rfl rfl rfl rfl rfl rfl x0 x1

theorem pay0_root (x0 : Vec Ideal S5000x128 .f32) (x1 : Vec Ideal S128x128 .f32) :
    k0_pay2 x0 x1 = Cert.Layer.prod x0 x1 := by
  unfold k0_pay2
  simp only [shapeCast_self]
  exact Cert.RowLocal.kernelProd_eq _ rfl rfl rfl rfl rfl rfl x0 x1

/-- What point t writes back through output window 3: rows 5000 t … 5000 t + 4999 of the product of the whole input
    array with the whole weight matrix (a product's row depends only on the same row of its left operand). -/
theorem flushed0_3_eq (c : Dev nD) (t : Fin cfg0.N) :
    (dat0 (F := Ideal) V c).flushed 3 t = ((cfg0.win 3).blk t).view.read (Elt Ideal)
      (Cert.Layer.prod (V c main_arg0 : S50000x128.Idx → EReal) (V c main_v4 : S128x128.Idx → EReal)) := by
  show (cfg0.win 3).cut (grid0.coords t) ((dat0 V c).after 3 t) = _
  rw [after0_3]
  unfold out0_3
  rw [View.canon_unit_zero hz2]
  simp only [View.ld_unit_zero (S := S5000x128) hz2, View.ld_unit_zero (S := S128x128) hz2]
  rw [pay0_rel]
  obtain ⟨e00, e01, e10, e11, e20, e21, e30, e31, e40, e41⟩ := idx0 t
  funext j
  rw [View.read_apply]
  show Cert.Layer.prod (iblk0 V c 0 t : S5000x128.Idx → EReal) (iblk0 V c 1 t : S128x128.Idx → EReal) j
    = Cert.Layer.prod (V c main_arg0 : S50000x128.Idx → EReal) (V c main_v4 : S128x128.Idx → EReal) (((cfg0.win 3).blk t).view.emb j)
  simp only [Cert.Layer.prod]
  refine Finset.sum_congr rfl fun k _ => ?_
  have hl : (iblk0 V c 0 t : S5000x128.Idx → EReal) (ix2 (j 0) k)
      = (V c main_arg0 : S50000x128.Idx → EReal) (ix2 ((((cfg0.win 3).blk t).view.emb j) 0) k) := by
    unfold iblk0
    rw [View.read_apply]
    show (V c main_arg0 : S50000x128.Idx → EReal) _ = (V c main_arg0 : S50000x128.Idx → EReal) _
    refine congrArg _ ?_
    funext a; apply Fin.ext
    match a with
    | ⟨0, _⟩ =>
      show win0_0.index t (0 : Fin 2) * 5000 + 1 * (j 0).val = win0_3.index t (0 : Fin 2) * 5000 + 1 * (j 0).val
      omega
    | ⟨1, _⟩ =>
      show win0_0.index t (1 : Fin 2) * 128 + 1 * k.val = k.val
      omega
  have hr : (iblk0 V c 1 t : S128x128.Idx → EReal) (ix2 k (j 1))
      = (V c main_v4 : S128x128.Idx → EReal) (ix2 k ((((cfg0.win 3).blk t).view.emb j) 1)) := by
    unfold iblk0
    rw [View.read_apply]
    show (V c main_v4 : S128x128.Idx → EReal) _ = (V c main_v4 : S128x128.Idx → EReal) _
    refine congrArg _ ?_
    funext a; apply Fin.ext
    match a with
    | ⟨0, _⟩ =>
      show win0_1.index t (0 : Fin 2) * 128 + 1 * k.val = k.val
      omega
    | ⟨1, _⟩ =>
      show win0_1.index t (1 : Fin 2) * 128 + 1 * (j 1).val = win0_3.index t (1 : Fin 2) * 128 + 1 * (j 1).val
      omega
  rw [hl, hr]

/-- An index of the array is in point t's block of output window 3 iff each coordinate is in the block's range. -/
theorem mem_blk0_3 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v12_0).slice (win0_3.rect t)).set ↔ _
  rw [View.set_slice_whole, Rect.mem_set_unit]
  exact Iff.rfl

/-- The ten row blocks tile the array, so after the region it holds the whole product. -/
theorem final0_3 (c : Dev nD) :
    (dat0 (F := Ideal) V c).arrAt 3 cfg0.N
      = Cert.Layer.prod (V c main_arg0 : S50000x128.Idx → EReal) (V c main_v4 : S128x128.Idx → EReal) :=
  (dat0 V c).arrAt_eq_of_cover 3 _ (fun t _ => flushed0_3_eq V c t) fun i => by
    have hi0 : ((i : S50000x128.Idx) 0).val < 50000 := ((i : S50000x128.Idx) 0).isLt
    have hi1 : ((i : S50000x128.Idx) 1).val < 128 := ((i : S50000x128.Idx) 1).isLt
    have hN : cfg0.N = 10 := N_0
    have ht : ((i : S50000x128.Idx) 0).val / 5000 < cfg0.N := by rw [hN]; omega
    refine ⟨⟨((i : S50000x128.Idx) 0).val / 5000, ht⟩, flush0_3 _, ?_⟩
    rw [mem_blk0_3]
    obtain ⟨e00, e01, e10, e11, e20, e21, e30, e31, e40, e41⟩ := idx0 ⟨((i : S50000x128.Idx) 0).val / 5000, ht⟩
    have f0 : win0_3.index ⟨((i : S50000x128.Idx) 0).val / 5000, ht⟩ (0 : Fin 2) = ((i : S50000x128.Idx) 0).val / 5000 := e30
    intro a
    match a with
    | ⟨0, _⟩ =>
      show win0_3.index _ (0 : Fin 2) * 5000 ≤ ((i : S50000x128.Idx) 0).val
        ∧ ((i : S50000x128.Idx) 0).val < win0_3.index _ (0 : Fin 2) * 5000 + 5000
      rw [f0]; omega
    | ⟨1, _⟩ =>
      show win0_3.index _ (1 : Fin 2) * 128 ≤ ((i : S50000x128.Idx) 1).val
        ∧ ((i : S50000x128.Idx) 1).val < win0_3.index _ (1 : Fin 2) * 128 + 128
      rw [e31]; omega

/-- What point t writes back through output window 4: rows 5000 t … 5000 t + 4999 of the product of the whole input
    array with the whole weight matrix (a product's row depends only on the same row of its left operand). -/
theorem flushed0_4_eq (c : Dev nD) (t : Fin cfg0.N) :
    (dat0 (F := Ideal) V c).flushed 4 t = ((cfg0.win 4).blk t).view.read (Elt Ideal)
      (Cert.Layer.prod (V c main_arg0 : S50000x128.Idx → EReal) (V c main_v5 : S128x128.Idx → EReal)) := by
  show (cfg0.win 4).cut (grid0.coords t) ((dat0 V c).after 4 t) = _
  rw [after0_4]
  unfold out0_4
  rw [View.canon_unit_zero hz2]
  simp only [View.ld_unit_zero (S := S5000x128) hz2, View.ld_unit_zero (S := S128x128) hz2]
  rw [pay0_root]
  obtain ⟨e00, e01, e10, e11, e20, e21, e30, e31, e40, e41⟩ := idx0 t
  funext j
  rw [View.read_apply]
  show Cert.Layer.prod (iblk0 V c 0 t : S5000x128.Idx → EReal) (iblk0 V c 2 t : S128x128.Idx → EReal) j
    = Cert.Layer.prod (V c main_arg0 : S50000x128.Idx → EReal) (V c main_v5 : S128x128.Idx → EReal) (((cfg0.win 4).blk t).view.emb j)
  simp only [Cert.Layer.prod]
  refine Finset.sum_congr rfl fun k _ => ?_
  have hl : (iblk0 V c 0 t : S5000x128.Idx → EReal) (ix2 (j 0) k)
      = (V c main_arg0 : S50000x128.Idx → EReal) (ix2 ((((cfg0.win 4).blk t).view.emb j) 0) k) := by
    unfold iblk0
    rw [View.read_apply]
    show (V c main_arg0 : S50000x128.Idx → EReal) _ = (V c main_arg0 : S50000x128.Idx → EReal) _
    refine congrArg _ ?_
    funext a; apply Fin.ext
    match a with
    | ⟨0, _⟩ =>
      show win0_0.index t (0 : Fin 2) * 5000 + 1 * (j 0).val = win0_4.index t (0 : Fin 2) * 5000 + 1 * (j 0).val
      omega
    | ⟨1, _⟩ =>
      show win0_0.index t (1 : Fin 2) * 128 + 1 * k.val = k.val
      omega
  have hr : (iblk0 V c 2 t : S128x128.Idx → EReal) (ix2 k (j 1))
      = (V c main_v5 : S128x128.Idx → EReal) (ix2 k ((((cfg0.win 4).blk t).view.emb j) 1)) := by
    unfold iblk0
    rw [View.read_apply]
    show (V c main_v5 : S128x128.Idx → EReal) _ = (V c main_v5 : S128x128.Idx → EReal) _
    refine congrArg _ ?_
    funext a; apply Fin.ext
    match a with
    | ⟨0, _⟩ =>
      show win0_2.index t (0 : Fin 2) * 128 + 1 * k.val = k.val
      omega
    | ⟨1, _⟩ =>
      show win0_2.index t (1 : Fin 2) * 128 + 1 * (j 1).val = win0_4.index t (1 : Fin 2) * 128 + 1 * (j 1).val
      omega
  rw [hl, hr]

/-- An index of the array is in point t's block of output window 4 iff each coordinate is in the block's range. -/
theorem mem_blk0_4 (t : Fin cfg0.N) (i : S50000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v12_1).slice (win0_4.rect t)).set ↔ _
  rw [View.set_slice_whole, Rect.mem_set_unit]
  exact Iff.rfl

/-- The ten row blocks tile the array, so after the region it holds the whole product. -/
theorem final0_4 (c : Dev nD) :
    (dat0 (F := Ideal) V c).arrAt 4 cfg0.N
      = Cert.Layer.prod (V c main_arg0 : S50000x128.Idx → EReal) (V c main_v5 : S128x128.Idx → EReal) :=
  (dat0 V c).arrAt_eq_of_cover 4 _ (fun t _ => flushed0_4_eq V c t) fun i => by
    have hi0 : ((i : S50000x128.Idx) 0).val < 50000 := ((i : S50000x128.Idx) 0).isLt
    have hi1 : ((i : S50000x128.Idx) 1).val < 128 := ((i : S50000x128.Idx) 1).isLt
    have hN : cfg0.N = 10 := N_0
    have ht : ((i : S50000x128.Idx) 0).val / 5000 < cfg0.N := by rw [hN]; omega
    refine ⟨⟨((i : S50000x128.Idx) 0).val / 5000, ht⟩, flush0_4 _, ?_⟩
    rw [mem_blk0_4]
    obtain ⟨e00, e01, e10, e11, e20, e21, e30, e31, e40, e41⟩ := idx0 ⟨((i : S50000x128.Idx) 0).val / 5000, ht⟩
    have f0 : win0_4.index ⟨((i : S50000x128.Idx) 0).val / 5000, ht⟩ (0 : Fin 2) = ((i : S50000x128.Idx) 0).val / 5000 := e40
    intro a
    match a with
    | ⟨0, _⟩ =>
      show win0_4.index _ (0 : Fin 2) * 5000 ≤ ((i : S50000x128.Idx) 0).val
        ∧ ((i : S50000x128.Idx) 0).val < win0_4.index _ (0 : Fin 2) * 5000 + 5000
      rw [f0]; omega
    | ⟨1, _⟩ =>
      show win0_4.index _ (1 : Fin 2) * 128 ≤ ((i : S50000x128.Idx) 1).val
        ∧ ((i : S50000x128.Idx) 1).val < win0_4.index _ (1 : Fin 2) * 128 + 128
      rw [e41]; omega

end Cert.KernelIdeal.Hand

end
-- ==== Proof.Region1.lean ====
/-
  Region 1: a layer's combination after its aggregation. The grid has ten points; point t reads rows 5000 t … 5000 t + 4999
  of the aggregated array and of the root term, and the whole one-row bias, and writes the same rows of the result:
  entry by entry (aggregate + root) + bias, then the maximum with zero. The ten row blocks tile the arrays, so after the region the result array
  holds that function of the whole arrays.
-/
import proofs.«154709_j85770496901295_2_alg».proof.Proof.RegionCommon

set_option maxRecDepth 16384

noncomputable section

open scoped BigOperators

namespace Cert.KernelIdeal.Hand

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The index maps over the grid: the row-tiled windows are at block (t, 0), the bias window at block (0, 0). -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The body's payload, entry by entry. -/
theorem pay1_eq (x0 x1 : Vec Ideal S5000x128 .f32) (x2 : Vec Ideal S1x128 .f32) :
    k1_pay1 x0 x1 x2 = rowComb reluZ x0 x1 x2 := by
  funext j
  obtain ⟨p, q, rfl⟩ : ∃ (p : Fin 5000) (q : Fin 128), j = ix2 p q := ⟨j 0, j 1, eq_ix2 j⟩
  unfold k1_pay1
  simp only [shapeCast_self]
  show max ((x0 (ix2 p q) + x1 (ix2 p q)) + broadcastTo S5000x128 x2 broadcasts_S1x128_S5000x128 (ix2 p q)) _ = _
  rw [broadcastTo_1b_ab_apply]
  rfl

set_option maxHeartbeats 1600000 in
/-- What point t writes back: rows 5000 t … 5000 t + 4999 of the combination of the whole arrays. -/
theorem flushed1_3_eq (c : Dev nD) (t : Fin cfg1.N) :
    (dat1 (F := Ideal) V c).flushed 3 t = ((cfg1.win 3).blk t).view.read (Elt Ideal)
      (rowComb reluZ (V c main_v22 : S50000x128.Idx → EReal) (V c main_v12_1 : S50000x128.Idx → EReal) (V c main_v23 : S1x128.Idx → EReal)) := by
  show (cfg1.win 3).cut (grid1.coords t) ((dat1 V c).after 3 t) = _
  rw [after1_3]
  unfold out1_3
  rw [View.canon_unit_zero hz2]
  simp only [View.ld_unit_zero (S := S5000x128) hz2, View.ld_unit_zero (S := S1x128) hz2]
  rw [pay1_eq]
  obtain ⟨e00, e01, e10, e11, e20, e21, e30, e31⟩ := idx1 t
  funext j
  rw [View.read_apply]
  have h0 : (iblk1 V c 0 t : S5000x128.Idx → EReal) j
      = (V c main_v22 : S50000x128.Idx → EReal) (((cfg1.win 3).blk t).view.emb j) := by
    unfold iblk1
    rw [View.read_apply]
    show (V c main_v22 : S50000x128.Idx → EReal) _ = (V c main_v22 : S50000x128.Idx → EReal) _
    refine congrArg _ ?_
    funext a; apply Fin.ext
    match a with
    | ⟨0, _⟩ =>
      show win1_0.index t (0 : Fin 2) * 5000 + 1 * (j 0).val = win1_3.index t (0 : Fin 2) * 5000 + 1 * (j 0).val
      omega
    | ⟨1, _⟩ =>
      show win1_0.index t (1 : Fin 2) * 128 + 1 * (j 1).val = win1_3.index t (1 : Fin 2) * 128 + 1 * (j 1).val
      omega
  have h1 : (iblk1 V c 1 t : S5000x128.Idx → EReal) j
      = (V c main_v12_1 : S50000x128.Idx → EReal) (((cfg1.win 3).blk t).view.emb j) := by
    unfold iblk1
    rw [View.read_apply]
    show (V c main_v12_1 : S50000x128.Idx → EReal) _ = (V c main_v12_1 : S50000x128.Idx → EReal) _
    refine congrArg _ ?_
    funext a; apply Fin.ext
    match a with
    | ⟨0, _⟩ =>
      show win1_1.index t (0 : Fin 2) * 5000 + 1 * (j 0).val = win1_3.index t (0 : Fin 2) * 5000 + 1 * (j 0).val
      omega
    | ⟨1, _⟩ =>
      show win1_1.index t (1 : Fin 2) * 128 + 1 * (j 1).val = win1_3.index t (1 : Fin 2) * 128 + 1 * (j 1).val
      omega
  have h2 : (iblk1 V c 2 t : S1x128.Idx → EReal) (ix2 (0 : Fin 1) (j 1))
      = (V c main_v23 : S1x128.Idx → EReal) (ix2 (0 : Fin 1) ((((cfg1.win 3).blk t).view.emb j) 1)) := by
    unfold iblk1
    rw [View.read_apply]
    show (V c main_v23 : S1x128.Idx → EReal) _ = (V c main_v23 : S1x128.Idx → EReal) _
    refine congrArg _ ?_
    funext a; apply Fin.ext
    match a with
    | ⟨0, _⟩ =>
      show win1_2.index t (0 : Fin 2) * 1 + 1 * 0 = 0
      omega
    | ⟨1, _⟩ =>
      show win1_2.index t (1 : Fin 2) * 128 + 1 * (j 1).val = win1_3.index t (1 : Fin 2) * 128 + 1 * (j 1).val
      omega
  show rowComb reluZ (iblk1 V c 0 t : S5000x128.Idx → EReal) (iblk1 V c 1 t : S5000x128.Idx → EReal) (iblk1 V c 2 t : S1x128.Idx → EReal) j
    = rowComb reluZ (V c main_v22 : S50000x128.Idx → EReal) (V c main_v12_1 : S50000x128.Idx → EReal) (V c main_v23 : S1x128.Idx → EReal)
        (((cfg1.win 3).blk t).view.emb j)
  simp only [rowComb]
  rw [h0, h1, h2]

/-- An index of the array is in point t's block of the output window iff each coordinate is in the block's range. -/
theorem mem_blk1_3 (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v24).slice (win1_3.rect t)).set ↔ _
  rw [View.set_slice_whole, Rect.mem_set_unit]
  exact Iff.rfl

/-- The ten row blocks tile the array, so after the region it holds the combination of the whole arrays. -/
theorem final1_3 (c : Dev nD) :
    (dat1 (F := Ideal) V c).arrAt 3 cfg1.N
      = rowComb reluZ (V c main_v22 : S50000x128.Idx → EReal) (V c main_v12_1 : S50000x128.Idx → EReal) (V c main_v23 : S1x128.Idx → EReal) :=
  (dat1 V c).arrAt_eq_of_cover 3 _ (fun t _ => flushed1_3_eq V c t) fun i => by
    have hi0 : ((i : S50000x128.Idx) 0).val < 50000 := ((i : S50000x128.Idx) 0).isLt
    have hi1 : ((i : S50000x128.Idx) 1).val < 128 := ((i : S50000x128.Idx) 1).isLt
    have hN : cfg1.N = 10 := N_1
    have ht : ((i : S50000x128.Idx) 0).val / 5000 < cfg1.N := by rw [hN]; omega
    refine ⟨⟨((i : S50000x128.Idx) 0).val / 5000, ht⟩, flush1_3 _, ?_⟩
    rw [mem_blk1_3]
    obtain ⟨e00, e01, e10, e11, e20, e21, e30, e31⟩ := idx1 ⟨((i : S50000x128.Idx) 0).val / 5000, ht⟩
    have f0 : win1_3.index ⟨((i : S50000x128.Idx) 0).val / 5000, ht⟩ (0 : Fin 2) = ((i : S50000x128.Idx) 0).val / 5000 := e30
    intro a
    match a with
    | ⟨0, _⟩ =>
      show win1_3.index _ (0 : Fin 2) * 5000 ≤ ((i : S50000x128.Idx) 0).val
        ∧ ((i : S50000x128.Idx) 0).val < win1_3.index _ (0 : Fin 2) * 5000 + 5000
      rw [f0]; omega
    | ⟨1, _⟩ =>
      show win1_3.index _ (1 : Fin 2) * 128 ≤ ((i : S50000x128.Idx) 1).val
        ∧ ((i : S50000x128.Idx) 1).val < win1_3.index _ (1 : Fin 2) * 128 + 128
      rw [e31]; omega

end Cert.KernelIdeal.Hand

end
-- ==== Proof.Region2.lean ====
/-
  Region 2: the dense transform of a layer before its aggregation. The grid has ten points; point t reads rows
  5000 t … 5000 t + 4999 of the [50000, 128] input array and the two whole [128, 64] weight matrices, and writes the same
  rows of two [50000, 64] arrays: the block's product with each matrix. A row of a product depends only on that row of
  the left operand, and the ten row blocks tile the arrays; so after the region the two arrays hold the products of the
  whole input array with the two matrices.
-/
import proofs.«154709_j85770496901295_2_alg».proof.Proof.RegionCommon

set_option maxRecDepth 16384

noncomputable section

open scoped BigOperators

namespace Cert.KernelIdeal.Hand

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The index maps over the grid: the row-tiled windows are at block (t, 0), the weight windows at block (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- The body's two payloads are plain products of the loaded blocks. -/
theorem pay2_rel (x0 : Vec Ideal S5000x128 .f32) (x1 : Vec Ideal S128x64 .f32) :
    k2_pay2 x0 x1 = Cert.Layer.prod x0 x1 := by
  unfold k2_pay2
  unfold k2_pay1
  simp only [shapeCast_self]
  exact Cert.RowLocal.kernelProd_eq _ rfl rfl rfl rfl rfl rfl x0 x1

theorem pay2_root (x0 : Vec Ideal S5000x128 .f32) (x1 : Vec Ideal S128x64 .f32) :
    k2_pay3 x0 x1 = Cert.Layer.prod x0 x1 := by
  unfold k2_pay3
  unfold k2_pay1
  simp only [shapeCast_self]
  exact Cert.RowLocal.kernelProd_eq _ rfl rfl rfl rfl rfl rfl x0 x1

/-- What point t writes back through output window 3: rows 5000 t … 5000 t + 4999 of the product of the whole input
    array with the whole weight matrix (a product's row depends only on the same row of its left operand). -/
theorem flushed2_3_eq (c : Dev nD) (t : Fin cfg2.N) :
    (dat2 (F := Ideal) V c).flushed 3 t = ((cfg2.win 3).blk t).view.read (Elt Ideal)
      (Cert.Layer.prod (V c main_v24 : S50000x128.Idx → EReal) (V c main_v6 : S128x64.Idx → EReal)) := by
  show (cfg2.win 3).cut (grid2.coords t) ((dat2 V c).after 3 t) = _
  rw [after2_3]
  unfold out2_3
  rw [View.canon_unit_zero hz2]
  simp only [View.ld_unit_zero (S := S5000x128) hz2, View.ld_unit_zero (S := S128x64) hz2]
  rw [pay2_rel]
  obtain ⟨e00, e01, e10, e11, e20, e21, e30, e31, e40, e41⟩ := idx2 t
  funext j
  rw [View.read_apply]
  show Cert.Layer.prod (iblk2 V c 0 t : S5000x128.Idx → EReal) (iblk2 V c 1 t : S128x64.Idx → EReal) j
    = Cert.Layer.prod (V c main_v24 : S50000x128.Idx → EReal) (V c main_v6 : S128x64.Idx → EReal) (((cfg2.win 3).blk t).view.emb j)
  simp only [Cert.Layer.prod]
  refine Finset.sum_congr rfl fun k _ => ?_
  have hl : (iblk2 V c 0 t : S5000x128.Idx → EReal) (ix2 (j 0) k)
      = (V c main_v24 : S50000x128.Idx → EReal) (ix2 ((((cfg2.win 3).blk t).view.emb j) 0) k) := by
    unfold iblk2
    rw [View.read_apply]
    show (V c main_v24 : S50000x128.Idx → EReal) _ = (V c main_v24 : S50000x128.Idx → EReal) _
    refine congrArg _ ?_
    funext a; apply Fin.ext
    match a with
    | ⟨0, _⟩ =>
      show win2_0.index t (0 : Fin 2) * 5000 + 1 * (j 0).val = win2_3.index t (0 : Fin 2) * 5000 + 1 * (j 0).val
      omega
    | ⟨1, _⟩ =>
      show win2_0.index t (1 : Fin 2) * 128 + 1 * k.val = k.val
      omega
  have hr : (iblk2 V c 1 t : S128x64.Idx → EReal) (ix2 k (j 1))
      = (V c main_v6 : S128x64.Idx → EReal) (ix2 k ((((cfg2.win 3).blk t).view.emb j) 1)) := by
    unfold iblk2
    rw [View.read_apply]
    show (V c main_v6 : S128x64.Idx → EReal) _ = (V c main_v6 : S128x64.Idx → EReal) _
    refine congrArg _ ?_
    funext a; apply Fin.ext
    match a with
    | ⟨0, _⟩ =>
      show win2_1.index t (0 : Fin 2) * 128 + 1 * k.val = k.val
      omega
    | ⟨1, _⟩ =>
      show win2_1.index t (1 : Fin 2) * 64 + 1 * (j 1).val = win2_3.index t (1 : Fin 2) * 64 + 1 * (j 1).val
      omega
  rw [hl, hr]

/-- An index of the array is in point t's block of output window 3 iff each coordinate is in the block's range. -/
theorem mem_blk2_3 (t : Fin cfg2.N) (i : S50000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v25_0).slice (win2_3.rect t)).set ↔ _
  rw [View.set_slice_whole, Rect.mem_set_unit]
  exact Iff.rfl

/-- The ten row blocks tile the array, so after the region it holds the whole product. -/
theorem final2_3 (c : Dev nD) :
    (dat2 (F := Ideal) V c).arrAt 3 cfg2.N
      = Cert.Layer.prod (V c main_v24 : S50000x128.Idx → EReal) (V c main_v6 : S128x64.Idx → EReal) :=
  (dat2 V c).arrAt_eq_of_cover 3 _ (fun t _ => flushed2_3_eq V c t) fun i => by
    have hi0 : ((i : S50000x64.Idx) 0).val < 50000 := ((i : S50000x64.Idx) 0).isLt
    have hi1 : ((i : S50000x64.Idx) 1).val < 64 := ((i : S50000x64.Idx) 1).isLt
    have hN : cfg2.N = 10 := N_2
    have ht : ((i : S50000x64.Idx) 0).val / 5000 < cfg2.N := by rw [hN]; omega
    refine ⟨⟨((i : S50000x64.Idx) 0).val / 5000, ht⟩, flush2_3 _, ?_⟩
    rw [mem_blk2_3]
    obtain ⟨e00, e01, e10, e11, e20, e21, e30, e31, e40, e41⟩ := idx2 ⟨((i : S50000x64.Idx) 0).val / 5000, ht⟩
    have f0 : win2_3.index ⟨((i : S50000x64.Idx) 0).val / 5000, ht⟩ (0 : Fin 2) = ((i : S50000x64.Idx) 0).val / 5000 := e30
    intro a
    match a with
    | ⟨0, _⟩ =>
      show win2_3.index _ (0 : Fin 2) * 5000 ≤ ((i : S50000x64.Idx) 0).val
        ∧ ((i : S50000x64.Idx) 0).val < win2_3.index _ (0 : Fin 2) * 5000 + 5000
      rw [f0]; omega
    | ⟨1, _⟩ =>
      show win2_3.index _ (1 : Fin 2) * 64 ≤ ((i : S50000x64.Idx) 1).val
        ∧ ((i : S50000x64.Idx) 1).val < win2_3.index _ (1 : Fin 2) * 64 + 64
      rw [e31]; omega

/-- What point t writes back through output window 4: rows 5000 t … 5000 t + 4999 of the product of the whole input
    array with the whole weight matrix (a product's row depends only on the same row of its left operand). -/
theorem flushed2_4_eq (c : Dev nD) (t : Fin cfg2.N) :
    (dat2 (F := Ideal) V c).flushed 4 t = ((cfg2.win 4).blk t).view.read (Elt Ideal)
      (Cert.Layer.prod (V c main_v24 : S50000x128.Idx → EReal) (V c main_v7 : S128x64.Idx → EReal)) := by
  show (cfg2.win 4).cut (grid2.coords t) ((dat2 V c).after 4 t) = _
  rw [after2_4]
  unfold out2_4
  rw [View.canon_unit_zero hz2]
  simp only [View.ld_unit_zero (S := S5000x128) hz2, View.ld_unit_zero (S := S128x64) hz2]
  rw [pay2_root]
  obtain ⟨e00, e01, e10, e11, e20, e21, e30, e31, e40, e41⟩ := idx2 t
  funext j
  rw [View.read_apply]
  show Cert.Layer.prod (iblk2 V c 0 t : S5000x128.Idx → EReal) (iblk2 V c 2 t : S128x64.Idx → EReal) j
    = Cert.Layer.prod (V c main_v24 : S50000x128.Idx → EReal) (V c main_v7 : S128x64.Idx → EReal) (((cfg2.win 4).blk t).view.emb j)
  simp only [Cert.Layer.prod]
  refine Finset.sum_congr rfl fun k _ => ?_
  have hl : (iblk2 V c 0 t : S5000x128.Idx → EReal) (ix2 (j 0) k)
      = (V c main_v24 : S50000x128.Idx → EReal) (ix2 ((((cfg2.win 4).blk t).view.emb j) 0) k) := by
    unfold iblk2
    rw [View.read_apply]
    show (V c main_v24 : S50000x128.Idx → EReal) _ = (V c main_v24 : S50000x128.Idx → EReal) _
    refine congrArg _ ?_
    funext a; apply Fin.ext
    match a with
    | ⟨0, _⟩ =>
      show win2_0.index t (0 : Fin 2) * 5000 + 1 * (j 0).val = win2_4.index t (0 : Fin 2) * 5000 + 1 * (j 0).val
      omega
    | ⟨1, _⟩ =>
      show win2_0.index t (1 : Fin 2) * 128 + 1 * k.val = k.val
      omega
  have hr : (iblk2 V c 2 t : S128x64.Idx → EReal) (ix2 k (j 1))
      = (V c main_v7 : S128x64.Idx → EReal) (ix2 k ((((cfg2.win 4).blk t).view.emb j) 1)) := by
    unfold iblk2
    rw [View.read_apply]
    show (V c main_v7 : S128x64.Idx → EReal) _ = (V c main_v7 : S128x64.Idx → EReal) _
    refine congrArg _ ?_
    funext a; apply Fin.ext
    match a with
    | ⟨0, _⟩ =>
      show win2_2.index t (0 : Fin 2) * 128 + 1 * k.val = k.val
      omega
    | ⟨1, _⟩ =>
      show win2_2.index t (1 : Fin 2) * 64 + 1 * (j 1).val = win2_4.index t (1 : Fin 2) * 64 + 1 * (j 1).val
      omega
  rw [hl, hr]

/-- An index of the array is in point t's block of output window 4 iff each coordinate is in the block's range. -/
theorem mem_blk2_4 (t : Fin cfg2.N) (i : S50000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole main_v25_1).slice (win2_4.rect t)).set ↔ _
  rw [View.set_slice_whole, Rect.mem_set_unit]
  exact Iff.rfl

/-- The ten row blocks tile the array, so after the region it holds the whole product. -/
theorem final2_4 (c : Dev nD) :
    (dat2 (F := Ideal) V c).arrAt 4 cfg2.N
      = Cert.Layer.prod (V c main_v24 : S50000x128.Idx → EReal) (V c main_v7 : S128x64.Idx → EReal) :=
  (dat2 V c).arrAt_eq_of_cover 4 _ (fun t _ => flushed2_4_eq V c t) fun i => by
    have hi0 : ((i : S50000x64.Idx) 0).val < 50000 := ((i : S50000x64.Idx) 0).isLt
    have hi1 : ((i : S50000x64.Idx) 1).val < 64 := ((i : S50000x64.Idx) 1).isLt
    have hN : cfg2.N = 10 := N_2
    have ht : ((i : S50000x64.Idx) 0).val / 5000 < cfg2.N := by rw [hN]; omega
    refine ⟨⟨((i : S50000x64.Idx) 0).val / 5000, ht⟩, flush2_4 _, ?_⟩
    rw [mem_blk2_4]
    obtain ⟨e00, e01, e10, e11, e20, e21, e30, e31, e40, e41⟩ := idx2 ⟨((i : S50000x64.Idx) 0).val / 5000, ht⟩
    have f0 : win2_4.index ⟨((i : S50000x64.Idx) 0).val / 5000, ht⟩ (0 : Fin 2) = ((i : S50000x64.Idx) 0).val / 5000 := e40
    intro a
    match a with
    | ⟨0, _⟩ =>
      show win2_4.index _ (0 : Fin 2) * 5000 ≤ ((i : S50000x64.Idx) 0).val
        ∧ ((i : S50000x64.Idx) 0).val < win2_4.index _ (0 : Fin 2) * 5000 + 5000
      rw [f0]; omega
    | ⟨1, _⟩ =>
      show win2_4.index _ (1 : Fin 2) * 64 ≤ ((i : S50000x64.Idx) 1).val
        ∧ ((i : S50000x64.Idx) 1).val < win2_4.index _ (1 : Fin 2) * 64 + 64
      rw [e41]; omega

end Cert.KernelIdeal.Hand

end
-- ==== Proof.Region3.lean ====
/-
  Region 3: a layer's combination after its aggregation. The grid has ten points; point t reads rows 5000 t … 5000 t + 4999
  of the aggregated array and of the root term, and the whole one-row bias, and writes the same rows of the result:
  entry by entry (aggregate + root) + bias, then the maximum with zero. The ten row blocks tile the arrays, so after the region the result array
  holds that function of the whole arrays.
-/
import proofs.«154709_j85770496901295_2_alg».proof.Proof.RegionCommon

set_option maxRecDepth 16384

noncomputable section

open scoped BigOperators

namespace Cert.KernelIdeal.Hand

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The index maps over the grid: the row-tiled windows are at block (t, 0), the bias window at block (0, 0). -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The body's payload, entry by entry. -/
theorem pay3_eq (x0 x1 : Vec Ideal S5000x64 .f32) (x2 : Vec Ideal S1x64 .f32) :
    k3_pay1 x0 x1 x2 = rowComb reluZ x0 x1 x2 := by
  funext j
  obtain ⟨p, q, rfl⟩ : ∃ (p : Fin 5000) (q : Fin 64), j = ix2 p q := ⟨j 0, j 1, eq_ix2 j⟩
  unfold k3_pay1
  simp only [shapeCast_self]
  show max ((x0 (ix2 p q) + x1 (ix2 p q)) + broadcastTo S5000x64 x2 broadcasts_S1x64_S5000x64 (ix2 p q)) _ = _
  rw [broadcastTo_1b_ab_apply]
  rfl

set_option maxHeartbeats 1600000 in
/-- What point t writes back: rows 5000 t … 5000 t + 4999 of the combination of the whole arrays. -/
theorem flushed3_3_eq (c : Dev nD) (t : Fin cfg3.N) :
    (dat3 (F := Ideal) V c).flushed 3 t = ((cfg3.win 3).blk t).view.read (Elt Ideal)
      (rowComb reluZ (V c main_v35 : S50000x64.Idx → EReal) (V c main_v25_1 : S50000x64.Idx → EReal) (V c main_v36 : S1x64.Idx → EReal)) := by
  show (cfg3.win 3).cut (grid3.coords t) ((dat3 V c).after 3 t) = _
  rw [after3_3]
  unfold out3_3
  rw [View.canon_unit_zero hz2]
  simp only [View.ld_unit_zero (S := S5000x64) hz2, View.ld_unit_zero (S := S1x64) hz2]
  rw [pay3_eq]
  obtain ⟨e00, e01, e10, e11, e20, e21, e30, e31⟩ := idx3 t
  funext j
  rw [View.read_apply]
  have h0 : (iblk3 V c 0 t : S5000x64.Idx → EReal) j
      = (V c main_v35 : S50000x64.Idx → EReal) (((cfg3.win 3).blk t).view.emb j) := by
    unfold iblk3
    rw [View.read_apply]
    show (V c main_v35 : S50000x64.Idx → EReal) _ = (V c main_v35 : S50000x64.Idx → EReal) _
    refine congrArg _ ?_
    funext a; apply Fin.ext
    match a with
    | ⟨0, _⟩ =>
      show win3_0.index t (0 : Fin 2) * 5000 + 1 * (j 0).val = win3_3.index t (0 : Fin 2) * 5000 + 1 * (j 0).val
      omega
    | ⟨1, _⟩ =>
      show win3_0.index t (1 : Fin 2) * 64 + 1 * (j 1).val = win3_3.index t (1 : Fin 2) * 64 + 1 * (j 1).val
      omega
  have h1 : (iblk3 V c 1 t : S5000x64.Idx → EReal) j
      = (V c main_v25_1 : S50000x64.Idx → EReal) (((cfg3.win 3).blk t).view.emb j) := by
    unfold iblk3
    rw [View.read_apply]
    show (V c main_v25_1 : S50000x64.Idx → EReal) _ = (V c main_v25_1 : S50000x64.Idx → EReal) _
    refine congrArg _ ?_
    funext a; apply Fin.ext
    match a with
    | ⟨0, _⟩ =>
      show win3_1.index t (0 : Fin 2) * 5000 + 1 * (j 0).val = win3_3.index t (0 : Fin 2) * 5000 + 1 * (j 0).val
      omega
    | ⟨1, _⟩ =>
      show win3_1.index t (1 : Fin 2) * 64 + 1 * (j 1).val = win3_3.index t (1 : Fin 2) * 64 + 1 * (j 1).val
      omega
  have h2 : (iblk3 V c 2 t : S1x64.Idx → EReal) (ix2 (0 : Fin 1) (j 1))
      = (V c main_v36 : S1x64.Idx → EReal) (ix2 (0 : Fin 1) ((((cfg3.win 3).blk t).view.emb j) 1)) := by
    unfold iblk3
    rw [View.read_apply]
    show (V c main_v36 : S1x64.Idx → EReal) _ = (V c main_v36 : S1x64.Idx → EReal) _
    refine congrArg _ ?_
    funext a; apply Fin.ext
    match a with
    | ⟨0, _⟩ =>
      show win3_2.index t (0 : Fin 2) * 1 + 1 * 0 = 0
      omega
    | ⟨1, _⟩ =>
      show win3_2.index t (1 : Fin 2) * 64 + 1 * (j 1).val = win3_3.index t (1 : Fin 2) * 64 + 1 * (j 1).val
      omega
  show rowComb reluZ (iblk3 V c 0 t : S5000x64.Idx → EReal) (iblk3 V c 1 t : S5000x64.Idx → EReal) (iblk3 V c 2 t : S1x64.Idx → EReal) j
    = rowComb reluZ (V c main_v35 : S50000x64.Idx → EReal) (V c main_v25_1 : S50000x64.Idx → EReal) (V c main_v36 : S1x64.Idx → EReal)
        (((cfg3.win 3).blk t).view.emb j)
  simp only [rowComb]
  rw [h0, h1, h2]

/-- An index of the array is in point t's block of the output window iff each coordinate is in the block's range. -/
theorem mem_blk3_3 (t : Fin cfg3.N) (i : S50000x64.Idx) :
    i ∈ ((cfg3.win 3).blk t).view.set ↔ ∀ a : Fin 2, win3_3.index t a * S5000x64.size a ≤ (i a).val
      ∧ (i a).val < win3_3.index t a * S5000x64.size a + S5000x64.size a := by
  show i ∈ ((View.whole main_v37).slice (win3_3.rect t)).set ↔ _
  rw [View.set_slice_whole, Rect.mem_set_unit]
  exact Iff.rfl

/-- The ten row blocks tile the array, so after the region it holds the combination of the whole arrays. -/
theorem final3_3 (c : Dev nD) :
    (dat3 (F := Ideal) V c).arrAt 3 cfg3.N
      = rowComb reluZ (V c main_v35 : S50000x64.Idx → EReal) (V c main_v25_1 : S50000x64.Idx → EReal) (V c main_v36 : S1x64.Idx → EReal) :=
  (dat3 V c).arrAt_eq_of_cover 3 _ (fun t _ => flushed3_3_eq V c t) fun i => by
    have hi0 : ((i : S50000x64.Idx) 0).val < 50000 := ((i : S50000x64.Idx) 0).isLt
    have hi1 : ((i : S50000x64.Idx) 1).val < 64 := ((i : S50000x64.Idx) 1).isLt
    have hN : cfg3.N = 10 := N_3
    have ht : ((i : S50000x64.Idx) 0).val / 5000 < cfg3.N := by rw [hN]; omega
    refine ⟨⟨((i : S50000x64.Idx) 0).val / 5000, ht⟩, flush3_3 _, ?_⟩
    rw [mem_blk3_3]
    obtain ⟨e00, e01, e10, e11, e20, e21, e30, e31⟩ := idx3 ⟨((i : S50000x64.Idx) 0).val / 5000, ht⟩
    have f0 : win3_3.index ⟨((i : S50000x64.Idx) 0).val / 5000, ht⟩ (0 : Fin 2) = ((i : S50000x64.Idx) 0).val / 5000 := e30
    intro a
    match a with
    | ⟨0, _⟩ =>
      show win3_3.index _ (0 : Fin 2) * 5000 ≤ ((i : S50000x64.Idx) 0).val
        ∧ ((i : S50000x64.Idx) 0).val < win3_3.index _ (0 : Fin 2) * 5000 + 5000
      rw [f0]; omega
    | ⟨1, _⟩ =>
      show win3_3.index _ (1 : Fin 2) * 64 ≤ ((i : S50000x64.Idx) 1).val
        ∧ ((i : S50000x64.Idx) 1).val < win3_3.index _ (1 : Fin 2) * 64 + 64
      rw [e31]; omega

end Cert.KernelIdeal.Hand

end
-- ==== Proof.Region4.lean ====
/-
  Region 4: the dense transform of a layer before its aggregation. The grid has ten points; point t reads rows
  5000 t … 5000 t + 4999 of the [50000, 64] input array and the two whole [64, 64] weight matrices, and writes the same
  rows of two [50000, 64] arrays: the block's product with each matrix. A row of a product depends only on that row of
  the left operand, and the ten row blocks tile the arrays; so after the region the two arrays hold the products of the
  whole input array with the two matrices.
-/
import proofs.«154709_j85770496901295_2_alg».proof.Proof.RegionCommon

set_option maxRecDepth 16384

noncomputable section

open scoped BigOperators

namespace Cert.KernelIdeal.Hand

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The index maps over the grid: the row-tiled windows are at block (t, 0), the weight windows at block (0, 0). -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- The body's two payloads are plain products of the loaded blocks. -/
theorem pay4_rel (x0 : Vec Ideal S5000x64 .f32) (x1 : Vec Ideal S64x64 .f32) :
    k4_pay2 x0 x1 = Cert.Layer.prod x0 x1 := by
  unfold k4_pay2
  unfold k4_pay1
  simp only [shapeCast_self]
  exact Cert.RowLocal.kernelProd_eq _ rfl rfl rfl rfl rfl rfl x0 x1

theorem pay4_root (x0 : Vec Ideal S5000x64 .f32) (x1 : Vec Ideal S64x64 .f32) :
    k4_pay3 x0 x1 = Cert.Layer.prod x0 x1 := by
  unfold k4_pay3
  unfold k4_pay1
  simp only [shapeCast_self]
  exact Cert.RowLocal.kernelProd_eq _ rfl rfl rfl rfl rfl rfl x0 x1

/-- What point t writes back through output window 3: rows 5000 t … 5000 t + 4999 of the product of the whole input
    array with the whole weight matrix (a product's row depends only on the same row of its left operand). -/
theorem flushed4_3_eq (c : Dev nD) (t : Fin cfg4.N) :
    (dat4 (F := Ideal) V c).flushed 3 t = ((cfg4.win 3).blk t).view.read (Elt Ideal)
      (Cert.Layer.prod (V c main_v37 : S50000x64.Idx → EReal) (V c main_v8 : S64x64.Idx → EReal)) := by
  show (cfg4.win 3).cut (grid4.coords t) ((dat4 V c).after 3 t) = _
  rw [after4_3]
  unfold out4_3
  rw [View.canon_unit_zero hz2]
  simp only [View.ld_unit_zero (S := S5000x64) hz2, View.ld_unit_zero (S := S64x64) hz2]
  rw [pay4_rel]
  obtain ⟨e00, e01, e10, e11, e20, e21, e30, e31, e40, e41⟩ := idx4 t
  funext j
  rw [View.read_apply]
  show Cert.Layer.prod (iblk4 V c 0 t : S5000x64.Idx → EReal) (iblk4 V c 1 t : S64x64.Idx → EReal) j
    = Cert.Layer.prod (V c main_v37 : S50000x64.Idx → EReal) (V c main_v8 : S64x64.Idx → EReal) (((cfg4.win 3).blk t).view.emb j)
  simp only [Cert.Layer.prod]
  refine Finset.sum_congr rfl fun k _ => ?_
  have hl : (iblk4 V c 0 t : S5000x64.Idx → EReal) (ix2 (j 0) k)
      = (V c main_v37 : S50000x64.Idx → EReal) (ix2 ((((cfg4.win 3).blk t).view.emb j) 0) k) := by
    unfold iblk4
    rw [View.read_apply]
    show (V c main_v37 : S50000x64.Idx → EReal) _ = (V c main_v37 : S50000x64.Idx → EReal) _
    refine congrArg _ ?_
    funext a; apply Fin.ext
    match a with
    | ⟨0, _⟩ =>
      show win4_0.index t (0 : Fin 2) * 5000 + 1 * (j 0).val = win4_3.index t (0 : Fin 2) * 5000 + 1 * (j 0).val
      omega
    | ⟨1, _⟩ =>
      show win4_0.index t (1 : Fin 2) * 64 + 1 * k.val = k.val
      omega
  have hr : (iblk4 V c 1 t : S64x64.Idx → EReal) (ix2 k (j 1))
      = (V c main_v8 : S64x64.Idx → EReal) (ix2 k ((((cfg4.win 3).blk t).view.emb j) 1)) := by
    unfold iblk4
    rw [View.read_apply]
    show (V c main_v8 : S64x64.Idx → EReal) _ = (V c main_v8 : S64x64.Idx → EReal) _
    refine congrArg _ ?_
    funext a; apply Fin.ext
    match a with
    | ⟨0, _⟩ =>
      show win4_1.index t (0 : Fin 2) * 64 + 1 * k.val = k.val
      omega
    | ⟨1, _⟩ =>
      show win4_1.index t (1 : Fin 2) * 64 + 1 * (j 1).val = win4_3.index t (1 : Fin 2) * 64 + 1 * (j 1).val
      omega
  rw [hl, hr]

/-- An index of the array is in point t's block of output window 3 iff each coordinate is in the block's range. -/
theorem mem_blk4_3 (t : Fin cfg4.N) (i : S50000x64.Idx) :
    i ∈ ((cfg4.win 3).blk t).view.set ↔ ∀ a : Fin 2, win4_3.index t a * S5000x64.size a ≤ (i a).val
      ∧ (i a).val < win4_3.index t a * S5000x64.size a + S5000x64.size a := by
  show i ∈ ((View.whole main_v38_0).slice (win4_3.rect t)).set ↔ _
  rw [View.set_slice_whole, Rect.mem_set_unit]
  exact Iff.rfl

/-- The ten row blocks tile the array, so after the region it holds the whole product. -/
theorem final4_3 (c : Dev nD) :
    (dat4 (F := Ideal) V c).arrAt 3 cfg4.N
      = Cert.Layer.prod (V c main_v37 : S50000x64.Idx → EReal) (V c main_v8 : S64x64.Idx → EReal) :=
  (dat4 V c).arrAt_eq_of_cover 3 _ (fun t _ => flushed4_3_eq V c t) fun i => by
    have hi0 : ((i : S50000x64.Idx) 0).val < 50000 := ((i : S50000x64.Idx) 0).isLt
    have hi1 : ((i : S50000x64.Idx) 1).val < 64 := ((i : S50000x64.Idx) 1).isLt
    have hN : cfg4.N = 10 := N_4
    have ht : ((i : S50000x64.Idx) 0).val / 5000 < cfg4.N := by rw [hN]; omega
    refine ⟨⟨((i : S50000x64.Idx) 0).val / 5000, ht⟩, flush4_3 _, ?_⟩
    rw [mem_blk4_3]
    obtain ⟨e00, e01, e10, e11, e20, e21, e30, e31, e40, e41⟩ := idx4 ⟨((i : S50000x64.Idx) 0).val / 5000, ht⟩
    have f0 : win4_3.index ⟨((i : S50000x64.Idx) 0).val / 5000, ht⟩ (0 : Fin 2) = ((i : S50000x64.Idx) 0).val / 5000 := e30
    intro a
    match a with
    | ⟨0, _⟩ =>
      show win4_3.index _ (0 : Fin 2) * 5000 ≤ ((i : S50000x64.Idx) 0).val
        ∧ ((i : S50000x64.Idx) 0).val < win4_3.index _ (0 : Fin 2) * 5000 + 5000
      rw [f0]; omega
    | ⟨1, _⟩ =>
      show win4_3.index _ (1 : Fin 2) * 64 ≤ ((i : S50000x64.Idx) 1).val
        ∧ ((i : S50000x64.Idx) 1).val < win4_3.index _ (1 : Fin 2) * 64 + 64
      rw [e31]; omega

/-- What point t writes back through output window 4: rows 5000 t … 5000 t + 4999 of the product of the whole input
    array with the whole weight matrix (a product's row depends only on the same row of its left operand). -/
theorem flushed4_4_eq (c : Dev nD) (t : Fin cfg4.N) :
    (dat4 (F := Ideal) V c).flushed 4 t = ((cfg4.win 4).blk t).view.read (Elt Ideal)
      (Cert.Layer.prod (V c main_v37 : S50000x64.Idx → EReal) (V c main_v9 : S64x64.Idx → EReal)) := by
  show (cfg4.win 4).cut (grid4.coords t) ((dat4 V c).after 4 t) = _
  rw [after4_4]
  unfold out4_4
  rw [View.canon_unit_zero hz2]
  simp only [View.ld_unit_zero (S := S5000x64) hz2, View.ld_unit_zero (S := S64x64) hz2]
  rw [pay4_root]
  obtain ⟨e00, e01, e10, e11, e20, e21, e30, e31, e40, e41⟩ := idx4 t
  funext j
  rw [View.read_apply]
  show Cert.Layer.prod (iblk4 V c 0 t : S5000x64.Idx → EReal) (iblk4 V c 2 t : S64x64.Idx → EReal) j
    = Cert.Layer.prod (V c main_v37 : S50000x64.Idx → EReal) (V c main_v9 : S64x64.Idx → EReal) (((cfg4.win 4).blk t).view.emb j)
  simp only [Cert.Layer.prod]
  refine Finset.sum_congr rfl fun k _ => ?_
  have hl : (iblk4 V c 0 t : S5000x64.Idx → EReal) (ix2 (j 0) k)
      = (V c main_v37 : S50000x64.Idx → EReal) (ix2 ((((cfg4.win 4).blk t).view.emb j) 0) k) := by
    unfold iblk4
    rw [View.read_apply]
    show (V c main_v37 : S50000x64.Idx → EReal) _ = (V c main_v37 : S50000x64.Idx → EReal) _
    refine congrArg _ ?_
    funext a; apply Fin.ext
    match a with
    | ⟨0, _⟩ =>
      show win4_0.index t (0 : Fin 2) * 5000 + 1 * (j 0).val = win4_4.index t (0 : Fin 2) * 5000 + 1 * (j 0).val
      omega
    | ⟨1, _⟩ =>
      show win4_0.index t (1 : Fin 2) * 64 + 1 * k.val = k.val
      omega
  have hr : (iblk4 V c 2 t : S64x64.Idx → EReal) (ix2 k (j 1))
      = (V c main_v9 : S64x64.Idx → EReal) (ix2 k ((((cfg4.win 4).blk t).view.emb j) 1)) := by
    unfold iblk4
    rw [View.read_apply]
    show (V c main_v9 : S64x64.Idx → EReal) _ = (V c main_v9 : S64x64.Idx → EReal) _
    refine congrArg _ ?_
    funext a; apply Fin.ext
    match a with
    | ⟨0, _⟩ =>
      show win4_2.index t (0 : Fin 2) * 64 + 1 * k.val = k.val
      omega
    | ⟨1, _⟩ =>
      show win4_2.index t (1 : Fin 2) * 64 + 1 * (j 1).val = win4_4.index t (1 : Fin 2) * 64 + 1 * (j 1).val
      omega
  rw [hl, hr]

/-- An index of the array is in point t's block of output window 4 iff each coordinate is in the block's range. -/
theorem mem_blk4_4 (t : Fin cfg4.N) (i : S50000x64.Idx) :
    i ∈ ((cfg4.win 4).blk t).view.set ↔ ∀ a : Fin 2, win4_4.index t a * S5000x64.size a ≤ (i a).val
      ∧ (i a).val < win4_4.index t a * S5000x64.size a + S5000x64.size a := by
  show i ∈ ((View.whole main_v38_1).slice (win4_4.rect t)).set ↔ _
  rw [View.set_slice_whole, Rect.mem_set_unit]
  exact Iff.rfl

/-- The ten row blocks tile the array, so after the region it holds the whole product. -/
theorem final4_4 (c : Dev nD) :
    (dat4 (F := Ideal) V c).arrAt 4 cfg4.N
      = Cert.Layer.prod (V c main_v37 : S50000x64.Idx → EReal) (V c main_v9 : S64x64.Idx → EReal) :=
  (dat4 V c).arrAt_eq_of_cover 4 _ (fun t _ => flushed4_4_eq V c t) fun i => by
    have hi0 : ((i : S50000x64.Idx) 0).val < 50000 := ((i : S50000x64.Idx) 0).isLt
    have hi1 : ((i : S50000x64.Idx) 1).val < 64 := ((i : S50000x64.Idx) 1).isLt
    have hN : cfg4.N = 10 := N_4
    have ht : ((i : S50000x64.Idx) 0).val / 5000 < cfg4.N := by rw [hN]; omega
    refine ⟨⟨((i : S50000x64.Idx) 0).val / 5000, ht⟩, flush4_4 _, ?_⟩
    rw [mem_blk4_4]
    obtain ⟨e00, e01, e10, e11, e20, e21, e30, e31, e40, e41⟩ := idx4 ⟨((i : S50000x64.Idx) 0).val / 5000, ht⟩
    have f0 : win4_4.index ⟨((i : S50000x64.Idx) 0).val / 5000, ht⟩ (0 : Fin 2) = ((i : S50000x64.Idx) 0).val / 5000 := e40
    intro a
    match a with
    | ⟨0, _⟩ =>
      show win4_4.index _ (0 : Fin 2) * 5000 ≤ ((i : S50000x64.Idx) 0).val
        ∧ ((i : S50000x64.Idx) 0).val < win4_4.index _ (0 : Fin 2) * 5000 + 5000
      rw [f0]; omega
    | ⟨1, _⟩ =>
      show win4_4.index _ (1 : Fin 2) * 64 ≤ ((i : S50000x64.Idx) 1).val
        ∧ ((i : S50000x64.Idx) 1).val < win4_4.index _ (1 : Fin 2) * 64 + 64
      rw [e41]; omega

end Cert.KernelIdeal.Hand

end
-- ==== Proof.Region5.lean ====
/-
  Region 5: a layer's combination after its aggregation. The grid has ten points; point t reads rows 5000 t … 5000 t + 4999
  of the aggregated array and of the root term, and the whole one-row bias, and writes the same rows of the result:
  entry by entry (aggregate + root) + bias. The ten row blocks tile the arrays, so after the region the result array
  holds that function of the whole arrays.
-/
import proofs.«154709_j85770496901295_2_alg».proof.Proof.RegionCommon

set_option maxRecDepth 16384

noncomputable section

open scoped BigOperators

namespace Cert.KernelIdeal.Hand

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The index maps over the grid: the row-tiled windows are at block (t, 0), the bias window at block (0, 0). -/
theorem idx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The body's payload, entry by entry. -/
theorem pay5_eq (x0 x1 : Vec Ideal S5000x64 .f32) (x2 : Vec Ideal S1x64 .f32) :
    k5_pay1 x0 x1 x2 = rowComb (fun v => v) x0 x1 x2 := by
  funext j
  obtain ⟨p, q, rfl⟩ : ∃ (p : Fin 5000) (q : Fin 64), j = ix2 p q := ⟨j 0, j 1, eq_ix2 j⟩
  unfold k5_pay1
  simp only [shapeCast_self]
  show (x0 (ix2 p q) + x1 (ix2 p q)) + broadcastTo S5000x64 x2 broadcasts_S1x64_S5000x64 (ix2 p q) = _
  rw [broadcastTo_1b_ab_apply]
  rfl

set_option maxHeartbeats 1600000 in
/-- What point t writes back: rows 5000 t … 5000 t + 4999 of the combination of the whole arrays. -/
theorem flushed5_3_eq (c : Dev nD) (t : Fin cfg5.N) :
    (dat5 (F := Ideal) V c).flushed 3 t = ((cfg5.win 3).blk t).view.read (Elt Ideal)
      (rowComb (fun v => v) (V c main_v48 : S50000x64.Idx → EReal) (V c main_v38_1 : S50000x64.Idx → EReal) (V c main_v49 : S1x64.Idx → EReal)) := by
  show (cfg5.win 3).cut (grid5.coords t) ((dat5 V c).after 3 t) = _
  rw [after5_3]
  unfold out5_3
  rw [View.canon_unit_zero hz2]
  simp only [View.ld_unit_zero (S := S5000x64) hz2, View.ld_unit_zero (S := S1x64) hz2]
  rw [pay5_eq]
  obtain ⟨e00, e01, e10, e11, e20, e21, e30, e31⟩ := idx5 t
  funext j
  rw [View.read_apply]
  have h0 : (iblk5 V c 0 t : S5000x64.Idx → EReal) j
      = (V c main_v48 : S50000x64.Idx → EReal) (((cfg5.win 3).blk t).view.emb j) := by
    unfold iblk5
    rw [View.read_apply]
    show (V c main_v48 : S50000x64.Idx → EReal) _ = (V c main_v48 : S50000x64.Idx → EReal) _
    refine congrArg _ ?_
    funext a; apply Fin.ext
    match a with
    | ⟨0, _⟩ =>
      show win5_0.index t (0 : Fin 2) * 5000 + 1 * (j 0).val = win5_3.index t (0 : Fin 2) * 5000 + 1 * (j 0).val
      omega
    | ⟨1, _⟩ =>
      show win5_0.index t (1 : Fin 2) * 64 + 1 * (j 1).val = win5_3.index t (1 : Fin 2) * 64 + 1 * (j 1).val
      omega
  have h1 : (iblk5 V c 1 t : S5000x64.Idx → EReal) j
      = (V c main_v38_1 : S50000x64.Idx → EReal) (((cfg5.win 3).blk t).view.emb j) := by
    unfold iblk5
    rw [View.read_apply]
    show (V c main_v38_1 : S50000x64.Idx → EReal) _ = (V c main_v38_1 : S50000x64.Idx → EReal) _
    refine congrArg _ ?_
    funext a; apply Fin.ext
    match a with
    | ⟨0, _⟩ =>
      show win5_1.index t (0 : Fin 2) * 5000 + 1 * (j 0).val = win5_3.index t (0 : Fin 2) * 5000 + 1 * (j 0).val
      omega
    | ⟨1, _⟩ =>
      show win5_1.index t (1 : Fin 2) * 64 + 1 * (j 1).val = win5_3.index t (1 : Fin 2) * 64 + 1 * (j 1).val
      omega
  have h2 : (iblk5 V c 2 t : S1x64.Idx → EReal) (ix2 (0 : Fin 1) (j 1))
      = (V c main_v49 : S1x64.Idx → EReal) (ix2 (0 : Fin 1) ((((cfg5.win 3).blk t).view.emb j) 1)) := by
    unfold iblk5
    rw [View.read_apply]
    show (V c main_v49 : S1x64.Idx → EReal) _ = (V c main_v49 : S1x64.Idx → EReal) _
    refine congrArg _ ?_
    funext a; apply Fin.ext
    match a with
    | ⟨0, _⟩ =>
      show win5_2.index t (0 : Fin 2) * 1 + 1 * 0 = 0
      omega
    | ⟨1, _⟩ =>
      show win5_2.index t (1 : Fin 2) * 64 + 1 * (j 1).val = win5_3.index t (1 : Fin 2) * 64 + 1 * (j 1).val
      omega
  show rowComb (fun v => v) (iblk5 V c 0 t : S5000x64.Idx → EReal) (iblk5 V c 1 t : S5000x64.Idx → EReal) (iblk5 V c 2 t : S1x64.Idx → EReal) j
    = rowComb (fun v => v) (V c main_v48 : S50000x64.Idx → EReal) (V c main_v38_1 : S50000x64.Idx → EReal) (V c main_v49 : S1x64.Idx → EReal)
        (((cfg5.win 3).blk t).view.emb j)
  simp only [rowComb]
  rw [h0, h1, h2]

/-- An index of the array is in point t's block of the output window iff each coordinate is in the block's range. -/
theorem mem_blk5_3 (t : Fin cfg5.N) (i : S50000x64.Idx) :
    i ∈ ((cfg5.win 3).blk t).view.set ↔ ∀ a : Fin 2, win5_3.index t a * S5000x64.size a ≤ (i a).val
      ∧ (i a).val < win5_3.index t a * S5000x64.size a + S5000x64.size a := by
  show i ∈ ((View.whole main_v50).slice (win5_3.rect t)).set ↔ _
  rw [View.set_slice_whole, Rect.mem_set_unit]
  exact Iff.rfl

/-- The ten row blocks tile the array, so after the region it holds the combination of the whole arrays. -/
theorem final5_3 (c : Dev nD) :
    (dat5 (F := Ideal) V c).arrAt 3 cfg5.N
      = rowComb (fun v => v) (V c main_v48 : S50000x64.Idx → EReal) (V c main_v38_1 : S50000x64.Idx → EReal) (V c main_v49 : S1x64.Idx → EReal) :=
  (dat5 V c).arrAt_eq_of_cover 3 _ (fun t _ => flushed5_3_eq V c t) fun i => by
    have hi0 : ((i : S50000x64.Idx) 0).val < 50000 := ((i : S50000x64.Idx) 0).isLt
    have hi1 : ((i : S50000x64.Idx) 1).val < 64 := ((i : S50000x64.Idx) 1).isLt
    have hN : cfg5.N = 10 := N_5
    have ht : ((i : S50000x64.Idx) 0).val / 5000 < cfg5.N := by rw [hN]; omega
    refine ⟨⟨((i : S50000x64.Idx) 0).val / 5000, ht⟩, flush5_3 _, ?_⟩
    rw [mem_blk5_3]
    obtain ⟨e00, e01, e10, e11, e20, e21, e30, e31⟩ := idx5 ⟨((i : S50000x64.Idx) 0).val / 5000, ht⟩
    have f0 : win5_3.index ⟨((i : S50000x64.Idx) 0).val / 5000, ht⟩ (0 : Fin 2) = ((i : S50000x64.Idx) 0).val / 5000 := e30
    intro a
    match a with
    | ⟨0, _⟩ =>
      show win5_3.index _ (0 : Fin 2) * 5000 ≤ ((i : S50000x64.Idx) 0).val
        ∧ ((i : S50000x64.Idx) 0).val < win5_3.index _ (0 : Fin 2) * 5000 + 5000
      rw [f0]; omega
    | ⟨1, _⟩ =>
      show win5_3.index _ (1 : Fin 2) * 64 ≤ ((i : S50000x64.Idx) 1).val
        ∧ ((i : S50000x64.Idx) 1).val < win5_3.index _ (1 : Fin 2) * 64 + 64
      rw [e31]; omega

end Cert.KernelIdeal.Hand

end
-- ==== Proof.Region6.lean ====
/-
  Region 6: the classifier head. The grid has one point and no window is cut: every block is its whole array. So after
  the region the result array holds the body's one payload — two dense layers and a row-wise log-softmax — of the five whole
  input arrays.
-/
import proofs.«154709_j85770496901295_2_alg».proof.Proof.RegionCommon

set_option maxRecDepth 16384

noncomputable section

open scoped BigOperators

namespace Cert.KernelIdeal.Hand

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Every window's only block index is (0, 0). -/
theorem idx6 : ∀ t : Fin cfg6.N, win6_0.index t (0 : Fin 2) = 0
    ∧ win6_0.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (0 : Fin 2) = 0
    ∧ win6_3.index t (1 : Fin 2) = 0
    ∧ win6_4.index t (0 : Fin 2) = 0
    ∧ win6_4.index t (1 : Fin 2) = 0
    ∧ win6_5.index t (0 : Fin 2) = 0
    ∧ win6_5.index t (1 : Fin 2) = 0 :=
  (by decide +kernel : ∀ t : Fin grid6.N, _)

/-- Input window 0 is not cut: its one block is the whole array. -/
theorem iblk6_0_eq (c : Dev nD) (t : Fin cfg6.N) :
    (iblk6 V c 0 t : S512x64.Idx → EReal) = (V c main_v53 : S512x64.Idx → EReal) := by
  obtain ⟨e00, e01, e10, e11, e20, e21, e30, e31, e40, e41, e50, e51⟩ := idx6 t
  funext y
  unfold iblk6
  rw [View.read_apply]
  show (V c main_v53 : S512x64.Idx → EReal) _ = (V c main_v53 : S512x64.Idx → EReal) y
  refine congrArg _ ?_
  funext a; apply Fin.ext
  match a with
  | ⟨0, _⟩ =>
    show win6_0.index t (0 : Fin 2) * 512 + 1 * (y 0).val = (y 0).val
    omega
  | ⟨1, _⟩ =>
    show win6_0.index t (1 : Fin 2) * 64 + 1 * (y 1).val = (y 1).val
    omega

/-- Input window 1 is not cut: its one block is the whole array. -/
theorem iblk6_1_eq (c : Dev nD) (t : Fin cfg6.N) :
    (iblk6 V c 1 t : S64x64.Idx → EReal) = (V c main_v10 : S64x64.Idx → EReal) := by
  obtain ⟨e00, e01, e10, e11, e20, e21, e30, e31, e40, e41, e50, e51⟩ := idx6 t
  funext y
  unfold iblk6
  rw [View.read_apply]
  show (V c main_v10 : S64x64.Idx → EReal) _ = (V c main_v10 : S64x64.Idx → EReal) y
  refine congrArg _ ?_
  funext a; apply Fin.ext
  match a with
  | ⟨0, _⟩ =>
    show win6_1.index t (0 : Fin 2) * 64 + 1 * (y 0).val = (y 0).val
    omega
  | ⟨1, _⟩ =>
    show win6_1.index t (1 : Fin 2) * 64 + 1 * (y 1).val = (y 1).val
    omega

/-- Input window 2 is not cut: its one block is the whole array. -/
theorem iblk6_2_eq (c : Dev nD) (t : Fin cfg6.N) :
    (iblk6 V c 2 t : S1x64.Idx → EReal) = (V c main_v54 : S1x64.Idx → EReal) := by
  obtain ⟨e00, e01, e10, e11, e20, e21, e30, e31, e40, e41, e50, e51⟩ := idx6 t
  funext y
  unfold iblk6
  rw [View.read_apply]
  show (V c main_v54 : S1x64.Idx → EReal) _ = (V c main_v54 : S1x64.Idx → EReal) y
  refine congrArg _ ?_
  funext a; apply Fin.ext
  match a with
  | ⟨0, _⟩ =>
    show win6_2.index t (0 : Fin 2) * 1 + 1 * (y 0).val = (y 0).val
    omega
  | ⟨1, _⟩ =>
    show win6_2.index t (1 : Fin 2) * 64 + 1 * (y 1).val = (y 1).val
    omega

/-- Input window 3 is not cut: its one block is the whole array. -/
theorem iblk6_3_eq (c : Dev nD) (t : Fin cfg6.N) :
    (iblk6 V c 3 t : S64x32.Idx → EReal) = (V c main_v11 : S64x32.Idx → EReal) := by
  obtain ⟨e00, e01, e10, e11, e20, e21, e30, e31, e40, e41, e50, e51⟩ := idx6 t
  funext y
  unfold iblk6
  rw [View.read_apply]
  show (V c main_v11 : S64x32.Idx → EReal) _ = (V c main_v11 : S64x32.Idx → EReal) y
  refine congrArg _ ?_
  funext a; apply Fin.ext
  match a with
  | ⟨0, _⟩ =>
    show win6_3.index t (0 : Fin 2) * 64 + 1 * (y 0).val = (y 0).val
    omega
  | ⟨1, _⟩ =>
    show win6_3.index t (1 : Fin 2) * 32 + 1 * (y 1).val = (y 1).val
    omega

/-- Input window 4 is not cut: its one block is the whole array. -/
theorem iblk6_4_eq (c : Dev nD) (t : Fin cfg6.N) :
    (iblk6 V c 4 t : S1x32.Idx → EReal) = (V c main_v55 : S1x32.Idx → EReal) := by
  obtain ⟨e00, e01, e10, e11, e20, e21, e30, e31, e40, e41, e50, e51⟩ := idx6 t
  funext y
  unfold iblk6
  rw [View.read_apply]
  show (V c main_v55 : S1x32.Idx → EReal) _ = (V c main_v55 : S1x32.Idx → EReal) y
  refine congrArg _ ?_
  funext a; apply Fin.ext
  match a with
  | ⟨0, _⟩ =>
    show win6_4.index t (0 : Fin 2) * 1 + 1 * (y 0).val = (y 0).val
    omega
  | ⟨1, _⟩ =>
    show win6_4.index t (1 : Fin 2) * 32 + 1 * (y 1).val = (y 1).val
    omega

/-- What the one point writes back: the payload of the whole arrays, read through the whole-array block. -/
theorem flushed6_5_eq (c : Dev nD) (t : Fin cfg6.N) :
    (dat6 (F := Ideal) V c).flushed 5 t = ((cfg6.win 5).blk t).view.read (Elt Ideal)
      (k6_pay1 (F := Ideal) (V c main_v53 : S512x64.Idx → EReal) (V c main_v10 : S64x64.Idx → EReal) (V c main_v54 : S1x64.Idx → EReal)
        (V c main_v11 : S64x32.Idx → EReal) (V c main_v55 : S1x32.Idx → EReal)) := by
  show (cfg6.win 5).cut (grid6.coords t) ((dat6 V c).after 5 t) = _
  rw [after6_5]
  unfold out6_5
  rw [View.canon_unit_zero hz2]
  simp only [View.ld_unit_zero (S := S512x64) hz2, View.ld_unit_zero (S := S64x64) hz2, View.ld_unit_zero (S := S1x64) hz2,
    View.ld_unit_zero (S := S64x32) hz2, View.ld_unit_zero (S := S1x32) hz2]
  rw [iblk6_0_eq, iblk6_1_eq, iblk6_2_eq, iblk6_3_eq, iblk6_4_eq]
  obtain ⟨e00, e01, e10, e11, e20, e21, e30, e31, e40, e41, e50, e51⟩ := idx6 t
  funext j
  rw [View.read_apply]
  have he : ((cfg6.win 5).blk t).view.emb j = (j : S512x32.Idx) := by
    funext a; apply Fin.ext
    match a with
    | ⟨0, _⟩ =>
      show win6_5.index t (0 : Fin 2) * 512 + 1 * (j 0).val = (j 0).val
      omega
    | ⟨1, _⟩ =>
      show win6_5.index t (1 : Fin 2) * 32 + 1 * (j 1).val = (j 1).val
      omega
  rw [he]
  rfl

theorem mem_blk6_5 (t : Fin cfg6.N) (i : S512x32.Idx) :
    i ∈ ((cfg6.win 5).blk t).view.set ↔ ∀ a : Fin 2, win6_5.index t a * S512x32.size a ≤ (i a).val
      ∧ (i a).val < win6_5.index t a * S512x32.size a + S512x32.size a := by
  show i ∈ ((View.whole main_v56).slice (win6_5.rect t)).set ↔ _
  rw [View.set_slice_whole, Rect.mem_set_unit]
  exact Iff.rfl

/-- The one block is the whole array, so after the region the result array holds the payload of the whole arrays. -/
theorem final6_5 (c : Dev nD) :
    (dat6 (F := Ideal) V c).arrAt 5 cfg6.N
      = (k6_pay1 (F := Ideal) (V c main_v53 : S512x64.Idx → EReal) (V c main_v10 : S64x64.Idx → EReal) (V c main_v54 : S1x64.Idx → EReal)
        (V c main_v11 : S64x32.Idx → EReal) (V c main_v55 : S1x32.Idx → EReal)) :=
  (dat6 V c).arrAt_eq_of_cover 5 _ (fun t _ => flushed6_5_eq V c t) fun i => by
    have hi0 : ((i : S512x32.Idx) 0).val < 512 := ((i : S512x32.Idx) 0).isLt
    have hi1 : ((i : S512x32.Idx) 1).val < 32 := ((i : S512x32.Idx) 1).isLt
    refine ⟨t6_0, flush6_5 _, ?_⟩
    rw [mem_blk6_5]
    obtain ⟨e00, e01, e10, e11, e20, e21, e30, e31, e40, e41, e50, e51⟩ := idx6 t6_0
    intro a
    match a with
    | ⟨0, _⟩ =>
      show win6_5.index t6_0 (0 : Fin 2) * 512 ≤ ((i : S512x32.Idx) 0).val
        ∧ ((i : S512x32.Idx) 0).val < win6_5.index t6_0 (0 : Fin 2) * 512 + 512
      rw [e50]; omega
    | ⟨1, _⟩ =>
      show win6_5.index t6_0 (1 : Fin 2) * 32 ≤ ((i : S512x32.Idx) 1).val
        ∧ ((i : S512x32.Idx) 1).val < win6_5.index t6_0 (1 : Fin 2) * 32 + 32
      rw [e51]; omega

end Cert.KernelIdeal.Hand

end
-- ==== Proof.LibRowFold.lean ====
/-
  A HOST REDUCTION ALONG THE LAST AXIS OF A MATRIX, READ AT A ROW — generic in the two extents.

  A one-operand `stablehlo.reduce` of an [A, B] array along axis 1 whose body is commutative and associative (a maximum,
  a minimum) computes, at row j, the fold of the body from the initial value over the B entries of row j — in any order,
  since the body is commutative and associative:

  * `reduce_row_fold`  — Host.reduce f x init … j = (Finset.univ : Finset (Fin B)).fold f (init ·) (fun k => x (ix2 (j 0) k));
  * `fold_maximumf`    — over the extended reals the fold by the float maximum is the fold by `max`.

  Nothing here depends on a program.
-/
import Idealize.ShloMosaic.PureOps.Ideal
import Idealize.ShloMosaic.PureOps.Ideal.Laws
import Idealize.ShloMosaic.PureOps.Reduce
import Idealize.ShloMosaic.Lib.ValueIdx

noncomputable section

namespace Cert.Lib.RowFold

open Idealize.ShloMosaic Idealize.ShloMosaic.ValueIdx

/-- A one-operand reduce of an [A, B] array along axis 1 with a commutative associative body is, at row j, the fold
    from the initial value over the row's entries. -/
theorem reduce_row_fold {A B : Nat} (f : EReal → EReal → EReal) [Std.Commutative f] [Std.Associative f]
    (h' : (⟨2, ![A, B]⟩ : Shape).ReducesTo [1] ⟨1, ![A]⟩) (h : (⟨2, ![A, B]⟩ : Shape).Reduces [1] ⟨1, ![A]⟩)
    (x : (⟨2, ![A, B]⟩ : Shape).Idx → EReal) (init : (⟨0, ![]⟩ : Shape).Idx → EReal)
    (hu : 0 < (⟨0, ![]⟩ : Shape).numel) (j : (⟨1, ![A]⟩ : Shape).Idx) :
    Host.reduce f x init h' hu j
      = (Finset.univ : Finset (Fin B)).fold f (init (Shape.Idx.first hu)) (fun k => x (ix2 (j 0) k)) := by
  rw [Host.reduce_eq_fold_single f x init h' h hu j]
  show (Finset.univ : Finset (Fin B)).fold f (init (Shape.Idx.first hu)) (x ∘ h.lift j) = _
  refine congrArg (fun g => (Finset.univ : Finset (Fin B)).fold f _ g) (funext fun k => congrArg x ?_)
  exact funext fun a => Fin.ext (by match a with | ⟨0, _⟩ => rfl | ⟨1, _⟩ => rfl)

/-- At the ideal values the fold by the float maximum is the fold by max. -/
theorem fold_maximumf {ι : Type} (s : Finset ι) (b : EReal) (g : ι → EReal) :
    s.fold (FloatOps.maximumf (F := Ideal) (φ := .f32)) b g = s.fold max b g := rfl

end Cert.Lib.RowFold

end
-- ==== Proof.LibKeepdims.lean ====
/-
  Two layout operations read at an index, in the keepdims column forms: a vector of length a seen as an [a, 1]
  column, and an [a, 1] column spread over the b columns of an [a, b] array.
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An `[a]` array cast to an `[a, 1]` column reads, at `(i, u)`, the operand at `i`, whatever the unit coordinate `u`:
    the two indices have the same row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Tail.lean ====
/-
  The classifier head on the extended reals, generic in the extents: two dense layers and a row-wise log-softmax.

  For an [A, B] array S the log-softmax subtracts from every entry of a row that row's largest entry M(r) (a fold of max
  from ⊥ over the row), and then the logarithm of the sum over the row of the exponentials of the shifted entries:
      (S(r, c) − M(r)) − log Σ_k exp(S(r, k) − M(r)).
  A kernel spells M(r) as a lane maximum from the −inf word, seen as an [A, 1] column and spread over the columns, and the
  sum as a lane sum; the host spells M(r) as a reduce by maximum from the −inf constant, met once more with a broadcast
  −inf (which changes nothing: ⊥ is the least element), spread by two keepdims broadcasts, and the sum as a reduce by add
  from the zero constant (which adds 0). Both are the function above, entry by entry.
-/
import proofs.«154709_j85770496901295_2_alg».proof.Proof.LibRowLocal
import proofs.«154709_j85770496901295_2_alg».proof.Proof.LibRowFold
import proofs.«154709_j85770496901295_2_alg».proof.Proof.LibKeepdims

noncomputable section

open scoped BigOperators

namespace Cert.Tail

open Idealize.ShloMosaic Idealize.ShloMosaic.ValueIdx Cert.Layer

variable {A B : Nat}

/-- The largest entry of row r: the fold of max from ⊥ over the row. -/
def rowMax (S : (⟨2, ![A, B]⟩ : Shape).Idx → EReal) (r : Fin A) : EReal :=
  (Finset.univ : Finset (Fin B)).fold max ⊥ (fun k => S (ix2 r k))

/-- The row-wise log-softmax. -/
def logSoftmax (S : (⟨2, ![A, B]⟩ : Shape).Idx → EReal) : (⟨2, ![A, B]⟩ : Shape).Idx → EReal := fun i =>
  (S i - rowMax S (i 0)) - Ideal.log (∑ k : Fin B, Ideal.exp (S (ix2 (i 0) k) - rowMax S (i 0)))

/-- The −inf pattern denotes ⊥. -/
theorem ninf_word : Ideal.ofBits .f32 0xFF800000#32 = (⊥ : EReal) := by
  simp [Ideal.ofBits, Ideal.ieee]

/-- The reduced index r with the coordinate k inserted on axis 1 is (r, k). -/
theorem lift_row (hr : (⟨2, ![A, B]⟩ : Shape).Reduces [1] ⟨1, ![A]⟩) (r : Fin A) (k : Fin B) :
    hr.lift (ix1 r) k = ix2 r k :=
  funext fun a => Fin.ext (by match a with | ⟨0, _⟩ => rfl | ⟨1, _⟩ => rfl)

/-! ## A kernel's spelling -/

section Kernel
variable (S : FVec Ideal ⟨2, ![A, B]⟩ .f32)
  (hr : (⟨2, ![A, B]⟩ : Shape).Reduces [1] ⟨1, ![A]⟩) (hc : (⟨1, ![A]⟩ : Shape).ShapeCasts ⟨2, ![A, 1]⟩)
  (hb : (⟨2, ![A, 1]⟩ : Shape).Broadcasts ⟨2, ![A, B]⟩) (hφ : FKind.Formats .f32)
  (hm : (0xFF800000#32 : BitVec 32) = FKind.maximumf.neutral .f32 hφ)
  (ha : (0x00000000#32 : BitVec 32) = FKind.add.neutral .f32 hφ)

/-- The lane maximum as a column spread over the columns, read at (r, c): the row's largest entry. -/
theorem kernel_max_apply (r : Fin A) (c : Fin B) :
    broadcastTo ⟨2, ![A, B]⟩ (shapeCast ⟨2, ![A, 1]⟩ (multiReduction .maximumf [1] ⟨1, ![A]⟩ S 0xFF800000#32 hr hφ hm) hc) hb
      (ix2 r c) = rowMax S r := by
  rw [Cert.LibKeepdims.broadcastTo_a1_ab_apply, Cert.LibKeepdims.shapeCast_a_a1_apply, Ideal.multiReduction_maximumf_single]
  show (Finset.univ : Finset (Fin B)).fold max (Ideal.ofBits .f32 0xFF800000#32) (S ∘ hr.lift (ix1 r)) = _
  rw [ninf_word]
  exact congrArg (fun g => (Finset.univ : Finset (Fin B)).fold max ⊥ g) (funext fun k => congrArg S (lift_row hr r k))

/-- A kernel's shifted scores: each entry minus its row's lane maximum. -/
def kernelShift : FVec Ideal ⟨2, ![A, B]⟩ .f32 :=
  subf S (broadcastTo ⟨2, ![A, B]⟩ (shapeCast ⟨2, ![A, 1]⟩
    (multiReduction .maximumf [1] ⟨1, ![A]⟩ S 0xFF800000#32 hr hφ hm) hc) hb)

theorem kernelShift_apply (r : Fin A) (c : Fin B) :
    kernelShift S hr hc hb hφ hm (ix2 r c) = S (ix2 r c) - rowMax S r := by
  show S (ix2 r c) - broadcastTo ⟨2, ![A, B]⟩ (shapeCast ⟨2, ![A, 1]⟩
    (multiReduction .maximumf [1] ⟨1, ![A]⟩ S 0xFF800000#32 hr hφ hm) hc) hb (ix2 r c) = _
  rw [kernel_max_apply]

theorem kernel_logSoftmax :
    subf (kernelShift S hr hc hb hφ hm)
      (broadcastTo ⟨2, ![A, B]⟩ (log (shapeCast ⟨2, ![A, 1]⟩
        (multiReduction .add [1] ⟨1, ![A]⟩ (exp (kernelShift S hr hc hb hφ hm)) 0x00000000#32 hr hφ ha) hc)) hb)
      = logSoftmax S := by
  funext i
  obtain ⟨r, c, rfl⟩ : ∃ (r : Fin A) (c : Fin B), i = ix2 r c := ⟨i 0, i 1, eq_ix2 i⟩
  show kernelShift S hr hc hb hφ hm (ix2 r c)
    - broadcastTo ⟨2, ![A, B]⟩ (log (shapeCast ⟨2, ![A, 1]⟩
        (multiReduction .add [1] ⟨1, ![A]⟩ (exp (kernelShift S hr hc hb hφ hm)) 0x00000000#32 hr hφ ha) hc)) hb (ix2 r c)
    = (S (ix2 r c) - rowMax S r) - Ideal.log (∑ k : Fin B, Ideal.exp (S (ix2 r k) - rowMax S r))
  rw [kernelShift_apply, Cert.LibKeepdims.broadcastTo_a1_ab_apply]
  show _ - Ideal.log (shapeCast ⟨2, ![A, 1]⟩
      (multiReduction .add [1] ⟨1, ![A]⟩ (exp (kernelShift S hr hc hb hφ hm)) 0x00000000#32 hr hφ ha) hc (ix2 r (0 : Fin 1))) = _
  rw [Cert.LibKeepdims.shapeCast_a_a1_apply, Ideal.multiReduction_add_single]
  refine congrArg (fun v => (S (ix2 r c) - rowMax S r) - Ideal.log v) ?_
  show ∑ k : Fin B, exp (kernelShift S hr hc hb hφ hm) (hr.lift (ix1 r) k) = _
  refine Finset.sum_congr rfl fun k _ => ?_
  show Ideal.exp (kernelShift S hr hc hb hφ hm (hr.lift (ix1 r) k)) = _
  rw [lift_row hr r k, kernelShift_apply]

end Kernel

/-! ## The host's spelling -/

section Host
variable (S : FVec Ideal ⟨2, ![A, B]⟩ .f32)
  (h' : (⟨2, ![A, B]⟩ : Shape).ReducesTo [1] ⟨1, ![A]⟩)
  (hu : 0 < (⟨0, ![]⟩ : Shape).numel)
  (b0 : (⟨0, ![]⟩ : Shape).BroadcastsInDim ⟨1, ![A]⟩ ![])
  (b1 : (⟨1, ![A]⟩ : Shape).BroadcastsInDim ⟨2, ![A, 1]⟩ ![0])
  (b2 : (⟨2, ![A, 1]⟩ : Shape).BroadcastsInDim ⟨2, ![A, B]⟩ ![0, 1])

/-- The host's row maximum: the reduce from −inf, met with a broadcast −inf. -/
def hostMax : FVec Ideal ⟨1, ![A]⟩ .f32 :=
  maximumf (broadcastInDim ⟨1, ![A]⟩ ![] b0 (constant ⟨0, ![]⟩ .f32 0xFF800000#32))
    (Host.reduce FloatOps.maximumf S (constant ⟨0, ![]⟩ .f32 0xFF800000#32) h' hu)

/-- The host's shifted scores. -/
def hostShift : FVec Ideal ⟨2, ![A, B]⟩ .f32 :=
  subf S (broadcastInDim ⟨2, ![A, B]⟩ ![0, 1] b2 (broadcastInDim ⟨2, ![A, 1]⟩ ![0] b1 (hostMax S h' hu b0)))

theorem hostMax_apply (hr : (⟨2, ![A, B]⟩ : Shape).Reduces [1] ⟨1, ![A]⟩) (r : Fin A) : hostMax S h' hu b0 (ix1 r) = rowMax S r := by
  show max (broadcastInDim ⟨1, ![A]⟩ ![] b0 (constant (F := Ideal) ⟨0, ![]⟩ .f32 0xFF800000#32) (ix1 r))
    (Host.reduce FloatOps.maximumf S (constant (F := Ideal) ⟨0, ![]⟩ .f32 0xFF800000#32) h' hu (ix1 r)) = _
  rw [Cert.Lib.RowFold.reduce_row_fold (FloatOps.maximumf (F := Ideal) (φ := .f32)) h' hr S _ hu (ix1 r), Cert.Lib.RowFold.fold_maximumf,
    broadcastInDim_apply ![] b0 _ (ix1 r) ix0 fun d => d.elim0]
  show max (Ideal.ofBits .f32 0xFF800000#32) ((Finset.univ : Finset (Fin B)).fold max (Ideal.ofBits .f32 0xFF800000#32) _) = _
  rw [ninf_word, max_bot_left]
  rfl

theorem hostShift_apply (hr : (⟨2, ![A, B]⟩ : Shape).Reduces [1] ⟨1, ![A]⟩) (r : Fin A) (c : Fin B) : hostShift S h' hu b0 b1 b2 (ix2 r c) = S (ix2 r c) - rowMax S r := by
  show S (ix2 r c) - broadcastInDim ⟨2, ![A, B]⟩ ![0, 1] b2 (broadcastInDim ⟨2, ![A, 1]⟩ ![0] b1 (hostMax S h' hu b0)) (ix2 r c) = _
  rw [Cert.LibSegSum.bcast_col_apply, hostMax_apply S h' hu b0 hr]

theorem host_logSoftmax (hr : (⟨2, ![A, B]⟩ : Shape).Reduces [1] ⟨1, ![A]⟩) :
    subf (hostShift S h' hu b0 b1 b2)
      (broadcastInDim ⟨2, ![A, B]⟩ ![0, 1] b2 (Host.log (broadcastInDim ⟨2, ![A, 1]⟩ ![0] b1
        (Host.reduceAdd (Host.exp (hostShift S h' hu b0 b1 b2)) (constant ⟨0, ![]⟩ .f32 0x00000000#32) h' hu))))
      = logSoftmax S := by
  funext i
  obtain ⟨r, c, rfl⟩ : ∃ (r : Fin A) (c : Fin B), i = ix2 r c := ⟨i 0, i 1, eq_ix2 i⟩
  show hostShift S h' hu b0 b1 b2 (ix2 r c)
    - broadcastInDim ⟨2, ![A, B]⟩ ![0, 1] b2 (Host.log (broadcastInDim ⟨2, ![A, 1]⟩ ![0] b1
        (Host.reduceAdd (Host.exp (hostShift S h' hu b0 b1 b2)) (constant ⟨0, ![]⟩ .f32 0x00000000#32) h' hu))) (ix2 r c)
    = (S (ix2 r c) - rowMax S r) - Ideal.log (∑ k : Fin B, Ideal.exp (S (ix2 r k) - rowMax S r))
  rw [hostShift_apply S h' hu b0 b1 b2 hr, Cert.RowLocal.bcastCol_apply]
  show _ - Ideal.log (broadcastInDim ⟨2, ![A, 1]⟩ ![0] b1
      (Host.reduceAdd (Host.exp (hostShift S h' hu b0 b1 b2)) (constant ⟨0, ![]⟩ .f32 0x00000000#32) h' hu)
      (Cert.LibSegSum.at0 r)) = _
  rw [Cert.LibSegSum.bcast_unit_apply]
  simp only [Host.reduceAdd, Ideal.hostReduceAdd_def]
  rw [Ideal.hostReduceAdd_single h' hr]
  refine congrArg (fun v => (S (ix2 r c) - rowMax S r) - Ideal.log v) ?_
  show constant (F := Ideal) ⟨0, ![]⟩ .f32 0x00000000#32 (Shape.Idx.first hu) + ∑ k : Fin B, _ = _
  have hzero : constant (F := Ideal) ⟨0, ![]⟩ .f32 0x00000000#32 (Shape.Idx.first hu) = 0 := Ideal.ofBits_zero_f32
  rw [hzero, zero_add]
  refine Finset.sum_congr rfl fun k _ => ?_
  show Ideal.exp (hostShift S h' hu b0 b1 b2 (hr.lift (ix1 r) k)) = _
  rw [lift_row hr r k, hostShift_apply S h' hu b0 b1 b2 hr]

end Host

end Cert.Tail

end
-- ==== Proof.HeadK.lean ====
/-
  The classifier head's payload: the kernel's two dense layers (a matmul into zero, the bias row spread down the rows, the
  maximum with zero; a second matmul and bias) and its log-softmax over each row are, as one function of the pooled
  features, the two weight matrices and the two bias vectors, the head of the specification.
-/
import proofs.«154709_j85770496901295_2_alg».proof.Proof.Region6
import proofs.«154709_j85770496901295_2_alg».proof.Proof.Tail

set_option maxRecDepth 16384

noncomputable section

open scoped BigOperators

namespace Cert.KernelIdeal.Hand

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

/-- The head as a function of whole arrays: dense, maximum with z, dense, row-wise log-softmax. -/
def head (g : S512x64.Idx → EReal) (w1 : S64x64.Idx → EReal) (b1 : S64.Idx → EReal) (w2 : S64x32.Idx → EReal)
    (b2 : S32.Idx → EReal) (z : EReal) : S512x32.Idx → EReal :=
  Cert.Tail.logSoftmax (Cert.Layer.addRow (Cert.Layer.prod (Cert.Layer.act (Cert.Layer.prod g w1) b1 z) w2) b2)

theorem pay6_eq (g : Vec Ideal S512x64 .f32) (w1 : Vec Ideal S64x64 .f32) (b1 : FVec Ideal S64 .f32)
    (w2 : Vec Ideal S64x32 .f32) (b2 : FVec Ideal S32 .f32) :
    k6_pay1 g w1 (shapeCast S1x64 b1 shapeCasts_S64_S1x64) w2 (shapeCast S1x32 b2 shapeCasts_S32_S1x32)
      = head g w1 b1 w2 b2 (Scalar.ofBits (F := Ideal) .f32 0x00000000#32) := by
  unfold k6_pay1 head
  simp only [shapeCast_self]
  rw [Cert.RowLocal.kernelProd_eq dot_S512x64_S64x64_S512x64_1_0_0_1_n_n rfl rfl rfl rfl rfl rfl g w1,
    Cert.RowLocal.kernelAct_eq,
    Cert.RowLocal.kernelProd_eq dot_S512x64_S64x32_S512x32_1_0_0_1_n_n rfl rfl rfl rfl rfl rfl _ w2,
    Cert.RowLocal.kernelAddRow_eq]
  exact Cert.Tail.kernel_logSoftmax _ reduces_S512x32_S512 shapeCasts_S512_S512x1 broadcasts_S512x1_S512x32 (.inl rfl) rfl rfl

end Cert.KernelIdeal.Hand

end
-- ==== Proof.KernelValue.lean ====
/-
  The idealized kernel's result as one function of its sixteen argument arrays. The buffer contents at the twelve segment
  boundaries are followed from the launch: a host stretch leaves the buffers it does not write alone and puts each
  operation's result, a function of the contents before it, into the buffer it writes; a region leaves the buffers that are
  not its arrays alone and each of its output arrays at the whole-array function its blocks tile (the regions' lemmas).
  Three times over: the dense transform (two products), the gather of the first product's rows at the wrapped source
  column and their sum into segments at the target column, the combination with the second product and the bias; then the
  sum of the last layer's rows into 512 segments at the batch column, and the classifier head.
-/
import proofs.«154709_j85770496901295_2_alg».proof.Proof.Region0
import proofs.«154709_j85770496901295_2_alg».proof.Proof.Region1
import proofs.«154709_j85770496901295_2_alg».proof.Proof.Region2
import proofs.«154709_j85770496901295_2_alg».proof.Proof.Region3
import proofs.«154709_j85770496901295_2_alg».proof.Proof.Region4
import proofs.«154709_j85770496901295_2_alg».proof.Proof.Region5
import proofs.«154709_j85770496901295_2_alg».proof.Proof.HeadK
import Idealize.ShloMosaic.Lib.StableHlo.Run

set_option maxRecDepth 16384

noncomputable section

open scoped BigOperators

namespace Cert.KernelIdeal.Hand

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

open Idealize.ShloMosaic.StableHlo

variable (m : (ℓ : Loc nD τ sig) → Buf (Elt Ideal) ℓ) (ρ : Dev nD → PrngReg) (c : Dev nD)

/-! ## The index columns and the zero arrays -/

/-- The source indices: row 0 of the edge list. -/
def srcV : IVec S600000 32 :=
  shapeCast S600000 (extractStridedSlice S1x600000 ![0, 0] (m ((c : Thread nD τ).loc main_arg1)) slices_S2x600000_S1x600000_0_0) shapeCasts_S1x600000_S600000

/-- The target indices: row 1 of the edge list. -/
def dstV : IVec S600000 32 :=
  shapeCast S600000 (extractStridedSlice S1x600000 ![1, 0] (m ((c : Thread nD τ).loc main_arg1)) slices_S2x600000_S1x600000_1_0) shapeCasts_S1x600000_S600000

/-- The source column: a negative index wrapped by the number of nodes, then spread to a column. -/
def srcCol : IVec S600000x1 32 :=
  broadcastInDim S600000x1 ![0] bcast_S600000_S600000x1_0
    (select (cmpi .slt (srcV m c) (broadcastInDim S600000 ![] bcast_S_S600000 (constantI S_ 32 0#32)))
      (addi (srcV m c) (broadcastInDim S600000 ![] bcast_S_S600000 (constantI S_ 32 50000#32))) (srcV m c))

/-- The target column. -/
def dstCol : IVec S600000x1 32 := broadcastInDim S600000x1 ![0] bcast_S600000_S600000x1_0 (dstV m c)

/-- Rows gathered at the source column and added into a zero array at the target column, 128 and 64 features wide. -/
def seg128 (X : S50000x128.Idx → EReal) : S50000x128.Idx → EReal :=
  Host.scatterAdd (F := Ideal) scatter_S50000x128_S600000x1_S600000x128_1_0_0_1
    (broadcastInDim S50000x128 ![] bcast_S_S50000x128 (constant (F := Ideal) S_ .f32 0x00000000#32)) (dstCol m c)
    (Host.gather gather_S50000x128_S600000x1_S600000x128_1_0_n_n_0_1_1128 X (srcCol m c))

def seg64 (X : S50000x64.Idx → EReal) : S50000x64.Idx → EReal :=
  Host.scatterAdd (F := Ideal) scatter_S50000x64_S600000x1_S600000x64_1_0_0_1
    (broadcastInDim S50000x64 ![] bcast_S_S50000x64 (constant (F := Ideal) S_ .f32 0x00000000#32)) (dstCol m c)
    (Host.gather gather_S50000x64_S600000x1_S600000x64_1_0_n_n_0_1_164 X (srcCol m c))

/-! ## The three layers, the pooled features and the result, as the kernel computes them -/

def layer1 : S50000x128.Idx → EReal :=
  rowComb reluZ (seg128 m c (Cert.Layer.prod ((m ((c : Thread nD τ).loc main_arg0)) : S50000x128.Idx → EReal) (transpose S128x128 [1, 0] (m ((c : Thread nD τ).loc main_arg3)) transposes_S128x128_S128x128_1_0)))
    (Cert.Layer.prod ((m ((c : Thread nD τ).loc main_arg0)) : S50000x128.Idx → EReal) (transpose S128x128 [1, 0] (m ((c : Thread nD τ).loc main_arg5)) transposes_S128x128_S128x128_1_0))
    (shapeCast S1x128 (m ((c : Thread nD τ).loc main_arg4)) shapeCasts_S128_S1x128)

def layer2 : S50000x64.Idx → EReal :=
  rowComb reluZ (seg64 m c (Cert.Layer.prod (layer1 m c) (transpose S128x64 [1, 0] (m ((c : Thread nD τ).loc main_arg6)) transposes_S64x128_S128x64_1_0)))
    (Cert.Layer.prod (layer1 m c) (transpose S128x64 [1, 0] (m ((c : Thread nD τ).loc main_arg8)) transposes_S64x128_S128x64_1_0))
    (shapeCast S1x64 (m ((c : Thread nD τ).loc main_arg7)) shapeCasts_S64_S1x64)

def layer3 : S50000x64.Idx → EReal :=
  rowComb (fun v => v) (seg64 m c (Cert.Layer.prod (layer2 m c) (transpose S64x64 [1, 0] (m ((c : Thread nD τ).loc main_arg9)) transposes_S64x64_S64x64_1_0)))
    (Cert.Layer.prod (layer2 m c) (transpose S64x64 [1, 0] (m ((c : Thread nD τ).loc main_arg11)) transposes_S64x64_S64x64_1_0))
    (shapeCast S1x64 (m ((c : Thread nD τ).loc main_arg10)) shapeCasts_S64_S1x64)

def pooled : S512x64.Idx → EReal :=
  Host.scatterAdd (F := Ideal) scatter_S512x64_S50000x1_S50000x64_1_0_0_1
    (broadcastInDim S512x64 ![] bcast_S_S512x64 (constant (F := Ideal) S_ .f32 0x00000000#32))
    (broadcastInDim S50000x1 ![0] bcast_S50000_S50000x1_0 (m ((c : Thread nD τ).loc main_arg2))) (layer3 m c)

def result : S512x32.Idx → EReal :=
  head (pooled m c) (transpose S64x64 [1, 0] (m ((c : Thread nD τ).loc main_arg12)) transposes_S64x64_S64x64_1_0) (m ((c : Thread nD τ).loc main_arg13)) (transpose S64x32 [1, 0] (m ((c : Thread nD τ).loc main_arg14)) transposes_S32x64_S64x32_1_0) (m ((c : Thread nD τ).loc main_arg15)) (Scalar.ofBits (F := Ideal) .f32 0x00000000#32)

/-! ## Buffers a host stretch does not write -/

/-- A buffer that the host operations of this stretch do not write holds after it what it held before. -/
theorem keep_H0 (b : Ref sig .tc) (hb : ∀ x ∈ ([main_v0, main_v1, main_v2, main_v3, main_v4, main_v5, main_v6, main_v7, main_v8, main_v9, main_v10, main_v11] : List (Ref sig .tc)), b ≠ x) :
    W1 m ρ c (Proc.devRef .tc b) = W0 m ρ c (Proc.devRef .tc b) := by
  refine StableHlo.after_of_forall_not_mem (b := Proc.devRef .tc b) _ _ (List.forall_iff_forall_mem.mp ?_)
  simp only [hostOps0, List.Forall, StableHlo.nullary_writes, StableHlo.unary_writes, StableHlo.binary_writes,
    StableHlo.ternary_writes, StableHlo.reshape_writes, Finset.mem_singleton]
  repeat' apply And.intro
  all_goals exact StableHlo.devRef_ne_of_ne (hb _ (by decide))

/-- A buffer that the host operations of this stretch do not write holds after it what it held before. -/
theorem keep_H1 (b : Ref sig .tc) (hb : ∀ x ∈ ([main_c, main_v13, main_v14, main_c_0, main_v15, main_v16, main_v17, main_v18, main_v19, main_cst, main_v20, main_v21, main_v22, main_v23] : List (Ref sig .tc)), b ≠ x) :
    W3 m ρ c (Proc.devRef .tc b) = W2 m ρ c (Proc.devRef .tc b) := by
  refine StableHlo.after_of_forall_not_mem (b := Proc.devRef .tc b) _ _ (List.forall_iff_forall_mem.mp ?_)
  simp only [hostOps1, List.Forall, StableHlo.nullary_writes, StableHlo.unary_writes, StableHlo.binary_writes,
    StableHlo.ternary_writes, StableHlo.reshape_writes, Finset.mem_singleton]
  repeat' apply And.intro
  all_goals exact StableHlo.devRef_ne_of_ne (hb _ (by decide))

/-- A buffer that the host operations of this stretch do not write holds after it what it held before. -/
theorem keep_H3 (b : Ref sig .tc) (hb : ∀ x ∈ ([main_c_1, main_v26, main_v27, main_c_2, main_v28, main_v29, main_v30, main_v31, main_v32, main_cst_3, main_v33, main_v34, main_v35, main_v36] : List (Ref sig .tc)), b ≠ x) :
    W6 m ρ c (Proc.devRef .tc b) = W5 m ρ c (Proc.devRef .tc b) := by
  refine StableHlo.after_of_forall_not_mem (b := Proc.devRef .tc b) _ _ (List.forall_iff_forall_mem.mp ?_)
  simp only [hostOps3, List.Forall, StableHlo.nullary_writes, StableHlo.unary_writes, StableHlo.binary_writes,
    StableHlo.ternary_writes, StableHlo.reshape_writes, Finset.mem_singleton]
  repeat' apply And.intro
  all_goals exact StableHlo.devRef_ne_of_ne (hb _ (by decide))

/-- A buffer that the host operations of this stretch do not write holds after it what it held before. -/
theorem keep_H5 (b : Ref sig .tc) (hb : ∀ x ∈ ([main_c_4, main_v39, main_v40, main_c_5, main_v41, main_v42, main_v43, main_v44, main_v45, main_cst_6, main_v46, main_v47, main_v48, main_v49] : List (Ref sig .tc)), b ≠ x) :
    W9 m ρ c (Proc.devRef .tc b) = W8 m ρ c (Proc.devRef .tc b) := by
  refine StableHlo.after_of_forall_not_mem (b := Proc.devRef .tc b) _ _ (List.forall_iff_forall_mem.mp ?_)
  simp only [hostOps5, List.Forall, StableHlo.nullary_writes, StableHlo.unary_writes, StableHlo.binary_writes,
    StableHlo.ternary_writes, StableHlo.reshape_writes, Finset.mem_singleton]
  repeat' apply And.intro
  all_goals exact StableHlo.devRef_ne_of_ne (hb _ (by decide))

/-- A buffer that the host operations of this stretch do not write holds after it what it held before. -/
theorem keep_H6 (b : Ref sig .tc) (hb : ∀ x ∈ ([main_cst_7, main_v51, main_v52, main_v53, main_v54, main_v55] : List (Ref sig .tc)), b ≠ x) :
    W11 m ρ c (Proc.devRef .tc b) = W10 m ρ c (Proc.devRef .tc b) := by
  refine StableHlo.after_of_forall_not_mem (b := Proc.devRef .tc b) _ _ (List.forall_iff_forall_mem.mp ?_)
  simp only [hostOps6, List.Forall, StableHlo.nullary_writes, StableHlo.unary_writes, StableHlo.binary_writes,
    StableHlo.ternary_writes, StableHlo.reshape_writes, Finset.mem_singleton]
  repeat' apply And.intro
  all_goals exact StableHlo.devRef_ne_of_ne (hb _ (by decide))

/-! ## After the first host stretch -/

theorem w1_arg0 : W1 m ρ c (Proc.devRef .tc main_arg0) = (m ((c : Thread nD τ).loc main_arg0)) :=
  (keep_H0 m ρ c main_arg0 (by decide)).trans rfl

theorem w1_v1 : W1 m ρ c (Proc.devRef .tc main_v1) = srcV m c := by
  show StableHlo.after hostOps0 (W0 m ρ c) (Proc.devRef .tc main_v1) = _
  after_results <;> rfl

theorem w1_v3 : W1 m ρ c (Proc.devRef .tc main_v3) = dstV m c := by
  show StableHlo.after hostOps0 (W0 m ρ c) (Proc.devRef .tc main_v3) = _
  after_results <;> rfl

theorem w1_v4 : W1 m ρ c (Proc.devRef .tc main_v4) = (transpose S128x128 [1, 0] (m ((c : Thread nD τ).loc main_arg3)) transposes_S128x128_S128x128_1_0) := by
  show StableHlo.after hostOps0 (W0 m ρ c) (Proc.devRef .tc main_v4) = _
  after_results <;> rfl

theorem w1_v5 : W1 m ρ c (Proc.devRef .tc main_v5) = (transpose S128x128 [1, 0] (m ((c : Thread nD τ).loc main_arg5)) transposes_S128x128_S128x128_1_0) := by
  show StableHlo.after hostOps0 (W0 m ρ c) (Proc.devRef .tc main_v5) = _
  after_results <;> rfl

theorem w1_v6 : W1 m ρ c (Proc.devRef .tc main_v6) = (transpose S128x64 [1, 0] (m ((c : Thread nD τ).loc main_arg6)) transposes_S64x128_S128x64_1_0) := by
  show StableHlo.after hostOps0 (W0 m ρ c) (Proc.devRef .tc main_v6) = _
  after_results <;> rfl

theorem w1_v7 : W1 m ρ c (Proc.devRef .tc main_v7) = (transpose S128x64 [1, 0] (m ((c : Thread nD τ).loc main_arg8)) transposes_S64x128_S128x64_1_0) := by
  show StableHlo.after hostOps0 (W0 m ρ c) (Proc.devRef .tc main_v7) = _
  after_results <;> rfl

theorem w1_v8 : W1 m ρ c (Proc.devRef .tc main_v8) = (transpose S64x64 [1, 0] (m ((c : Thread nD τ).loc main_arg9)) transposes_S64x64_S64x64_1_0) := by
  show StableHlo.after hostOps0 (W0 m ρ c) (Proc.devRef .tc main_v8) = _
  after_results <;> rfl

theorem w1_v9 : W1 m ρ c (Proc.devRef .tc main_v9) = (transpose S64x64 [1, 0] (m ((c : Thread nD τ).loc main_arg11)) transposes_S64x64_S64x64_1_0) := by
  show StableHlo.after hostOps0 (W0 m ρ c) (Proc.devRef .tc main_v9) = _
  after_results <;> rfl

theorem w1_v10 : W1 m ρ c (Proc.devRef .tc main_v10) = (transpose S64x64 [1, 0] (m ((c : Thread nD τ).loc main_arg12)) transposes_S64x64_S64x64_1_0) := by
  show StableHlo.after hostOps0 (W0 m ρ c) (Proc.devRef .tc main_v10) = _
  after_results <;> rfl

theorem w1_v11 : W1 m ρ c (Proc.devRef .tc main_v11) = (transpose S64x32 [1, 0] (m ((c : Thread nD τ).loc main_arg14)) transposes_S32x64_S64x32_1_0) := by
  show StableHlo.after hostOps0 (W0 m ρ c) (Proc.devRef .tc main_v11) = _
  after_results <;> rfl

/-! ## Layer 1 -/

theorem w2_v12_0 : W2 m ρ c (Proc.devRef .tc main_v12_0)
    = Cert.Layer.prod ((m ((c : Thread nD τ).loc main_arg0)) : S50000x128.Idx → EReal) (transpose S128x128 [1, 0] (m ((c : Thread nD τ).loc main_arg3)) transposes_S128x128_S128x128_1_0) :=
  (W2_arr m ρ c 3).trans ((final0_3 (V1 m ρ) c).trans (congrArg₂ Cert.Layer.prod (w1_arg0 m ρ c) (w1_v4 m ρ c)))

theorem w2_v12_1 : W2 m ρ c (Proc.devRef .tc main_v12_1)
    = Cert.Layer.prod ((m ((c : Thread nD τ).loc main_arg0)) : S50000x128.Idx → EReal) (transpose S128x128 [1, 0] (m ((c : Thread nD τ).loc main_arg5)) transposes_S128x128_S128x128_1_0) :=
  (W2_arr m ρ c 4).trans ((final0_4 (V1 m ρ) c).trans (congrArg₂ Cert.Layer.prod (w1_arg0 m ρ c) (w1_v5 m ρ c)))

theorem w2_v1 : W2 m ρ c (Proc.devRef .tc main_v1) = srcV m c := (W2_of_ne m ρ c main_v1 (by decide)).trans (w1_v1 m ρ c)
theorem w2_v3 : W2 m ρ c (Proc.devRef .tc main_v3) = dstV m c := (W2_of_ne m ρ c main_v3 (by decide)).trans (w1_v3 m ρ c)
theorem w2_arg4 : W2 m ρ c (Proc.devRef .tc main_arg4) = (m ((c : Thread nD τ).loc main_arg4)) :=
  ((W2_of_ne m ρ c main_arg4 (by decide)).trans (keep_H0 m ρ c main_arg4 (by decide))).trans rfl

theorem w3_v22 : W3 m ρ c (Proc.devRef .tc main_v22)
    = seg128 m c (Cert.Layer.prod ((m ((c : Thread nD τ).loc main_arg0)) : S50000x128.Idx → EReal) (transpose S128x128 [1, 0] (m ((c : Thread nD τ).loc main_arg3)) transposes_S128x128_S128x128_1_0)) := by
  show StableHlo.after hostOps1 (W2 m ρ c) (Proc.devRef .tc main_v22) = _
  after_results
  rw [w2_v3 m ρ c, w2_v12_0 m ρ c, w2_v1 m ρ c]
  rfl

theorem w3_v23 : W3 m ρ c (Proc.devRef .tc main_v23) = shapeCast S1x128 (m ((c : Thread nD τ).loc main_arg4)) shapeCasts_S128_S1x128 := by
  show StableHlo.after hostOps1 (W2 m ρ c) (Proc.devRef .tc main_v23) = _
  after_results
  rw [w2_arg4 m ρ c]
  rfl

theorem w3_v12_1 : W3 m ρ c (Proc.devRef .tc main_v12_1)
    = Cert.Layer.prod ((m ((c : Thread nD τ).loc main_arg0)) : S50000x128.Idx → EReal) (transpose S128x128 [1, 0] (m ((c : Thread nD τ).loc main_arg5)) transposes_S128x128_S128x128_1_0) :=
  (keep_H1 m ρ c main_v12_1 (by decide)).trans (w2_v12_1 m ρ c)

theorem w4_v24 : W4 m ρ c (Proc.devRef .tc main_v24) = layer1 m c := by
  refine (W4_arr m ρ c 3).trans ((final1_3 (V3 m ρ) c).trans ?_)
  show rowComb (A := 50000) (C := 128) reluZ (W3 m ρ c (Proc.devRef .tc main_v22)) (W3 m ρ c (Proc.devRef .tc main_v12_1)) (W3 m ρ c (Proc.devRef .tc main_v23)) = _
  rw [w3_v22 m ρ c, w3_v12_1 m ρ c, w3_v23 m ρ c]
  rfl

/-! ## Layer 2 -/

theorem w4_v6 : W4 m ρ c (Proc.devRef .tc main_v6) = (transpose S128x64 [1, 0] (m ((c : Thread nD τ).loc main_arg6)) transposes_S64x128_S128x64_1_0) :=
  ((W4_of_ne m ρ c main_v6 (by decide)).trans ((keep_H1 m ρ c main_v6 (by decide)).trans (W2_of_ne m ρ c main_v6 (by decide)))).trans (w1_v6 m ρ c)

theorem w4_v7 : W4 m ρ c (Proc.devRef .tc main_v7) = (transpose S128x64 [1, 0] (m ((c : Thread nD τ).loc main_arg8)) transposes_S64x128_S128x64_1_0) :=
  ((W4_of_ne m ρ c main_v7 (by decide)).trans ((keep_H1 m ρ c main_v7 (by decide)).trans (W2_of_ne m ρ c main_v7 (by decide)))).trans (w1_v7 m ρ c)

theorem w5_v25_0 : W5 m ρ c (Proc.devRef .tc main_v25_0) = Cert.Layer.prod (layer1 m c) (transpose S128x64 [1, 0] (m ((c : Thread nD τ).loc main_arg6)) transposes_S64x128_S128x64_1_0) :=
  (W5_arr m ρ c 3).trans ((final2_3 (V4 m ρ) c).trans (congrArg₂ Cert.Layer.prod (w4_v24 m ρ c) (w4_v6 m ρ c)))

theorem w5_v25_1 : W5 m ρ c (Proc.devRef .tc main_v25_1) = Cert.Layer.prod (layer1 m c) (transpose S128x64 [1, 0] (m ((c : Thread nD τ).loc main_arg8)) transposes_S64x128_S128x64_1_0) :=
  (W5_arr m ρ c 4).trans ((final2_4 (V4 m ρ) c).trans (congrArg₂ Cert.Layer.prod (w4_v24 m ρ c) (w4_v7 m ρ c)))

theorem w5_v1 : W5 m ρ c (Proc.devRef .tc main_v1) = srcV m c := ((W5_of_ne m ρ c main_v1 (by decide)).trans ((W4_of_ne m ρ c main_v1 (by decide)).trans ((keep_H1 m ρ c main_v1 (by decide)).trans (W2_of_ne m ρ c main_v1 (by decide))))).trans (w1_v1 m ρ c)
theorem w5_v3 : W5 m ρ c (Proc.devRef .tc main_v3) = dstV m c := ((W5_of_ne m ρ c main_v3 (by decide)).trans ((W4_of_ne m ρ c main_v3 (by decide)).trans ((keep_H1 m ρ c main_v3 (by decide)).trans (W2_of_ne m ρ c main_v3 (by decide))))).trans (w1_v3 m ρ c)
theorem w5_arg7 : W5 m ρ c (Proc.devRef .tc main_arg7) = (m ((c : Thread nD τ).loc main_arg7)) :=
  ((W5_of_ne m ρ c main_arg7 (by decide)).trans ((W4_of_ne m ρ c main_arg7 (by decide)).trans ((keep_H1 m ρ c main_arg7 (by decide)).trans ((W2_of_ne m ρ c main_arg7 (by decide)).trans (keep_H0 m ρ c main_arg7 (by decide)))))).trans rfl

theorem w6_v35 : W6 m ρ c (Proc.devRef .tc main_v35) = seg64 m c (Cert.Layer.prod (layer1 m c) (transpose S128x64 [1, 0] (m ((c : Thread nD τ).loc main_arg6)) transposes_S64x128_S128x64_1_0)) := by
  show StableHlo.after hostOps3 (W5 m ρ c) (Proc.devRef .tc main_v35) = _
  after_results
  rw [w5_v3 m ρ c, w5_v25_0 m ρ c, w5_v1 m ρ c]
  rfl

theorem w6_v36 : W6 m ρ c (Proc.devRef .tc main_v36) = shapeCast S1x64 (m ((c : Thread nD τ).loc main_arg7)) shapeCasts_S64_S1x64 := by
  show StableHlo.after hostOps3 (W5 m ρ c) (Proc.devRef .tc main_v36) = _
  after_results
  rw [w5_arg7 m ρ c]
  rfl

theorem w6_v25_1 : W6 m ρ c (Proc.devRef .tc main_v25_1) = Cert.Layer.prod (layer1 m c) (transpose S128x64 [1, 0] (m ((c : Thread nD τ).loc main_arg8)) transposes_S64x128_S128x64_1_0) :=
  (keep_H3 m ρ c main_v25_1 (by decide)).trans (w5_v25_1 m ρ c)

theorem w7_v37 : W7 m ρ c (Proc.devRef .tc main_v37) = layer2 m c := by
  refine (W7_arr m ρ c 3).trans ((final3_3 (V6 m ρ) c).trans ?_)
  show rowComb (A := 50000) (C := 64) reluZ (W6 m ρ c (Proc.devRef .tc main_v35)) (W6 m ρ c (Proc.devRef .tc main_v25_1)) (W6 m ρ c (Proc.devRef .tc main_v36)) = _
  rw [w6_v35 m ρ c, w6_v25_1 m ρ c, w6_v36 m ρ c]
  rfl

/-! ## Layer 3 -/

theorem w7_v8 : W7 m ρ c (Proc.devRef .tc main_v8) = (transpose S64x64 [1, 0] (m ((c : Thread nD τ).loc main_arg9)) transposes_S64x64_S64x64_1_0) :=
  ((W7_of_ne m ρ c main_v8 (by decide)).trans ((keep_H3 m ρ c main_v8 (by decide)).trans ((W5_of_ne m ρ c main_v8 (by decide)).trans ((W4_of_ne m ρ c main_v8 (by decide)).trans ((keep_H1 m ρ c main_v8 (by decide)).trans (W2_of_ne m ρ c main_v8 (by decide))))))).trans (w1_v8 m ρ c)

theorem w7_v9 : W7 m ρ c (Proc.devRef .tc main_v9) = (transpose S64x64 [1, 0] (m ((c : Thread nD τ).loc main_arg11)) transposes_S64x64_S64x64_1_0) :=
  ((W7_of_ne m ρ c main_v9 (by decide)).trans ((keep_H3 m ρ c main_v9 (by decide)).trans ((W5_of_ne m ρ c main_v9 (by decide)).trans ((W4_of_ne m ρ c main_v9 (by decide)).trans ((keep_H1 m ρ c main_v9 (by decide)).trans (W2_of_ne m ρ c main_v9 (by decide))))))).trans (w1_v9 m ρ c)

theorem w8_v38_0 : W8 m ρ c (Proc.devRef .tc main_v38_0) = Cert.Layer.prod (layer2 m c) (transpose S64x64 [1, 0] (m ((c : Thread nD τ).loc main_arg9)) transposes_S64x64_S64x64_1_0) :=
  (W8_arr m ρ c 3).trans ((final4_3 (V7 m ρ) c).trans (congrArg₂ Cert.Layer.prod (w7_v37 m ρ c) (w7_v8 m ρ c)))

theorem w8_v38_1 : W8 m ρ c (Proc.devRef .tc main_v38_1) = Cert.Layer.prod (layer2 m c) (transpose S64x64 [1, 0] (m ((c : Thread nD τ).loc main_arg11)) transposes_S64x64_S64x64_1_0) :=
  (W8_arr m ρ c 4).trans ((final4_4 (V7 m ρ) c).trans (congrArg₂ Cert.Layer.prod (w7_v37 m ρ c) (w7_v9 m ρ c)))

theorem w8_v1 : W8 m ρ c (Proc.devRef .tc main_v1) = srcV m c := ((W8_of_ne m ρ c main_v1 (by decide)).trans ((W7_of_ne m ρ c main_v1 (by decide)).trans ((keep_H3 m ρ c main_v1 (by decide)).trans ((W5_of_ne m ρ c main_v1 (by decide)).trans ((W4_of_ne m ρ c main_v1 (by decide)).trans ((keep_H1 m ρ c main_v1 (by decide)).trans (W2_of_ne m ρ c main_v1 (by decide)))))))).trans (w1_v1 m ρ c)
theorem w8_v3 : W8 m ρ c (Proc.devRef .tc main_v3) = dstV m c := ((W8_of_ne m ρ c main_v3 (by decide)).trans ((W7_of_ne m ρ c main_v3 (by decide)).trans ((keep_H3 m ρ c main_v3 (by decide)).trans ((W5_of_ne m ρ c main_v3 (by decide)).trans ((W4_of_ne m ρ c main_v3 (by decide)).trans ((keep_H1 m ρ c main_v3 (by decide)).trans (W2_of_ne m ρ c main_v3 (by decide)))))))).trans (w1_v3 m ρ c)
theorem w8_arg10 : W8 m ρ c (Proc.devRef .tc main_arg10) = (m ((c : Thread nD τ).loc main_arg10)) :=
  ((W8_of_ne m ρ c main_arg10 (by decide)).trans ((W7_of_ne m ρ c main_arg10 (by decide)).trans ((keep_H3 m ρ c main_arg10 (by decide)).trans ((W5_of_ne m ρ c main_arg10 (by decide)).trans ((W4_of_ne m ρ c main_arg10 (by decide)).trans ((keep_H1 m ρ c main_arg10 (by decide)).trans ((W2_of_ne m ρ c main_arg10 (by decide)).trans (keep_H0 m ρ c main_arg10 (by decide))))))))).trans rfl

theorem w9_v48 : W9 m ρ c (Proc.devRef .tc main_v48) = seg64 m c (Cert.Layer.prod (layer2 m c) (transpose S64x64 [1, 0] (m ((c : Thread nD τ).loc main_arg9)) transposes_S64x64_S64x64_1_0)) := by
  show StableHlo.after hostOps5 (W8 m ρ c) (Proc.devRef .tc main_v48) = _
  after_results
  rw [w8_v3 m ρ c, w8_v38_0 m ρ c, w8_v1 m ρ c]
  rfl

theorem w9_v49 : W9 m ρ c (Proc.devRef .tc main_v49) = shapeCast S1x64 (m ((c : Thread nD τ).loc main_arg10)) shapeCasts_S64_S1x64 := by
  show StableHlo.after hostOps5 (W8 m ρ c) (Proc.devRef .tc main_v49) = _
  after_results
  rw [w8_arg10 m ρ c]
  rfl

theorem w9_v38_1 : W9 m ρ c (Proc.devRef .tc main_v38_1) = Cert.Layer.prod (layer2 m c) (transpose S64x64 [1, 0] (m ((c : Thread nD τ).loc main_arg11)) transposes_S64x64_S64x64_1_0) :=
  (keep_H5 m ρ c main_v38_1 (by decide)).trans (w8_v38_1 m ρ c)

theorem w10_v50 : W10 m ρ c (Proc.devRef .tc main_v50) = layer3 m c := by
  refine (W10_arr m ρ c 3).trans ((final5_3 (V9 m ρ) c).trans ?_)
  show rowComb (A := 50000) (C := 64) (fun v => v) (W9 m ρ c (Proc.devRef .tc main_v48)) (W9 m ρ c (Proc.devRef .tc main_v38_1)) (W9 m ρ c (Proc.devRef .tc main_v49)) = _
  rw [w9_v48 m ρ c, w9_v38_1 m ρ c, w9_v49 m ρ c]
  rfl

/-! ## The pooled features and the head -/

theorem w10_arg2 : W10 m ρ c (Proc.devRef .tc main_arg2) = (m ((c : Thread nD τ).loc main_arg2)) :=
  ((W10_of_ne m ρ c main_arg2 (by decide)).trans ((keep_H5 m ρ c main_arg2 (by decide)).trans ((W8_of_ne m ρ c main_arg2 (by decide)).trans ((W7_of_ne m ρ c main_arg2 (by decide)).trans ((keep_H3 m ρ c main_arg2 (by decide)).trans ((W5_of_ne m ρ c main_arg2 (by decide)).trans ((W4_of_ne m ρ c main_arg2 (by decide)).trans ((keep_H1 m ρ c main_arg2 (by decide)).trans ((W2_of_ne m ρ c main_arg2 (by decide)).trans (keep_H0 m ρ c main_arg2 (by decide))))))))))).trans rfl

theorem w10_arg13 : W10 m ρ c (Proc.devRef .tc main_arg13) = (m ((c : Thread nD τ).loc main_arg13)) :=
  ((W10_of_ne m ρ c main_arg13 (by decide)).trans ((keep_H5 m ρ c main_arg13 (by decide)).trans ((W8_of_ne m ρ c main_arg13 (by decide)).trans ((W7_of_ne m ρ c main_arg13 (by decide)).trans ((keep_H3 m ρ c main_arg13 (by decide)).trans ((W5_of_ne m ρ c main_arg13 (by decide)).trans ((W4_of_ne m ρ c main_arg13 (by decide)).trans ((keep_H1 m ρ c main_arg13 (by decide)).trans ((W2_of_ne m ρ c main_arg13 (by decide)).trans (keep_H0 m ρ c main_arg13 (by decide))))))))))).trans rfl

theorem w10_arg15 : W10 m ρ c (Proc.devRef .tc main_arg15) = (m ((c : Thread nD τ).loc main_arg15)) :=
  ((W10_of_ne m ρ c main_arg15 (by decide)).trans ((keep_H5 m ρ c main_arg15 (by decide)).trans ((W8_of_ne m ρ c main_arg15 (by decide)).trans ((W7_of_ne m ρ c main_arg15 (by decide)).trans ((keep_H3 m ρ c main_arg15 (by decide)).trans ((W5_of_ne m ρ c main_arg15 (by decide)).trans ((W4_of_ne m ρ c main_arg15 (by decide)).trans ((keep_H1 m ρ c main_arg15 (by decide)).trans ((W2_of_ne m ρ c main_arg15 (by decide)).trans (keep_H0 m ρ c main_arg15 (by decide))))))))))).trans rfl

theorem w11_v53 : W11 m ρ c (Proc.devRef .tc main_v53) = pooled m c := by
  show StableHlo.after hostOps6 (W10 m ρ c) (Proc.devRef .tc main_v53) = _
  after_results
  rw [w10_arg2 m ρ c, w10_v50 m ρ c]
  rfl

theorem w11_v54 : W11 m ρ c (Proc.devRef .tc main_v54) = shapeCast S1x64 (m ((c : Thread nD τ).loc main_arg13)) shapeCasts_S64_S1x64 := by
  show StableHlo.after hostOps6 (W10 m ρ c) (Proc.devRef .tc main_v54) = _
  after_results
  rw [w10_arg13 m ρ c]
  rfl

theorem w11_v55 : W11 m ρ c (Proc.devRef .tc main_v55) = shapeCast S1x32 (m ((c : Thread nD τ).loc main_arg15)) shapeCasts_S32_S1x32 := by
  show StableHlo.after hostOps6 (W10 m ρ c) (Proc.devRef .tc main_v55) = _
  after_results
  rw [w10_arg15 m ρ c]
  rfl

theorem w11_v10 : W11 m ρ c (Proc.devRef .tc main_v10) = (transpose S64x64 [1, 0] (m ((c : Thread nD τ).loc main_arg12)) transposes_S64x64_S64x64_1_0) :=
  ((keep_H6 m ρ c main_v10 (by decide)).trans ((W10_of_ne m ρ c main_v10 (by decide)).trans ((keep_H5 m ρ c main_v10 (by decide)).trans ((W8_of_ne m ρ c main_v10 (by decide)).trans ((W7_of_ne m ρ c main_v10 (by decide)).trans ((keep_H3 m ρ c main_v10 (by decide)).trans ((W5_of_ne m ρ c main_v10 (by decide)).trans ((W4_of_ne m ρ c main_v10 (by decide)).trans ((keep_H1 m ρ c main_v10 (by decide)).trans (W2_of_ne m ρ c main_v10 (by decide))))))))))).trans (w1_v10 m ρ c)

theorem w11_v11 : W11 m ρ c (Proc.devRef .tc main_v11) = (transpose S64x32 [1, 0] (m ((c : Thread nD τ).loc main_arg14)) transposes_S32x64_S64x32_1_0) :=
  ((keep_H6 m ρ c main_v11 (by decide)).trans ((W10_of_ne m ρ c main_v11 (by decide)).trans ((keep_H5 m ρ c main_v11 (by decide)).trans ((W8_of_ne m ρ c main_v11 (by decide)).trans ((W7_of_ne m ρ c main_v11 (by decide)).trans ((keep_H3 m ρ c main_v11 (by decide)).trans ((W5_of_ne m ρ c main_v11 (by decide)).trans ((W4_of_ne m ρ c main_v11 (by decide)).trans ((keep_H1 m ρ c main_v11 (by decide)).trans (W2_of_ne m ρ c main_v11 (by decide))))))))))).trans (w1_v11 m ρ c)

/-- The result buffer at the last boundary is the head of the pooled features. -/
theorem w12_v56 : W12 m ρ c (Proc.devRef .tc main_v56) = result m c := by
  refine (W12_arr m ρ c 5).trans ((final6_5 (V11 m ρ) c).trans ?_)
  show k6_pay1 (F := Ideal) (W11 m ρ c (Proc.devRef .tc main_v53)) (W11 m ρ c (Proc.devRef .tc main_v10)) (W11 m ρ c (Proc.devRef .tc main_v54))
    (W11 m ρ c (Proc.devRef .tc main_v11)) (W11 m ρ c (Proc.devRef .tc main_v55)) = _
  rw [w11_v53 m ρ c, w11_v10 m ρ c, w11_v54 m ρ c, w11_v11 m ρ c, w11_v55 m ρ c]
  exact pay6_eq _ _ _ _ _

end Cert.KernelIdeal.Hand

end
-- ==== Proof.LibSegCat.lean ====
/-
  Rows added into segments, column by column. An update (e, k) of an add-scatter of [R, C] rows into an [N, C]
  operand at scatter indices [R, 1] lands on element (n, q) exactly when the signed index of e is n and k is q: the
  row is chosen by the index, the column is kept. Hence column o + q of the scatter of a wide [R, C2] array W is the
  scatter of the narrow [R, C] array that W's columns o … o + C − 1 make up, read at column q, when both operands
  being added into are zero: the two landing sets correspond by (e, o + q) ↔ (e, q). For W the two-piece
  concatenation of U and V along the columns, the left half of the scatter is the scatter of U and the right half the
  scatter of V.
-/
import Idealize.ShloMosaic.PureOps.Ideal
import Idealize.ShloMosaic.PureOps.Ideal.Laws
import Idealize.ShloMosaic.Lib.ValueIdx
import Idealize.ShloMosaic.Lib.Pipeline.Value
import proofs.«154709_j85770496901295_2_alg».proof.Proof.LibSegSum

noncomputable section

open scoped BigOperators

namespace Cert.Glue

open Idealize.ShloMosaic Idealize.ShloMosaic.ValueIdx Cert.LibSegSum

/-! ## Where an added row lands, exactly -/

theorem addRows_lands_iff {N R C : Nat}
    (wf : ScatterDims.WF ⟨2, ![N, C]⟩ ⟨2, ![R, 1]⟩ ⟨2, ![R, C]⟩ [1] [0] [0] 1)
    (idx : IVec ⟨2, ![R, 1]⟩ 32) (e : Fin R) (k : Fin C) (n : Fin N) (q : Fin C) :
    (addRowsDims N R C wf).resultIdx? (ix2 e k) idx = some (ix2 n q)
      ↔ (idx (at0 e)).toInt = (n.val : Int) ∧ k = q := by
  have hsi : (addRowsDims N R C wf).siIdx (ix2 e k) ⟨List.idxOf (0 : Fin 2) (addRowsDims N R C wf).scatterDimsToOperandDims,
      List.idxOf_lt_length_iff.2 (List.mem_singleton.mpr rfl)⟩ = at0 e := by
    funext b; refine Fin.ext ?_
    match b with
    | ⟨0, _⟩ => rfl
    | ⟨1, _⟩ => rfl
  have hstart0 : (addRowsDims N R C wf).start (ix2 e k) idx 0 = (idx (at0 e)).toInt := by
    unfold ScatterDims.start
    rw [dif_pos (show (0 : Fin 2) ∈ (addRowsDims N R C wf).scatterDimsToOperandDims from List.mem_singleton.mpr rfl), hsi]
  have hwin0 : (addRowsDims N R C wf).window (ix2 e k) 0 = 0 := by
    unfold ScatterDims.window
    rw [dif_neg (show (0 : Fin 2) ∉ (addRowsDims N R C wf).sKept from (by decide : (0 : Fin 2) ∉ (List.finRange 2).filter (· ∉ ([0] : List (Fin 2)))))]
  have hstart1 : (addRowsDims N R C wf).start (ix2 e k) idx 1 = 0 := by
    unfold ScatterDims.start
    rw [dif_neg (show (1 : Fin 2) ∉ (addRowsDims N R C wf).scatterDimsToOperandDims from (by decide : (1 : Fin 2) ∉ ([0] : List (Fin 2))))]
  have hwin1 : (addRowsDims N R C wf).window (ix2 e k) 1 = k.val := by
    unfold ScatterDims.window
    rw [dif_pos (show (1 : Fin 2) ∈ (addRowsDims N R C wf).sKept from (by decide : (1 : Fin 2) ∈ (List.finRange 2).filter (· ∉ ([0] : List (Fin 2)))))]
    rfl
  constructor
  · intro h
    unfold ScatterDims.resultIdx? at h
    split at h
    · rename_i hin
      have h0 := congrArg (fun f => (f 0).val) (Option.some.inj h)
      have h1 := congrArg (fun f => (f 1).val) (Option.some.inj h)
      simp only at h0 h1
      have hb := (hin 0).1
      rw [hstart0, hwin0] at h0 hb
      rw [hstart1, hwin1] at h1
      simp only [Nat.cast_zero, add_zero] at h0 hb
      have h0' : (idx (at0 e)).toInt.toNat = n.val := h0
      have h1' : ((0 : Int) + (k.val : Int)).toNat = q.val := h1
      exact ⟨by omega, Fin.ext (by omega)⟩
    · exact absurd h (by simp)
  · rintro ⟨hn, rfl⟩
    have hin : ∀ a : Fin 2, 0 ≤ (addRowsDims N R C wf).start (ix2 e k) idx a + (addRowsDims N R C wf).window (ix2 e k) a
        ∧ (addRowsDims N R C wf).start (ix2 e k) idx a + (addRowsDims N R C wf).window (ix2 e k) a
          < (⟨2, ![N, C]⟩ : Shape).size a := by
      intro a
      match a with
      | ⟨0, _⟩ =>
        show 0 ≤ (addRowsDims N R C wf).start (ix2 e k) idx 0 + ((addRowsDims N R C wf).window (ix2 e k) 0 : Nat)
          ∧ (addRowsDims N R C wf).start (ix2 e k) idx 0 + ((addRowsDims N R C wf).window (ix2 e k) 0 : Nat) < (N : Int)
        rw [hstart0, hwin0, hn]
        have := n.isLt
        constructor <;> omega
      | ⟨1, _⟩ =>
        show 0 ≤ (addRowsDims N R C wf).start (ix2 e k) idx 1 + ((addRowsDims N R C wf).window (ix2 e k) 1 : Nat)
          ∧ (addRowsDims N R C wf).start (ix2 e k) idx 1 + ((addRowsDims N R C wf).window (ix2 e k) 1 : Nat) < (C : Int)
        rw [hstart1, hwin1]
        have := k.isLt
        constructor <;> omega
    unfold ScatterDims.resultIdx?
    rw [dif_pos hin]
    refine congrArg some (funext fun a => Fin.ext ?_)
    match a with
    | ⟨0, _⟩ =>
      show ((addRowsDims N R C wf).start (ix2 e k) idx 0 + ((addRowsDims N R C wf).window (ix2 e k) 0 : Nat)).toNat = n.val
      rw [hstart0, hwin0, hn]
      omega
    | ⟨1, _⟩ =>
      show ((addRowsDims N R C wf).start (ix2 e k) idx 1 + ((addRowsDims N R C wf).window (ix2 e k) 1 : Nat)).toNat = k.val
      rw [hstart1, hwin1]
      omega

/-! ## The scatter acts column by column -/

/-- Column o + q of the rows W added into segments is column q of the rows U added into segments, when column o + q of W
    is column q of U for every q and both operands being added into are zero. -/
theorem addRows_cols {N R C C2 : Nat} (o : Nat) (ho : o + C ≤ C2)
    (wfK : ScatterDims.WF ⟨2, ![N, C2]⟩ ⟨2, ![R, 1]⟩ ⟨2, ![R, C2]⟩ [1] [0] [0] 1)
    (wfR : ScatterDims.WF ⟨2, ![N, C]⟩ ⟨2, ![R, 1]⟩ ⟨2, ![R, C]⟩ [1] [0] [0] 1)
    (idx : IVec ⟨2, ![R, 1]⟩ 32)
    (Z2 : FVec Ideal ⟨2, ![N, C2]⟩ .f32) (hZ2 : ∀ i, Z2 i = 0)
    (Z1 : FVec Ideal ⟨2, ![N, C]⟩ .f32) (hZ1 : ∀ i, Z1 i = 0)
    (W : FVec Ideal ⟨2, ![R, C2]⟩ .f32) (U : FVec Ideal ⟨2, ![R, C]⟩ .f32)
    (hW : ∀ (e : Fin R) (q : Fin C), W (ix2 e (⟨o + q.val, by omega⟩ : Fin C2)) = U (ix2 e q))
    (n : Fin N) (q : Fin C) :
    Host.scatterAdd (addRowsDims N R C2 wfK) Z2 idx W (ix2 n (⟨o + q.val, by omega⟩ : Fin C2))
      = Host.scatterAdd (addRowsDims N R C wfR) Z1 idx U (ix2 n q) := by
  have hq : o + q.val < C2 := by have := q.isLt; omega
  simp only [Host.scatterAdd, Ideal.hostScatterAdd_def, Ideal.hostScatterAdd]
  rw [hZ2, hZ1, zero_add, zero_add]
  refine Finset.sum_nbij' (fun j => ix2 (j 0) q) (fun j => ix2 (j 0) (⟨o + q.val, hq⟩ : Fin C2)) ?_ ?_ ?_ ?_ ?_
  · intro j hj
    obtain ⟨e, k, rfl⟩ : ∃ (e : Fin R) (k : Fin C2), j = ix2 e k := ⟨j 0, j 1, eq_ix2 j⟩
    have h := (addRows_lands_iff wfK idx e k n ⟨o + q.val, hq⟩).mp (Finset.mem_filter.mp hj).2
    exact Finset.mem_filter.mpr ⟨Finset.mem_univ _, (addRows_lands_iff wfR idx e q n q).mpr ⟨h.1, rfl⟩⟩
  · intro j hj
    obtain ⟨e, k, rfl⟩ : ∃ (e : Fin R) (k : Fin C), j = ix2 e k := ⟨j 0, j 1, eq_ix2 j⟩
    have h := (addRows_lands_iff wfR idx e k n q).mp (Finset.mem_filter.mp hj).2
    exact Finset.mem_filter.mpr ⟨Finset.mem_univ _,
      (addRows_lands_iff wfK idx e ⟨o + q.val, hq⟩ n ⟨o + q.val, hq⟩).mpr ⟨h.1, rfl⟩⟩
  · intro j hj
    obtain ⟨e, k, rfl⟩ : ∃ (e : Fin R) (k : Fin C2), j = ix2 e k := ⟨j 0, j 1, eq_ix2 j⟩
    have h := (addRows_lands_iff wfK idx e k n ⟨o + q.val, hq⟩).mp (Finset.mem_filter.mp hj).2
    show ix2 e (⟨o + q.val, hq⟩ : Fin C2) = ix2 e k
    rw [h.2]
  · intro j hj
    obtain ⟨e, k, rfl⟩ : ∃ (e : Fin R) (k : Fin C), j = ix2 e k := ⟨j 0, j 1, eq_ix2 j⟩
    have h := (addRows_lands_iff wfR idx e k n q).mp (Finset.mem_filter.mp hj).2
    show ix2 e q = ix2 e k
    rw [h.2]
  · intro j hj
    obtain ⟨e, k, rfl⟩ : ∃ (e : Fin R) (k : Fin C2), j = ix2 e k := ⟨j 0, j 1, eq_ix2 j⟩
    have h := (addRows_lands_iff wfK idx e k n ⟨o + q.val, hq⟩).mp (Finset.mem_filter.mp hj).2
    show W (ix2 e k) = U (ix2 e q)
    rw [h.2]
    exact hW e q

/-! ## The scatter of two arrays side by side -/

section Cat
variable {N R C C2 : Nat} (hC : C2 = C + C)
  (wfK : ScatterDims.WF ⟨2, ![N, C2]⟩ ⟨2, ![R, 1]⟩ ⟨2, ![R, C2]⟩ [1] [0] [0] 1)
  (wfR : ScatterDims.WF ⟨2, ![N, C]⟩ ⟨2, ![R, 1]⟩ ⟨2, ![R, C]⟩ [1] [0] [0] 1)
  (hc : Shape.Concatenates [⟨2, ![R, C]⟩, ⟨2, ![R, C]⟩] ⟨2, ![R, C2]⟩ 1)
  (U V : FVec Ideal ⟨2, ![R, C]⟩ .f32) (idx : IVec ⟨2, ![R, 1]⟩ 32)
  (Z2 : FVec Ideal ⟨2, ![N, C2]⟩ .f32) (hZ2 : ∀ i, Z2 i = 0)
  (Z1 : FVec Ideal ⟨2, ![N, C]⟩ .f32) (hZ1 : ∀ i, Z1 i = 0)

include hC hZ2 hZ1 in
/-- The left half of the scatter of [U | V] is the scatter of U. -/
theorem seg_cat_left_gen (hs : (⟨2, ![N, C2]⟩ : Shape).Slices ![0, 0] ⟨2, ![N, C]⟩) :
    extractStridedSlice ⟨2, ![N, C]⟩ ![0, 0]
      (Host.scatterAdd (addRowsDims N R C2 wfK) Z2 idx (concatenate ⟨2, ![R, C2]⟩ 1 [⟨_, U⟩, ⟨_, V⟩] hc)) hs
    = Host.scatterAdd (addRowsDims N R C wfR) Z1 idx U := by
  funext i
  obtain ⟨n, q, rfl⟩ : ∃ (n : Fin N) (q : Fin C), i = ix2 n q := ⟨i 0, i 1, eq_ix2 i⟩
  have hq : 0 + q.val < C2 := by have := q.isLt; omega
  refine (extractStridedSlice_apply ![0, 0] _ hs (ix2 n q) (ix2 n (⟨0 + q.val, hq⟩ : Fin C2)) (fun a => ?_)).trans ?_
  · match a with
    | ⟨0, _⟩ => show n.val = 0 + n.val; omega
    | ⟨1, _⟩ => rfl
  refine addRows_cols 0 (by omega) wfK wfR idx Z2 hZ2 Z1 hZ1 _ U (fun e q' => ?_) n q
  refine concatenate_pair_apply_left (t := ⟨2, ![R, C2]⟩) 1 U V hc _ rfl (ix2 e q') (fun b => ?_)
  match b with
  | ⟨0, _⟩ => rfl
  | ⟨1, _⟩ => show q'.val = 0 + q'.val; omega

include hC hZ2 hZ1 in
/-- The right half of the scatter of [U | V] is the scatter of V. -/
theorem seg_cat_right_gen (hs : (⟨2, ![N, C2]⟩ : Shape).Slices ![0, C] ⟨2, ![N, C]⟩) :
    extractStridedSlice ⟨2, ![N, C]⟩ ![0, C]
      (Host.scatterAdd (addRowsDims N R C2 wfK) Z2 idx (concatenate ⟨2, ![R, C2]⟩ 1 [⟨_, U⟩, ⟨_, V⟩] hc)) hs
    = Host.scatterAdd (addRowsDims N R C wfR) Z1 idx V := by
  funext i
  obtain ⟨n, q, rfl⟩ : ∃ (n : Fin N) (q : Fin C), i = ix2 n q := ⟨i 0, i 1, eq_ix2 i⟩
  have hq : C + q.val < C2 := by have := q.isLt; omega
  refine (extractStridedSlice_apply ![0, C] _ hs (ix2 n q) (ix2 n (⟨C + q.val, hq⟩ : Fin C2)) (fun a => ?_)).trans ?_
  · match a with
    | ⟨0, _⟩ => show n.val = 0 + n.val; omega
    | ⟨1, _⟩ => rfl
  refine addRows_cols C (by omega) wfK wfR idx Z2 hZ2 Z1 hZ1 _ V (fun e q' => ?_) n q
  refine concatenate_pair_apply_right (t := ⟨2, ![R, C2]⟩) 1 U V hc _ rfl rfl (ix2 e q') (fun b hb => ?_) ?_
  · match b with
    | ⟨0, _⟩ => rfl
    | ⟨1, _⟩ => exact absurd rfl hb
  · show q'.val + C = C + q'.val
    omega

end Cat

end Cert.Glue

end
-- ==== Proof.LibMatAssoc.lean ====
/-
  Two facts about finite sums, free of any program.

  (1) For REAL matrices the product re-brackets: ∑_n (∑_j a_j · b_jn) · c_n = ∑_j a_j · (∑_n b_jn · c_n). On the extended
      reals this is false in general (a product does not distribute over a sum that mixes +inf and -inf), so it is stated for
      entries that are reals, carried into the extended reals: both sides are then the image of one real number.
  (2) A sum over 4096 indices is the sum over 16 tiles of 256: n = 256k + i.
-/
import Idealize.ShloMosaic.PureOps.Ideal.Laws

noncomputable section

namespace MatAssoc

open Finset

/-- The image of a finite real sum in the extended reals is the sum of the images. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- (a·B)·c = a·(B·c) for a real row a, a real matrix B and a real column c, stated in the extended reals. -/
theorem assoc_real {ι κ : Type*} [Fintype ι] [Fintype κ] (a : ι → ℝ) (b : ι → κ → ℝ) (c : κ → ℝ) :
    (∑ n : κ, (∑ j : ι, (a j : EReal) * (b j n : EReal)) * (c n : EReal))
      = ∑ j : ι, (a j : EReal) * ∑ n : κ, (b j n : EReal) * (c n : EReal) := by
  have hl : ∀ n, (∑ j : ι, (a j : EReal) * (b j n : EReal)) * (c n : EReal) = (((∑ j : ι, a j * b j n) * c n : ℝ) : EReal) := fun n => by
    rw [EReal.coe_mul, coe_sum]; simp only [EReal.coe_mul]
  have hr : ∀ j, (a j : EReal) * ∑ n : κ, (b j n : EReal) * (c n : EReal) = ((a j * ∑ n : κ, b j n * c n : ℝ) : EReal) := fun j => by
    rw [EReal.coe_mul, coe_sum]; simp only [EReal.coe_mul]
  simp only [hl, hr, ← coe_sum]
  congr 1
  simp only [Finset.sum_mul, Finset.mul_sum]
  rw [Finset.sum_comm]
  refine Finset.sum_congr rfl fun j _ => Finset.sum_congr rfl fun n _ => ?_
  ring

/-- The same for extended-real entries each of which is a real. -/
theorem assoc_of_real {ι κ : Type*} [Fintype ι] [Fintype κ] (A : ι → EReal) (B : ι → κ → EReal) (C : κ → EReal)
    (hA : ∀ j, ∃ r : ℝ, A j = (r : EReal)) (hB : ∀ j n, ∃ r : ℝ, B j n = (r : EReal)) (hC : ∀ n, ∃ r : ℝ, C n = (r : EReal)) :
    (∑ n : κ, (∑ j : ι, A j * B j n) * C n) = ∑ j : ι, A j * ∑ n : κ, B j n * C n := by
  choose a ha using hA
  choose b hb using hB
  choose c hc using hC
  simp only [ha, hb, hc]
  exact assoc_real a b c

/-- A sum over 4096 indices, tile by tile: 16 tiles of 256. -/
theorem sum_tiles {M : Type*} [AddCommMonoid M] (f : Fin 4096 → M) :
    (∑ k : Fin 16, ∑ i : Fin 256, f ⟨256 * k.val + i.val, by omega⟩) = ∑ n : Fin 4096, f n := by
  have h := Fintype.sum_prod_type' (fun (k : Fin 16) (i : Fin 256) => f ⟨256 * k.val + i.val, by omega⟩)
  rw [← h]
  refine Fintype.sum_equiv (finProdFinEquiv (m := 16) (n := 256)) _ (fun n : Fin (16 * 256) => f n) (fun p => ?_)
  show f _ = f _
  congr 1
  apply Fin.ext
  show 256 * p.1.val + p.2.val = (finProdFinEquiv p).val
  simp [finProdFinEquiv]
  omega

end MatAssoc

end
-- ==== Proof.GraphConv.lean ====
/-
  One graph-convolution layer on the extended reals, in two arrangements, generic in the extents: N nodes, R edges,
  K input features, B output features.

  An edge e carries a source index and a target index. The SEGMENT SUM of an [N, C] array H gathers row clamp(src e) of H
  for every edge e and adds it into row (dst e) of a zero [N, C] array; at (n, q) it is the sum, over the edges whose
  target index is n, of H(clamp(src e), q).

  The two arrangements of the layer, with a bias vector b and an entrywise map f applied last:
    * product first:   f( (segsum (H · Wrel) + H · Wroot) + b )
    * product last:    f( ((segsum H) · Wrel + b) + H · Wroot )
  They agree when the entries of H and Wrel are real numbers: a product with a real matrix distributes over the finite
  sum of real rows that a segment sum is, and addition on the extended reals is commutative and associative. With real
  Wroot and b as well, and f mapping reals to reals, the layer's result has real entries again, so layers compose.
-/
import proofs.«154709_j85770496901295_2_alg».proof.Proof.LibSegCat
import proofs.«154709_j85770496901295_2_alg».proof.Proof.LibRowLocal
import proofs.«154709_j85770496901295_2_alg».proof.Proof.LibMatAssoc

noncomputable section

open scoped BigOperators

namespace Cert.Conv

open Idealize.ShloMosaic Idealize.ShloMosaic.ValueIdx Cert.LibSegSum Cert.Layer

/-- Every entry of the array is a real number. -/
def IsReal {S : Shape} (X : S.Idx → EReal) : Prop := ∀ i, ∃ r : ℝ, X i = (r : EReal)

variable {N R K B : Nat}

/-! ## A segment sum read at an index -/

/-- Rows added into segments, at (n, q): the operand's entry plus the sum over the edges whose index is n of the
    update's entry (e, q). -/
theorem scatterAdd_rows_apply {C : Nat} (wf : ScatterDims.WF ⟨2, ![N, C]⟩ ⟨2, ![R, 1]⟩ ⟨2, ![R, C]⟩ [1] [0] [0] 1)
    (Z : FVec Ideal ⟨2, ![N, C]⟩ .f32) (idx : IVec ⟨2, ![R, 1]⟩ 32) (U : FVec Ideal ⟨2, ![R, C]⟩ .f32)
    (n : Fin N) (q : Fin C) :
    Host.scatterAdd (addRowsDims N R C wf) Z idx U (ix2 n q)
      = Z (ix2 n q) + ∑ e ∈ Finset.univ.filter (fun e : Fin R => (idx (at0 e)).toInt = (n.val : Int)), U (ix2 e q) := by
  simp only [Host.scatterAdd, Ideal.hostScatterAdd_def, Ideal.hostScatterAdd]
  congr 1
  have key : ∀ (e : Fin R) (k : Fin C), (addRowsDims N R C wf).resultIdx? (ix2 e k) idx = some (ix2 n q) →
      (idx (at0 e)).toInt = (n.val : Int) ∧ k = q := fun e k h =>
    (Cert.Glue.addRows_lands_iff wf idx e k n q).mp h
  refine Finset.sum_bij' (fun j _ => j 0) (fun e _ => ix2 e q) ?_ ?_ ?_ ?_ ?_
  · intro j hj
    obtain ⟨e, k, rfl⟩ : ∃ (e : Fin R) (k : Fin C), j = ix2 e k := ⟨j 0, j 1, eq_ix2 j⟩
    exact Finset.mem_filter.mpr ⟨Finset.mem_univ _, (key e k (Finset.mem_filter.mp hj).2).1⟩
  · intro e he
    exact Finset.mem_filter.mpr ⟨Finset.mem_univ _,
      (Cert.Glue.addRows_lands_iff wf idx e q n q).mpr ⟨(Finset.mem_filter.mp he).2, rfl⟩⟩
  · intro j hj
    obtain ⟨e, k, rfl⟩ : ∃ (e : Fin R) (k : Fin C), j = ix2 e k := ⟨j 0, j 1, eq_ix2 j⟩
    obtain rfl := (key e k (Finset.mem_filter.mp hj).2).2
    rfl
  · intro e _
    rfl
  · intro j hj
    obtain ⟨e, k, rfl⟩ : ∃ (e : Fin R) (k : Fin C), j = ix2 e k := ⟨j 0, j 1, eq_ix2 j⟩
    obtain rfl := (key e k (Finset.mem_filter.mp hj).2).2
    rfl

/-! ## A real matrix distributes over a finite sum of real rows -/

theorem sum_sum_mul_real {ι κ : Type} (s : Finset ι) [Fintype κ] (a : ι → κ → EReal) (w : κ → EReal)
    (ha : ∀ e k, ∃ r : ℝ, a e k = (r : EReal)) (hw : ∀ k, ∃ r : ℝ, w k = (r : EReal)) :
    ∑ e ∈ s, ∑ k, a e k * w k = ∑ k, (∑ e ∈ s, a e k) * w k := by
  choose a' ha' using ha
  choose w' hw' using hw
  have hl : ∑ e ∈ s, ∑ k, a e k * w k = ((∑ e ∈ s, ∑ k, a' e k * w' k : ℝ) : EReal) := by
    rw [MatAssoc.coe_sum]
    refine Finset.sum_congr rfl fun e _ => ?_
    rw [MatAssoc.coe_sum]
    refine Finset.sum_congr rfl fun k _ => ?_
    rw [ha', hw', EReal.coe_mul]
  have hr : ∑ k, (∑ e ∈ s, a e k) * w k = ((∑ k, (∑ e ∈ s, a' e k) * w' k : ℝ) : EReal) := by
    rw [MatAssoc.coe_sum]
    refine Finset.sum_congr rfl fun k _ => ?_
    rw [EReal.coe_mul, MatAssoc.coe_sum, hw']
    congr 1
    exact Finset.sum_congr rfl fun e _ => ha' e k
  rw [hl, hr, Finset.sum_comm]
  congr 1
  exact Finset.sum_congr rfl fun k _ => (Finset.sum_mul _ _ _).symm

/-! ## The segment sum, and the product moved across it -/

/-- Rows of H gathered at the source column and added into a zero-initialised array at the target column. -/
def segsum {C : Nat} (wfS : ScatterDims.WF ⟨2, ![N, C]⟩ ⟨2, ![R, 1]⟩ ⟨2, ![R, C]⟩ [1] [0] [0] 1)
    (wfG : GatherDims.WF ⟨2, ![N, C]⟩ ⟨2, ![R, 1]⟩ ⟨2, ![R, C]⟩ [1] [0] [] [0] [] 1 ![1, C])
    (Z : FVec Ideal ⟨2, ![N, C]⟩ .f32) (dst src : IVec ⟨2, ![R, 1]⟩ 32) (H : FVec Ideal ⟨2, ![N, C]⟩ .f32) :
    FVec Ideal ⟨2, ![N, C]⟩ .f32 :=
  Host.scatterAdd (addRowsDims N R C wfS) Z dst (Host.gather (rowsDims N R C wfG) H src)

theorem segsum_apply {C : Nat} (hN : 0 < N) (wfS : ScatterDims.WF ⟨2, ![N, C]⟩ ⟨2, ![R, 1]⟩ ⟨2, ![R, C]⟩ [1] [0] [0] 1)
    (wfG : GatherDims.WF ⟨2, ![N, C]⟩ ⟨2, ![R, 1]⟩ ⟨2, ![R, C]⟩ [1] [0] [] [0] [] 1 ![1, C])
    (Z : FVec Ideal ⟨2, ![N, C]⟩ .f32) (hZ : ∀ i, Z i = 0) (dst src : IVec ⟨2, ![R, 1]⟩ 32)
    (H : FVec Ideal ⟨2, ![N, C]⟩ .f32) (n : Fin N) (q : Fin C) :
    segsum wfS wfG Z dst src H (ix2 n q)
      = ∑ e ∈ Finset.univ.filter (fun e : Fin R => (dst (at0 e)).toInt = (n.val : Int)),
          H (ix2 (clampIx hN (src (at0 e))) q) := by
  unfold segsum
  rw [scatterAdd_rows_apply, hZ, zero_add]
  exact Finset.sum_congr rfl fun e _ => gather_rows_apply hN wfG H src e q

/-- The segment sum of a product is the product of the segment sum, for real entries. -/
theorem segsum_prod (hN : 0 < N)
    (wfSi : ScatterDims.WF ⟨2, ![N, K]⟩ ⟨2, ![R, 1]⟩ ⟨2, ![R, K]⟩ [1] [0] [0] 1)
    (wfGi : GatherDims.WF ⟨2, ![N, K]⟩ ⟨2, ![R, 1]⟩ ⟨2, ![R, K]⟩ [1] [0] [] [0] [] 1 ![1, K])
    (wfSo : ScatterDims.WF ⟨2, ![N, B]⟩ ⟨2, ![R, 1]⟩ ⟨2, ![R, B]⟩ [1] [0] [0] 1)
    (wfGo : GatherDims.WF ⟨2, ![N, B]⟩ ⟨2, ![R, 1]⟩ ⟨2, ![R, B]⟩ [1] [0] [] [0] [] 1 ![1, B])
    (Zi : FVec Ideal ⟨2, ![N, K]⟩ .f32) (hZi : ∀ i, Zi i = 0) (Zo : FVec Ideal ⟨2, ![N, B]⟩ .f32) (hZo : ∀ i, Zo i = 0)
    (dst src : IVec ⟨2, ![R, 1]⟩ 32) (H : FVec Ideal ⟨2, ![N, K]⟩ .f32) (W : FVec Ideal ⟨2, ![K, B]⟩ .f32)
    (hH : IsReal H) (hW : IsReal W) :
    segsum wfSo wfGo Zo dst src (prod H W) = prod (segsum wfSi wfGi Zi dst src H) W := by
  funext i
  obtain ⟨n, q, rfl⟩ : ∃ (n : Fin N) (q : Fin B), i = ix2 n q := ⟨i 0, i 1, eq_ix2 i⟩
  rw [segsum_apply hN wfSo wfGo Zo hZo]
  show ∑ e ∈ _, ∑ k : Fin K, H (ix2 (clampIx hN (src (at0 e))) k) * W (ix2 k q)
    = ∑ k : Fin K, segsum wfSi wfGi Zi dst src H (ix2 n k) * W (ix2 k q)
  rw [sum_sum_mul_real _ (fun e k => H (ix2 (clampIx hN (src (at0 e))) k)) (fun k => W (ix2 k q))
    (fun e k => hH _) (fun k => hW _)]
  exact Finset.sum_congr rfl fun k _ => by rw [segsum_apply hN wfSi wfGi Zi hZi]

/-! ## Real entries are kept by every stage -/

theorem isReal_prod {A : Nat} {X : FVec Ideal ⟨2, ![A, K]⟩ .f32} {W : FVec Ideal ⟨2, ![K, B]⟩ .f32}
    (hX : IsReal X) (hW : IsReal W) : IsReal (prod X W) := fun i => by
  choose x' hx' using hX
  choose w' hw' using hW
  refine ⟨∑ k : Fin K, x' (ix2 (i 0) k) * w' (ix2 k (i 1)), ?_⟩
  show ∑ k : Fin K, X (ix2 (i 0) k) * W (ix2 k (i 1)) = _
  rw [MatAssoc.coe_sum]
  exact Finset.sum_congr rfl fun k _ => by rw [hx', hw', EReal.coe_mul]

theorem isReal_segsum {C : Nat} (hN : 0 < N) (wfS : ScatterDims.WF ⟨2, ![N, C]⟩ ⟨2, ![R, 1]⟩ ⟨2, ![R, C]⟩ [1] [0] [0] 1)
    (wfG : GatherDims.WF ⟨2, ![N, C]⟩ ⟨2, ![R, 1]⟩ ⟨2, ![R, C]⟩ [1] [0] [] [0] [] 1 ![1, C])
    (Z : FVec Ideal ⟨2, ![N, C]⟩ .f32) (hZ : ∀ i, Z i = 0) (dst src : IVec ⟨2, ![R, 1]⟩ 32)
    {H : FVec Ideal ⟨2, ![N, C]⟩ .f32} (hH : IsReal H) : IsReal (segsum wfS wfG Z dst src H) := fun i => by
  obtain ⟨n, q, rfl⟩ : ∃ (n : Fin N) (q : Fin C), i = ix2 n q := ⟨i 0, i 1, eq_ix2 i⟩
  choose h' hh' using hH
  rw [segsum_apply hN wfS wfG Z hZ]
  refine ⟨∑ e ∈ Finset.univ.filter (fun e : Fin R => (dst (at0 e)).toInt = (n.val : Int)),
    h' (ix2 (clampIx hN (src (at0 e))) q), ?_⟩
  rw [MatAssoc.coe_sum]
  exact Finset.sum_congr rfl fun e _ => hh' _

/-! ## The layer, in its two arrangements -/

/-- Product first: rows are multiplied by the weights, then gathered and added into segments. -/
def convFirst (f : EReal → EReal)
    (wfSo : ScatterDims.WF ⟨2, ![N, B]⟩ ⟨2, ![R, 1]⟩ ⟨2, ![R, B]⟩ [1] [0] [0] 1)
    (wfGo : GatherDims.WF ⟨2, ![N, B]⟩ ⟨2, ![R, 1]⟩ ⟨2, ![R, B]⟩ [1] [0] [] [0] [] 1 ![1, B])
    (Zo : FVec Ideal ⟨2, ![N, B]⟩ .f32) (dst src : IVec ⟨2, ![R, 1]⟩ 32)
    (H : FVec Ideal ⟨2, ![N, K]⟩ .f32) (Wrel Wroot : FVec Ideal ⟨2, ![K, B]⟩ .f32) (b : FVec Ideal ⟨1, ![B]⟩ .f32) :
    FVec Ideal ⟨2, ![N, B]⟩ .f32 :=
  fun i => f ((segsum wfSo wfGo Zo dst src (prod H Wrel) i + prod H Wroot i) + b (ix1 (i 1)))

/-- Product last: rows are gathered and added into segments, then multiplied by the weights. -/
def convLast (f : EReal → EReal)
    (wfSi : ScatterDims.WF ⟨2, ![N, K]⟩ ⟨2, ![R, 1]⟩ ⟨2, ![R, K]⟩ [1] [0] [0] 1)
    (wfGi : GatherDims.WF ⟨2, ![N, K]⟩ ⟨2, ![R, 1]⟩ ⟨2, ![R, K]⟩ [1] [0] [] [0] [] 1 ![1, K])
    (Zi : FVec Ideal ⟨2, ![N, K]⟩ .f32) (dst src : IVec ⟨2, ![R, 1]⟩ 32)
    (H : FVec Ideal ⟨2, ![N, K]⟩ .f32) (Wrel Wroot : FVec Ideal ⟨2, ![K, B]⟩ .f32) (b : FVec Ideal ⟨1, ![B]⟩ .f32) :
    FVec Ideal ⟨2, ![N, B]⟩ .f32 :=
  fun i => f ((prod (segsum wfSi wfGi Zi dst src H) Wrel i + b (ix1 (i 1))) + prod H Wroot i)

theorem convFirst_eq_convLast (f : EReal → EReal) (hN : 0 < N)
    (wfSi : ScatterDims.WF ⟨2, ![N, K]⟩ ⟨2, ![R, 1]⟩ ⟨2, ![R, K]⟩ [1] [0] [0] 1)
    (wfGi : GatherDims.WF ⟨2, ![N, K]⟩ ⟨2, ![R, 1]⟩ ⟨2, ![R, K]⟩ [1] [0] [] [0] [] 1 ![1, K])
    (wfSo : ScatterDims.WF ⟨2, ![N, B]⟩ ⟨2, ![R, 1]⟩ ⟨2, ![R, B]⟩ [1] [0] [0] 1)
    (wfGo : GatherDims.WF ⟨2, ![N, B]⟩ ⟨2, ![R, 1]⟩ ⟨2, ![R, B]⟩ [1] [0] [] [0] [] 1 ![1, B])
    (Zi : FVec Ideal ⟨2, ![N, K]⟩ .f32) (hZi : ∀ i, Zi i = 0) (Zo : FVec Ideal ⟨2, ![N, B]⟩ .f32) (hZo : ∀ i, Zo i = 0)
    (dst src : IVec ⟨2, ![R, 1]⟩ 32) (H : FVec Ideal ⟨2, ![N, K]⟩ .f32) (Wrel Wroot : FVec Ideal ⟨2, ![K, B]⟩ .f32)
    (b : FVec Ideal ⟨1, ![B]⟩ .f32) (hH : IsReal H) (hW : IsReal Wrel) :
    convFirst f wfSo wfGo Zo dst src H Wrel Wroot b = convLast f wfSi wfGi Zi dst src H Wrel Wroot b := by
  funext i
  unfold convFirst convLast
  rw [segsum_prod hN wfSi wfGi wfSo wfGo Zi hZi Zo hZo dst src H Wrel hH hW, add_right_comm]

theorem isReal_convLast (f : EReal → EReal) (hf : ∀ r : ℝ, ∃ r' : ℝ, f (r : EReal) = (r' : EReal)) (hN : 0 < N)
    (wfSi : ScatterDims.WF ⟨2, ![N, K]⟩ ⟨2, ![R, 1]⟩ ⟨2, ![R, K]⟩ [1] [0] [0] 1)
    (wfGi : GatherDims.WF ⟨2, ![N, K]⟩ ⟨2, ![R, 1]⟩ ⟨2, ![R, K]⟩ [1] [0] [] [0] [] 1 ![1, K])
    (Zi : FVec Ideal ⟨2, ![N, K]⟩ .f32) (hZi : ∀ i, Zi i = 0)
    (dst src : IVec ⟨2, ![R, 1]⟩ 32) (H : FVec Ideal ⟨2, ![N, K]⟩ .f32) (Wrel Wroot : FVec Ideal ⟨2, ![K, B]⟩ .f32)
    (b : FVec Ideal ⟨1, ![B]⟩ .f32) (hH : IsReal H) (hW : IsReal Wrel) (hW' : IsReal Wroot) (hb : IsReal b) :
    IsReal (convLast f wfSi wfGi Zi dst src H Wrel Wroot b) := fun i => by
  obtain ⟨r1, h1⟩ := isReal_prod (isReal_segsum hN wfSi wfGi Zi hZi dst src hH) hW i
  obtain ⟨r2, h2⟩ := hb (ix1 (i 1))
  obtain ⟨r3, h3⟩ := isReal_prod hH hW' i
  obtain ⟨r', hr'⟩ := hf ((r1 + r2) + r3)
  refine ⟨r', ?_⟩
  show f ((prod (segsum wfSi wfGi Zi dst src H) Wrel i + b (ix1 (i 1))) + prod H Wroot i) = _
  rw [h1, h2, h3, ← EReal.coe_add, ← EReal.coe_add, hr']

/-- The maximum with zero maps reals to reals; so does the identity. -/
theorem relu_real (z : EReal) (hz : z = 0) (r : ℝ) : ∃ r' : ℝ, max (r : EReal) z = (r' : EReal) :=
  ⟨max r 0, by rw [hz, ← EReal.coe_zero]; exact (EReal.coe_strictMono.monotone.map_max).symm⟩

theorem id_real (r : ℝ) : ∃ r' : ℝ, (fun v : EReal => v) (r : EReal) = (r' : EReal) := ⟨r, rfl⟩

end Cert.Conv

end
-- ==== Proof.Spec.lean ====
/-
  The whole network on the extended reals, over the literal extents: 50000 nodes with 128 features, 600000 edges, three
  graph-convolution layers (128 → 128 → 64 → 64 features, the first two followed by the maximum with z), the sum of the
  last layer's rows into 512 graphs at the batch column, and the classifier head (64 → 64 → 32, a row-wise log-softmax).

  It is written twice: with each layer's product taken before the gather and segment sum, and after. The two agree when
  the node features, the three relation-weight matrices and the first two layers' root weights and biases have real
  entries and z is 0: each layer's two arrangements agree on real inputs and give real outputs.

  Also here, generic in the extents: the host's spelling of a layer with the product last, and the combination stage of a
  kernel (aggregate + root + bias row, an entrywise map last) at a segment sum of a product as the layer with the product
  first.
-/
import proofs.«154709_j85770496901295_2_alg».proof.Proof.GraphConv
import proofs.«154709_j85770496901295_2_alg».proof.Proof.Tail

noncomputable section

open scoped BigOperators

namespace Cert.Spec

open Idealize.ShloMosaic Idealize.ShloMosaic.ValueIdx Cert.LibSegSum Cert.Layer Cert.Conv Cert.Tail

/-! ## One layer, as the host and as a kernel spell it -/

section Spell
variable {N R K B : Nat}

/-- The host's layer with the product last, followed by the maximum with a broadcast scalar. -/
theorem host_convLast_max
    (d1 : DotDims ⟨2, ![N, K]⟩ ⟨2, ![K, B]⟩ ⟨2, ![N, B]⟩)
    (h11 : d1.lhsContracting = [1]) (h12 : d1.rhsContracting = [0]) (h13 : d1.lhsNonContracting = [0])
    (h14 : d1.rhsNonContracting = [1]) (h15 : d1.lhsBatch = []) (h16 : d1.rhsBatch = [])
    (wfS : ScatterDims.WF ⟨2, ![N, K]⟩ ⟨2, ![R, 1]⟩ ⟨2, ![R, K]⟩ [1] [0] [0] 1)
    (wfG : GatherDims.WF ⟨2, ![N, K]⟩ ⟨2, ![R, 1]⟩ ⟨2, ![R, K]⟩ [1] [0] [] [0] [] 1 ![1, K])
    (Z : FVec Ideal ⟨2, ![N, K]⟩ .f32) (dst src : IVec ⟨2, ![R, 1]⟩ 32) (H : FVec Ideal ⟨2, ![N, K]⟩ .f32)
    (Wrel Wroot : FVec Ideal ⟨2, ![K, B]⟩ .f32) (b : FVec Ideal ⟨1, ![B]⟩ .f32)
    (hb1 : (⟨1, ![B]⟩ : Shape).BroadcastsInDim ⟨2, ![1, B]⟩ ![1])
    (hb2 : (⟨2, ![1, B]⟩ : Shape).BroadcastsInDim ⟨2, ![N, B]⟩ ![0, 1])
    (z : FVec Ideal ⟨0, ![]⟩ .f32) (h0 : (⟨0, ![]⟩ : Shape).BroadcastsInDim ⟨2, ![N, B]⟩ ![]) :
    maximumf (addf (addf (Host.dotGeneral d1 none (segsum wfS wfG Z dst src H) Wrel)
        (broadcastInDim ⟨2, ![N, B]⟩ ![0, 1] hb2 (broadcastInDim ⟨2, ![1, B]⟩ ![1] hb1 b)))
        (Host.dotGeneral d1 none H Wroot)) (broadcastInDim ⟨2, ![N, B]⟩ ![] h0 z)
      = convLast (fun v => max v (z ix0)) wfS wfG Z dst src H Wrel Wroot b := by
  rw [dotGeneral_eq_prod d1 h11 h12 h13 h14 h15 h16, dotGeneral_eq_prod d1 h11 h12 h13 h14 h15 h16, hostAddRow_eq]
  funext i
  show max ((prod (segsum wfS wfG Z dst src H) Wrel i + b (ix1 (i 1))) + prod H Wroot i)
    (broadcastInDim ⟨2, ![N, B]⟩ ![] h0 z i) = _
  rw [broadcastInDim_apply ![] h0 z i ix0 fun d => d.elim0]
  rfl

/-- The host's layer with the product last, with no map after it. -/
theorem host_convLast_id
    (d1 : DotDims ⟨2, ![N, K]⟩ ⟨2, ![K, B]⟩ ⟨2, ![N, B]⟩)
    (h11 : d1.lhsContracting = [1]) (h12 : d1.rhsContracting = [0]) (h13 : d1.lhsNonContracting = [0])
    (h14 : d1.rhsNonContracting = [1]) (h15 : d1.lhsBatch = []) (h16 : d1.rhsBatch = [])
    (wfS : ScatterDims.WF ⟨2, ![N, K]⟩ ⟨2, ![R, 1]⟩ ⟨2, ![R, K]⟩ [1] [0] [0] 1)
    (wfG : GatherDims.WF ⟨2, ![N, K]⟩ ⟨2, ![R, 1]⟩ ⟨2, ![R, K]⟩ [1] [0] [] [0] [] 1 ![1, K])
    (Z : FVec Ideal ⟨2, ![N, K]⟩ .f32) (dst src : IVec ⟨2, ![R, 1]⟩ 32) (H : FVec Ideal ⟨2, ![N, K]⟩ .f32)
    (Wrel Wroot : FVec Ideal ⟨2, ![K, B]⟩ .f32) (b : FVec Ideal ⟨1, ![B]⟩ .f32)
    (hb1 : (⟨1, ![B]⟩ : Shape).BroadcastsInDim ⟨2, ![1, B]⟩ ![1])
    (hb2 : (⟨2, ![1, B]⟩ : Shape).BroadcastsInDim ⟨2, ![N, B]⟩ ![0, 1]) :
    addf (addf (Host.dotGeneral d1 none (segsum wfS wfG Z dst src H) Wrel)
        (broadcastInDim ⟨2, ![N, B]⟩ ![0, 1] hb2 (broadcastInDim ⟨2, ![1, B]⟩ ![1] hb1 b)))
        (Host.dotGeneral d1 none H Wroot)
      = convLast (fun v => v) wfS wfG Z dst src H Wrel Wroot b := by
  rw [dotGeneral_eq_prod d1 h11 h12 h13 h14 h15 h16, dotGeneral_eq_prod d1 h11 h12 h13 h14 h15 h16, hostAddRow_eq]
  rfl

/-- A kernel's combination stage at the segment sum of a product, the root product and the bias cast to one row is the
    layer with the product first. -/
theorem comb_convFirst (f : EReal → EReal)
    (wfS : ScatterDims.WF ⟨2, ![N, B]⟩ ⟨2, ![R, 1]⟩ ⟨2, ![R, B]⟩ [1] [0] [0] 1)
    (wfG : GatherDims.WF ⟨2, ![N, B]⟩ ⟨2, ![R, 1]⟩ ⟨2, ![R, B]⟩ [1] [0] [] [0] [] 1 ![1, B])
    (Z : FVec Ideal ⟨2, ![N, B]⟩ .f32) (dst src : IVec ⟨2, ![R, 1]⟩ 32) (H : FVec Ideal ⟨2, ![N, K]⟩ .f32)
    (Wrel Wroot : FVec Ideal ⟨2, ![K, B]⟩ .f32) (b : FVec Ideal ⟨1, ![B]⟩ .f32)
    (hc : (⟨1, ![B]⟩ : Shape).ShapeCasts ⟨2, ![1, B]⟩) :
    (fun i : (⟨2, ![N, B]⟩ : Shape).Idx => f ((segsum wfS wfG Z dst src (prod H Wrel) i + prod H Wroot i)
        + shapeCast ⟨2, ![1, B]⟩ b hc (ix2 (0 : Fin 1) (i 1))))
      = convFirst f wfS wfG Z dst src H Wrel Wroot b := by
  funext i
  obtain ⟨n, q, rfl⟩ : ∃ (n : Fin N) (q : Fin B), i = ix2 n q := ⟨i 0, i 1, eq_ix2 i⟩
  show f (_ + shapeCast ⟨2, ![1, B]⟩ b hc (ix2 (0 : Fin 1) q)) = f (_ + b (ix1 q))
  rw [shapeCast_a_1a_apply]

/-- A broadcast of the zero word is zero everywhere. -/
theorem zeros_apply {S : Shape} (h : (⟨0, ![]⟩ : Shape).BroadcastsInDim S ![]) (i : S.Idx) :
    broadcastInDim S ![] h (constant (F := Ideal) ⟨0, ![]⟩ .f32 0x00000000#32) i = (0 : EReal) := by
  rw [broadcastInDim_apply ![] h _ i ix0 fun d => d.elim0]
  exact Ideal.ofBits_zero_f32

end Spell

/-! ## The network -/

section Net
variable (wfS128 : ScatterDims.WF ⟨2, ![50000, 128]⟩ ⟨2, ![600000, 1]⟩ ⟨2, ![600000, 128]⟩ [1] [0] [0] 1) (wfG128 : GatherDims.WF ⟨2, ![50000, 128]⟩ ⟨2, ![600000, 1]⟩ ⟨2, ![600000, 128]⟩ [1] [0] [] [0] [] 1 ![1, 128]) (wfS64 : ScatterDims.WF ⟨2, ![50000, 64]⟩ ⟨2, ![600000, 1]⟩ ⟨2, ![600000, 64]⟩ [1] [0] [0] 1) (wfG64 : GatherDims.WF ⟨2, ![50000, 64]⟩ ⟨2, ![600000, 1]⟩ ⟨2, ![600000, 64]⟩ [1] [0] [] [0] [] 1 ![1, 64])
  (wfP : ScatterDims.WF ⟨2, ![512, 64]⟩ ⟨2, ![50000, 1]⟩ ⟨2, ![50000, 64]⟩ [1] [0] [0] 1)
  (Z128 : FVec Ideal ⟨2, ![50000, 128]⟩ .f32) (Z64 : FVec Ideal ⟨2, ![50000, 64]⟩ .f32) (ZP : FVec Ideal ⟨2, ![512, 64]⟩ .f32)
  (dc sc : IVec ⟨2, ![600000, 1]⟩ 32) (bc : IVec ⟨2, ![50000, 1]⟩ 32)
  (x : FVec Ideal ⟨2, ![50000, 128]⟩ .f32)
  (W1r W1o : FVec Ideal ⟨2, ![128, 128]⟩ .f32) (b1 : FVec Ideal ⟨1, ![128]⟩ .f32)
  (W2r W2o : FVec Ideal ⟨2, ![128, 64]⟩ .f32) (b2 : FVec Ideal ⟨1, ![64]⟩ .f32)
  (W3r W3o : FVec Ideal ⟨2, ![64, 64]⟩ .f32) (b3 : FVec Ideal ⟨1, ![64]⟩ .f32)
  (F1 : FVec Ideal ⟨2, ![64, 64]⟩ .f32) (c1 : FVec Ideal ⟨1, ![64]⟩ .f32)
  (F2 : FVec Ideal ⟨2, ![64, 32]⟩ .f32) (c2 : FVec Ideal ⟨1, ![32]⟩ .f32) (z : EReal)

/-- The pooling and the classifier head, from the last layer's node features. -/
def headOf (h3 : FVec Ideal ⟨2, ![50000, 64]⟩ .f32) : (⟨2, ![512, 32]⟩ : Shape).Idx → EReal :=
  logSoftmax (addRow (prod (act (prod (Host.scatterAdd (addRowsDims 512 50000 64 wfP) ZP bc h3) F1) c1 z) F2) c2)

/-- The network with each layer's product taken first. -/
def first : (⟨2, ![512, 32]⟩ : Shape).Idx → EReal :=
  headOf wfP ZP bc F1 c1 F2 c2 z
    (convFirst (fun v => v) wfS64 wfG64 Z64 dc sc
      (convFirst (fun v => max v z) wfS64 wfG64 Z64 dc sc
        (convFirst (fun v => max v z) wfS128 wfG128 Z128 dc sc x W1r W1o b1) W2r W2o b2) W3r W3o b3)

/-- The network with each layer's product taken last. -/
def last : (⟨2, ![512, 32]⟩ : Shape).Idx → EReal :=
  headOf wfP ZP bc F1 c1 F2 c2 z
    (convLast (fun v => v) wfS64 wfG64 Z64 dc sc
      (convLast (fun v => max v z) wfS128 wfG128 Z128 dc sc
        (convLast (fun v => max v z) wfS128 wfG128 Z128 dc sc x W1r W1o b1) W2r W2o b2) W3r W3o b3)

theorem first_eq_last (hz : z = 0) (hZ128 : ∀ i, Z128 i = 0) (hZ64 : ∀ i, Z64 i = 0)
    (hx : IsReal x) (hW1r : IsReal W1r) (hW1o : IsReal W1o) (hb1 : IsReal b1)
    (hW2r : IsReal W2r) (hW2o : IsReal W2o) (hb2 : IsReal b2) (hW3r : IsReal W3r) :
    first wfS128 wfG128 wfS64 wfG64 wfP Z128 Z64 ZP dc sc bc x W1r W1o b1 W2r W2o b2 W3r W3o b3 F1 c1 F2 c2 z
      = last wfS128 wfG128 wfS64 wfG64 wfP Z128 Z64 ZP dc sc bc x W1r W1o b1 W2r W2o b2 W3r W3o b3 F1 c1 F2 c2 z := by
  have hN : 0 < 50000 := by decide
  unfold first last
  have e1 := convFirst_eq_convLast (fun v => max v z) hN wfS128 wfG128 wfS128 wfG128 Z128 hZ128 Z128 hZ128 dc sc x W1r W1o b1
    hx hW1r
  have r1 := isReal_convLast (fun v => max v z) (relu_real z hz) hN wfS128 wfG128 Z128 hZ128 dc sc x W1r W1o b1 hx hW1r hW1o hb1
  rw [e1]
  have e2 := convFirst_eq_convLast (fun v => max v z) hN wfS128 wfG128 wfS64 wfG64 Z128 hZ128 Z64 hZ64 dc sc _ W2r W2o b2
    r1 hW2r
  have r2 := isReal_convLast (fun v => max v z) (relu_real z hz) hN wfS128 wfG128 Z128 hZ128 dc sc _ W2r W2o b2 r1 hW2r hW2o hb2
  rw [e2]
  have e3 := convFirst_eq_convLast (fun v => v) hN wfS64 wfG64 wfS64 wfG64 Z64 hZ64 Z64 hZ64 dc sc _ W3r W3o b3 r2 hW3r
  rw [e3]

end Net

end Cert.Spec

end
-- ==== Proof.KernelSpec.lean ====
/-
  The kernel's result is the specification with each layer's product taken first: a layer as the kernel computes it — the
  combination stage at the segment sum of the relation product, the root product and the bias cast to one row — is the
  layer with the product first; the pooled features and the head are the specification's.
-/
import proofs.«154709_j85770496901295_2_alg».proof.Proof.KernelValue
import proofs.«154709_j85770496901295_2_alg».proof.Proof.Spec

set_option maxRecDepth 16384

noncomputable section

open scoped BigOperators

namespace Cert.KernelIdeal.Hand

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

theorem layer1_eq : layer1 m c = (Cert.Conv.convFirst (fun v => max v (Scalar.ofBits (F := Ideal) .f32 0x00000000#32)) scatter_S50000x128_S600000x1_S600000x128_1_0_0_1.wf gather_S50000x128_S600000x1_S600000x128_1_0_n_n_0_1_1128.wf (broadcastInDim S50000x128 ![] bcast_S_S50000x128 (constant (F := Ideal) S_ .f32 0x00000000#32)) (dstCol m c) (srcCol m c)
      ((m ((c : Thread nD τ).loc main_arg0)) : S50000x128.Idx → EReal) (transpose S128x128 [1, 0] (m ((c : Thread nD τ).loc main_arg3)) transposes_S128x128_S128x128_1_0) (transpose S128x128 [1, 0] (m ((c : Thread nD τ).loc main_arg5)) transposes_S128x128_S128x128_1_0) (m ((c : Thread nD τ).loc main_arg4))) :=
  Cert.Spec.comb_convFirst (fun v => max v (Scalar.ofBits (F := Ideal) .f32 0x00000000#32)) scatter_S50000x128_S600000x1_S600000x128_1_0_0_1.wf gather_S50000x128_S600000x1_S600000x128_1_0_n_n_0_1_1128.wf _ _ _ _ _ _ _ shapeCasts_S128_S1x128

theorem layer2_eq : layer2 m c = (Cert.Conv.convFirst (fun v => max v (Scalar.ofBits (F := Ideal) .f32 0x00000000#32)) scatter_S50000x64_S600000x1_S600000x64_1_0_0_1.wf gather_S50000x64_S600000x1_S600000x64_1_0_n_n_0_1_164.wf (broadcastInDim S50000x64 ![] bcast_S_S50000x64 (constant (F := Ideal) S_ .f32 0x00000000#32)) (dstCol m c) (srcCol m c)
      (Cert.Conv.convFirst (fun v => max v (Scalar.ofBits (F := Ideal) .f32 0x00000000#32)) scatter_S50000x128_S600000x1_S600000x128_1_0_0_1.wf gather_S50000x128_S600000x1_S600000x128_1_0_n_n_0_1_1128.wf (broadcastInDim S50000x128 ![] bcast_S_S50000x128 (constant (F := Ideal) S_ .f32 0x00000000#32)) (dstCol m c) (srcCol m c)
      ((m ((c : Thread nD τ).loc main_arg0)) : S50000x128.Idx → EReal) (transpose S128x128 [1, 0] (m ((c : Thread nD τ).loc main_arg3)) transposes_S128x128_S128x128_1_0) (transpose S128x128 [1, 0] (m ((c : Thread nD τ).loc main_arg5)) transposes_S128x128_S128x128_1_0) (m ((c : Thread nD τ).loc main_arg4))) (transpose S128x64 [1, 0] (m ((c : Thread nD τ).loc main_arg6)) transposes_S64x128_S128x64_1_0) (transpose S128x64 [1, 0] (m ((c : Thread nD τ).loc main_arg8)) transposes_S64x128_S128x64_1_0) (m ((c : Thread nD τ).loc main_arg7))) := by
  unfold layer2
  rw [layer1_eq m c]
  exact Cert.Spec.comb_convFirst (fun v => max v (Scalar.ofBits (F := Ideal) .f32 0x00000000#32)) scatter_S50000x64_S600000x1_S600000x64_1_0_0_1.wf gather_S50000x64_S600000x1_S600000x64_1_0_n_n_0_1_164.wf _ _ _ _ _ _ _ shapeCasts_S64_S1x64

theorem layer3_eq : layer3 m c = (Cert.Conv.convFirst (fun v => v) scatter_S50000x64_S600000x1_S600000x64_1_0_0_1.wf gather_S50000x64_S600000x1_S600000x64_1_0_n_n_0_1_164.wf (broadcastInDim S50000x64 ![] bcast_S_S50000x64 (constant (F := Ideal) S_ .f32 0x00000000#32)) (dstCol m c) (srcCol m c)
      (Cert.Conv.convFirst (fun v => max v (Scalar.ofBits (F := Ideal) .f32 0x00000000#32)) scatter_S50000x64_S600000x1_S600000x64_1_0_0_1.wf gather_S50000x64_S600000x1_S600000x64_1_0_n_n_0_1_164.wf (broadcastInDim S50000x64 ![] bcast_S_S50000x64 (constant (F := Ideal) S_ .f32 0x00000000#32)) (dstCol m c) (srcCol m c)
      (Cert.Conv.convFirst (fun v => max v (Scalar.ofBits (F := Ideal) .f32 0x00000000#32)) scatter_S50000x128_S600000x1_S600000x128_1_0_0_1.wf gather_S50000x128_S600000x1_S600000x128_1_0_n_n_0_1_1128.wf (broadcastInDim S50000x128 ![] bcast_S_S50000x128 (constant (F := Ideal) S_ .f32 0x00000000#32)) (dstCol m c) (srcCol m c)
      ((m ((c : Thread nD τ).loc main_arg0)) : S50000x128.Idx → EReal) (transpose S128x128 [1, 0] (m ((c : Thread nD τ).loc main_arg3)) transposes_S128x128_S128x128_1_0) (transpose S128x128 [1, 0] (m ((c : Thread nD τ).loc main_arg5)) transposes_S128x128_S128x128_1_0) (m ((c : Thread nD τ).loc main_arg4))) (transpose S128x64 [1, 0] (m ((c : Thread nD τ).loc main_arg6)) transposes_S64x128_S128x64_1_0) (transpose S128x64 [1, 0] (m ((c : Thread nD τ).loc main_arg8)) transposes_S64x128_S128x64_1_0) (m ((c : Thread nD τ).loc main_arg7))) (transpose S64x64 [1, 0] (m ((c : Thread nD τ).loc main_arg9)) transposes_S64x64_S64x64_1_0) (transpose S64x64 [1, 0] (m ((c : Thread nD τ).loc main_arg11)) transposes_S64x64_S64x64_1_0) (m ((c : Thread nD τ).loc main_arg10))) := by
  unfold layer3
  rw [layer2_eq m c]
  exact Cert.Spec.comb_convFirst (fun v => v) scatter_S50000x64_S600000x1_S600000x64_1_0_0_1.wf gather_S50000x64_S600000x1_S600000x64_1_0_n_n_0_1_164.wf _ _ _ _ _ _ _ shapeCasts_S64_S1x64

/-- The kernel's result is the specification with the products first. -/
theorem result_eq_first :
    result m c = Cert.Spec.first scatter_S50000x128_S600000x1_S600000x128_1_0_0_1.wf gather_S50000x128_S600000x1_S600000x128_1_0_n_n_0_1_1128.wf scatter_S50000x64_S600000x1_S600000x64_1_0_0_1.wf gather_S50000x64_S600000x1_S600000x64_1_0_n_n_0_1_164.wf scatter_S512x64_S50000x1_S50000x64_1_0_0_1.wf (broadcastInDim S50000x128 ![] bcast_S_S50000x128 (constant (F := Ideal) S_ .f32 0x00000000#32)) (broadcastInDim S50000x64 ![] bcast_S_S50000x64 (constant (F := Ideal) S_ .f32 0x00000000#32)) (broadcastInDim S512x64 ![] bcast_S_S512x64 (constant (F := Ideal) S_ .f32 0x00000000#32))
      (dstCol m c) (srcCol m c) (broadcastInDim S50000x1 ![0] bcast_S50000_S50000x1_0 (m ((c : Thread nD τ).loc main_arg2)))
      ((m ((c : Thread nD τ).loc main_arg0)) : S50000x128.Idx → EReal) (transpose S128x128 [1, 0] (m ((c : Thread nD τ).loc main_arg3)) transposes_S128x128_S128x128_1_0) (transpose S128x128 [1, 0] (m ((c : Thread nD τ).loc main_arg5)) transposes_S128x128_S128x128_1_0) (m ((c : Thread nD τ).loc main_arg4)) (transpose S128x64 [1, 0] (m ((c : Thread nD τ).loc main_arg6)) transposes_S64x128_S128x64_1_0) (transpose S128x64 [1, 0] (m ((c : Thread nD τ).loc main_arg8)) transposes_S64x128_S128x64_1_0) (m ((c : Thread nD τ).loc main_arg7)) (transpose S64x64 [1, 0] (m ((c : Thread nD τ).loc main_arg9)) transposes_S64x64_S64x64_1_0) (transpose S64x64 [1, 0] (m ((c : Thread nD τ).loc main_arg11)) transposes_S64x64_S64x64_1_0) (m ((c : Thread nD τ).loc main_arg10))
      (transpose S64x64 [1, 0] (m ((c : Thread nD τ).loc main_arg12)) transposes_S64x64_S64x64_1_0) (m ((c : Thread nD τ).loc main_arg13)) (transpose S64x32 [1, 0] (m ((c : Thread nD τ).loc main_arg14)) transposes_S32x64_S64x32_1_0) (m ((c : Thread nD τ).loc main_arg15)) (Scalar.ofBits (F := Ideal) .f32 0x00000000#32) := by
  unfold result pooled
  rw [layer3_eq m c]
  rfl

/-- A transposed array of real entries has real entries. -/
theorem isReal_transpose {s t : Shape} (perm : List (Fin s.rank)) (x : s.Idx → EReal) (h : s.Transposes perm t)
    (hx : Cert.Conv.IsReal x) : Cert.Conv.IsReal (transpose t perm x h) := fun j => by
  unfold transpose
  exact hx _

end Cert.KernelIdeal.Hand

end
-- ==== Proof.RefValue.lean ====
/-
  The idealized reference's result as the specification with each layer's product taken last: the generated stages of the
  reference (one per host operation, each a whole-array function of the stages before it) are unfolded one layer at a
  time. A layer is: the rows of the features gathered at the wrapped source column, added into segments at the target
  column, multiplied by the transposed relation weights, plus the bias on every row, plus the features times the
  transposed root weights, and for the first two layers the maximum with zero. The source and target columns are
  recomputed by the program for each layer; they are the same terms each time.
-/
import proofs.«154709_j85770496901295_2_alg».proof.Proof.ReferenceReadP
import proofs.«154709_j85770496901295_2_alg».proof.Proof.Spec

set_option maxRecDepth 16384

noncomputable section

namespace Cert.ReferenceIdeal.Hand

open Cert.ReferenceIdeal Cert.ReferenceIdeal.Gen Cert.ReferenceIdeal.ReadP
open Idealize.ShloMosaic Idealize.ShloMosaic.TcCoe Idealize.SL.Sem

variable (x0 : (⟨S50000x128, .f32⟩ : BufTy).Contents (Elt Ideal)) (x1 : (⟨S2x600000, .i32⟩ : BufTy).Contents (Elt Ideal)) (x2 : (⟨S50000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S64x128, .f32⟩ : BufTy).Contents (Elt Ideal)) (x7 : (⟨S64, .f32⟩ : BufTy).Contents (Elt Ideal)) (x8 : (⟨S64x128, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64x64, .f32⟩ : BufTy).Contents (Elt Ideal)) (x13 : (⟨S64, .f32⟩ : BufTy).Contents (Elt Ideal)) (x14 : (⟨S32x64, .f32⟩ : BufTy).Contents (Elt Ideal)) (x15 : (⟨S32, .f32⟩ : BufTy).Contents (Elt Ideal))

theorem ref_layer1 :
    val_main_v22 (F := Ideal) x0 x1 x3 x4 x5 = (Cert.Conv.convLast (fun v => max v ((constant (F := Ideal) S_ .f32 0x00000000#32) ValueIdx.ix0)) scatter_S50000x128_S600000x1_S600000x128_1_0_0_1.wf gather_S50000x128_S600000x1_S600000x128_1_0_n_n_0_1_1128.wf (val_main_v11 (F := Ideal)) (val_main_v12 x1) (val_main_v9 x1) x0 (val_main_v14 x3) (val_main_v19 x5) x4) := by
  unfold val_main_v22 val_main_v21 val_main_v18 val_main_v15 val_main_v13 val_main_v10 val_main_v17 val_main_v16 val_main_v20
    val_main_call0_v0 val_main_call0_cst
  exact Cert.Spec.host_convLast_max dot_S50000x128_S128x128_S50000x128_1_0_0_1_n_n rfl rfl rfl rfl rfl rfl
    scatter_S50000x128_S600000x1_S600000x128_1_0_0_1.wf gather_S50000x128_S600000x1_S600000x128_1_0_n_n_0_1_1128.wf _ _ _ _ _ _ _ _ _ _ _

theorem ref_layer2 :
    val_main_v41 (F := Ideal) x0 x1 x3 x4 x5 x6 x7 x8
      = Cert.Conv.convLast (fun v => max v ((constant (F := Ideal) S_ .f32 0x00000000#32) ValueIdx.ix0)) scatter_S50000x128_S600000x1_S600000x128_1_0_0_1.wf gather_S50000x128_S600000x1_S600000x128_1_0_n_n_0_1_1128.wf (val_main_v11 (F := Ideal)) (val_main_v12 x1) (val_main_v9 x1)
          (val_main_v22 (F := Ideal) x0 x1 x3 x4 x5) (val_main_v33 x6) (val_main_v38 x8) x7 := by
  unfold val_main_v41 val_main_v40 val_main_v37 val_main_v34 val_main_v32 val_main_v29 val_main_v36 val_main_v35 val_main_v39
    val_main_call1_v0 val_main_call1_cst
  exact Cert.Spec.host_convLast_max dot_S50000x128_S128x64_S50000x64_1_0_0_1_n_n rfl rfl rfl rfl rfl rfl
    scatter_S50000x128_S600000x1_S600000x128_1_0_0_1.wf gather_S50000x128_S600000x1_S600000x128_1_0_n_n_0_1_1128.wf _ _ _ _ _ _ _ _ _ _ _

theorem ref_layer3 :
    val_main_v59 (F := Ideal) x0 x1 x3 x4 x5 x6 x7 x8 x9 x10 x11
      = Cert.Conv.convLast (fun v => v) scatter_S50000x64_S600000x1_S600000x64_1_0_0_1.wf gather_S50000x64_S600000x1_S600000x64_1_0_n_n_0_1_164.wf (val_main_v49 (F := Ideal)) (val_main_v12 x1) (val_main_v9 x1)
          (val_main_v41 (F := Ideal) x0 x1 x3 x4 x5 x6 x7 x8) (val_main_v52 x9) (val_main_v57 x11) x10 := by
  unfold val_main_v59 val_main_v56 val_main_v53 val_main_v51 val_main_v48 val_main_v55 val_main_v54 val_main_v58
  exact Cert.Spec.host_convLast_id dot_S50000x64_S64x64_S50000x64_1_0_0_1_n_n rfl rfl rfl rfl rfl rfl
    scatter_S50000x64_S600000x1_S600000x64_1_0_0_1.wf gather_S50000x64_S600000x1_S600000x64_1_0_n_n_0_1_164.wf _ _ _ _ _ _ _ _ _

/-- The reference's result is the specification with the products last. -/
theorem ref_value :
    val_main_v74 (F := Ideal) x0 x1 x2 x3 x4 x5 x6 x7 x8 x9 x10 x11 x12 x13 x14 x15
      = Cert.Spec.last scatter_S50000x128_S600000x1_S600000x128_1_0_0_1.wf gather_S50000x128_S600000x1_S600000x128_1_0_n_n_0_1_1128.wf scatter_S50000x64_S600000x1_S600000x64_1_0_0_1.wf gather_S50000x64_S600000x1_S600000x64_1_0_n_n_0_1_164.wf scatter_S512x64_S50000x1_S50000x64_1_0_0_1.wf
          (val_main_v11 (F := Ideal)) (val_main_v49 (F := Ideal)) (val_main_v60 (F := Ideal))
          (val_main_v12 x1) (val_main_v9 x1) (val_main_v61 x2) x0 (val_main_v14 x3) (val_main_v19 x5) x4
          (val_main_v33 x6) (val_main_v38 x8) x7 (val_main_v52 x9) (val_main_v57 x11) x10
          (val_main_v63 x12) x13 (val_main_v69 x14) x15 ((constant (F := Ideal) S_ .f32 0x00000000#32) ValueIdx.ix0) := by
  unfold val_main_v74 val_main_call3_v10 val_main_call3_v9 val_main_call3_v8 val_main_call3_v7 val_main_call3_v6 val_main_call3_v5
    val_main_call3_v4 val_main_call3_v3 val_main_call3_v2 val_main_call3_v1 val_main_call3_v0 val_main_call3_cst val_main_call3_cst_0
    val_main_call3_cst_1 val_main_v73 val_main_v72 val_main_v71 val_main_v70 val_main_v68 val_main_call2_v0 val_main_call2_cst
    val_main_v67 val_main_v66 val_main_v65 val_main_v64 val_main_v62
  rw [ref_layer3, ref_layer2, ref_layer1]
  unfold Cert.Spec.last Cert.Spec.headOf
  rw [Cert.Layer.dotGeneral_eq_prod dot_S512x64_S64x64_S512x64_1_0_0_1_n_n rfl rfl rfl rfl rfl rfl,
    Cert.Layer.hostAct_eq,
    Cert.Layer.dotGeneral_eq_prod dot_S512x64_S64x32_S512x32_1_0_0_1_n_n rfl rfl rfl rfl rfl rfl,
    Cert.Layer.hostAddRow_eq]
  exact Cert.Tail.host_logSoftmax _ reducesTo_S512x32_S512_d1 h_S_ bcast_S_S512 bcast_S512_S512x1_0 bcast_S512x1_S512x32_0_1
    (by decide)

end Cert.ReferenceIdeal.Hand

end
-- ==== Proof.LibFinite.lean ====
/-
  A finiteness test read back. The predicate  all(|x| < +inf)  of a float array x prints as a reduction by "and", from the
  constant 1, of the entrywise comparison of |x| with the broadcast scalar whose word is the +inf pattern. On the extended
  reals |x| is max(x, -x) and that word is ⊤; so if the reduction, taken over all axes, is 1, every entry of x is a real
  number: an entry ⊤ or ⊥ would have |x| = ⊤, which is not below ⊤. Generic in the shape.
-/
import Idealize.ShloMosaic.PureOps.Ideal
import Idealize.ShloMosaic.PureOps.Ideal.Laws
import Idealize.ShloMosaic.Lib.ReduceAll
import Idealize.ShloMosaic.Lib.ValueIdx
import Idealize.ShloMosaic.Lib.Pipeline.Value

noncomputable section

namespace Cert.LibFinite

open Idealize.ShloMosaic Idealize.ShloMosaic.ValueIdx

instance : Subsingleton (⟨0, ![]⟩ : Shape).Idx := ⟨fun a b => funext fun d => d.elim0⟩

/-- The +inf pattern denotes ⊤. -/
theorem inf_word : Ideal.ofBits .f32 0x7F800000#32 = (⊤ : EReal) := by
  simp [Ideal.ofBits, Ideal.ieee]

/-- An extended real whose absolute value is below ⊤ is a real number. -/
theorem real_of_abs_lt_top (v : EReal) (h : max v (-v) < ⊤) : ∃ r : ℝ, v = (r : EReal) := by
  induction v using EReal.rec with
  | bot => exact absurd h (by simp)
  | coe r => exact ⟨r, rfl⟩
  | top => exact absurd h (by simp)

/-- all(|x| < +inf) = 1 gives: every entry of x is real. -/
theorem real_of_all {S : Shape} {axes : List (Fin S.rank)} (x : FVec Ideal S .f32)
    (bc : (⟨0, ![]⟩ : Shape).BroadcastsInDim S ![]) (h : S.ReducesTo axes ⟨0, ![]⟩) (hu : 0 < (⟨0, ![]⟩ : Shape).numel)
    (j : (⟨0, ![]⟩ : Shape).Idx)
    (e : Host.reduce IntOp.andi
        (cmpf .olt (Host.absf x) (broadcastInDim S ![] bc (constant ⟨0, ![]⟩ .f32 0x7F800000#32)))
        (constantI ⟨0, ![]⟩ 1 1#1) h hu j = 1#1) :
    ∀ i, ∃ r : ℝ, x i = (r : EReal) := fun i => by
  have hi := Host.reduce_andi_all _ _ h hu j e i
  have hb : broadcastInDim S ![] bc (constant (F := Ideal) ⟨0, ![]⟩ .f32 0x7F800000#32) i = (⊤ : EReal) := by
    rw [broadcastInDim_apply ![] bc _ i ix0 fun d => d.elim0]
    exact inf_word
  have hc : Ideal.cmp .olt (max (x i) (-(x i))) (broadcastInDim S ![] bc (constant (F := Ideal) ⟨0, ![]⟩ .f32 0x7F800000#32) i) = 1#1 := hi
  rw [hb] at hc
  refine real_of_abs_lt_top (x i) ?_
  by_contra hlt
  have : Ideal.cmp .olt (max (x i) (-(x i))) ⊤ = 0#1 := by
    show BitVec.ofBool (decide (max (x i) (-(x i)) < ⊤)) = 0#1
    rw [decide_eq_false hlt]; rfl
  rw [this] at hc
  exact absurd hc (by decide)

end Cert.LibFinite

end
-- ==== Proof.Finite.lean ====
/-
  The precondition read back: it is the conjunction, over the fourteen float arguments, of all(|x| < +inf); from it every
  entry of the node features, of the three layers' relation weights, and of the first two layers' root weights and biases is
  a real number (these are the arrays whose realness the layers' algebra uses).
-/
import proofs.«154709_j85770496901295_2_alg».proof.Defs
import proofs.«154709_j85770496901295_2_alg».proof.Proof.LibFinite

noncomputable section

namespace Cert.Finite

open Idealize.ShloMosaic Cert.Pre_finite_inputs

variable [hP : Cert.Pre_finite_inputs.Facts]

theorem real_args (x0 : FVec Ideal S50000x128 .f32) (x1 : IVec S2x600000 32) (x2 : IVec S50000 32) (x3 : FVec Ideal S128x128 .f32) (x4 : FVec Ideal S128 .f32) (x5 : FVec Ideal S128x128 .f32) (x6 : FVec Ideal S64x128 .f32) (x7 : FVec Ideal S64 .f32) (x8 : FVec Ideal S64x128 .f32) (x9 : FVec Ideal S64x64 .f32) (x10 : FVec Ideal S64 .f32) (x11 : FVec Ideal S64x64 .f32) (x12 : FVec Ideal S64x64 .f32) (x13 : FVec Ideal S64 .f32) (x14 : FVec Ideal S32x64 .f32) (x15 : FVec Ideal S32 .f32)
    (h : Cert.Pre_finite_inputs.fn (F := Ideal) x0 x1 x2 x3 x4 x5 x6 x7 x8 x9 x10 x11 x12 x13 x14 x15 = fun _ => 1#1) :
    (∀ i, ∃ r : ℝ, x0 i = (r : EReal))
    ∧ (∀ i, ∃ r : ℝ, x3 i = (r : EReal))
    ∧ (∀ i, ∃ r : ℝ, x4 i = (r : EReal))
    ∧ (∀ i, ∃ r : ℝ, x5 i = (r : EReal))
    ∧ (∀ i, ∃ r : ℝ, x6 i = (r : EReal))
    ∧ (∀ i, ∃ r : ℝ, x7 i = (r : EReal))
    ∧ (∀ i, ∃ r : ℝ, x8 i = (r : EReal))
    ∧ (∀ i, ∃ r : ℝ, x9 i = (r : EReal)) := by
  have h0 := congrFun h ValueIdx.ix0
  dsimp only [Cert.Pre_finite_inputs.fn, fn_part1, fn_part2, fn_part3, fn_part4] at h0
  simp only [Idealize.ShloMosaic.andi, IntOp.andi_eq_one] at h0
  obtain ⟨⟨⟨⟨⟨⟨⟨⟨⟨⟨⟨⟨⟨a0, a3⟩, a4⟩, a5⟩, a6⟩, a7⟩, a8⟩, a9⟩, a10⟩, a11⟩, a12⟩, a13⟩, a14⟩, a15⟩ := h0
  exact ⟨Cert.LibFinite.real_of_all x0 _ _ _ _ a0,
    Cert.LibFinite.real_of_all x3 _ _ _ _ a3,
    Cert.LibFinite.real_of_all x4 _ _ _ _ a4,
    Cert.LibFinite.real_of_all x5 _ _ _ _ a5,
    Cert.LibFinite.real_of_all x6 _ _ _ _ a6,
    Cert.LibFinite.real_of_all x7 _ _ _ _ a7,
    Cert.LibFinite.real_of_all x8 _ _ _ _ a8,
    Cert.LibFinite.real_of_all x9 _ _ _ _ a9⟩

end Cert.Finite

end
-- ==== Proof.lean ====
/-
  The certificate of a three-layer graph-convolution network with a pooled classifier head.

  The kernel applies each layer's relation weights to every node BEFORE the rows are gathered along the edges and summed
  into their target nodes; the reference gathers and sums first and multiplies afterwards. For real (finite) features and
  weights the two agree, because a product with a real matrix distributes over the finite sum of real rows that a segment
  sum is; the bias and the root term are then added in a different order, which addition on the extended reals allows.
  Each layer's result is real again, so the argument repeats for the three layers. The pooling (a sum of rows into 512
  graphs) and the head (two dense layers and a row-wise log-softmax) are the same functions on both sides, in a kernel's
  spelling on one and the host's on the other.

  Modules: GraphConv (the layer's two arrangements and the law), Tail (the row-wise log-softmax and its two spellings),
  Spec (the whole network, products first or last, and their agreement), Region0 … Region6 and HeadK (what each kernel
  region leaves in its output arrays), KernelValue and KernelSpec (the kernel's result buffer as the specification with the
  products first), RefValue (the reference's result as the specification with the products last), Finite (the precondition
  read back), RunResult (the kernel's run with its result named).
-/
import proofs.«154709_j85770496901295_2_alg».proof.Defs
import proofs.«154709_j85770496901295_2_alg».proof.Proof.Gen.Kernel
import proofs.«154709_j85770496901295_2_alg».proof.Proof.Gen.KernelIdeal
import proofs.«154709_j85770496901295_2_alg».proof.Proof.Gen.ReferenceIdeal
import proofs.«154709_j85770496901295_2_alg».proof.Proof.Gen.Pre_finite_inputs
import proofs.«154709_j85770496901295_2_alg».proof.Proof.KernelFrameP
import proofs.«154709_j85770496901295_2_alg».proof.Proof.RunResult
import proofs.«154709_j85770496901295_2_alg».proof.Proof.KernelSpec
import proofs.«154709_j85770496901295_2_alg».proof.Proof.RefValue
import proofs.«154709_j85770496901295_2_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.GenP.frame m ρ

theorem frame_ki : Cert.frame_KernelIdeal := fun m ρ _ => Cert.KernelIdeal.GenP.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Both programs end with the result buffer at one function of the arguments: the kernel at the network with each
    layer's product first, the reference at the network with each product last, equal because the precondition makes the
    features and the weights real. -/
theorem algebraic : Cert.algebraic_KernelIdeal_ReferenceIdeal := by
  intro m ρ m' ρ' hpre hagree
  refine ⟨fun c => Cert.KernelIdeal.Hand.result m c, ?_, ?_⟩
  · exact (θ_run Cert.KernelIdeal.defs _ _).mono
      (fun r h c => ⟨(h c).1.trans (Cert.KernelIdeal.Hand.w12_v56 m ρ c), (h c).2⟩) (Cert.KernelIdeal.Hand.run_result m ρ)
  · refine (θ_run Cert.ReferenceIdeal.defs _ _).mono (fun r h c => ⟨(h c).1.trans ?_, (h c).2⟩)
      (Cert.ReferenceIdeal.ValueP.run (F := Ideal) m' ρ')
    obtain ⟨a0, a1, a2, a3, a4, a5, a6, a7, a8, a9, a10, a11, a12, a13, a14, a15⟩ := hagree c
    rw [Cert.ReferenceIdeal.ReadP.val_main_v74_eq, a0, a1, a2, a3, a4, a5, a6, a7, a8, a9, a10, a11, a12, a13, a14, a15, Cert.ReferenceIdeal.Hand.ref_value]
    show _ = Cert.KernelIdeal.Hand.result m c
    rw [Cert.KernelIdeal.Hand.result_eq_first]
    obtain ⟨r0, r3, r4, r5, r6, r7, r8, r9⟩ := Cert.Finite.real_args
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15)) (hpre c)
    exact (Cert.Spec.first_eq_last _ _ _ _ _ _ _ _ _ _ _ _ _ _ _ _ _ _ _ _ _ _ _ _ _ _ Ideal.ofBits_zero_f32
      (fun i => Cert.Spec.zeros_apply _ i) (fun i => Cert.Spec.zeros_apply _ i)
      r0 (Cert.KernelIdeal.Hand.isReal_transpose _ _ _ r3) (Cert.KernelIdeal.Hand.isReal_transpose _ _ _ r5) r4
      (Cert.KernelIdeal.Hand.isReal_transpose _ _ _ r6) (Cert.KernelIdeal.Hand.isReal_transpose _ _ _ r8) r7
      (Cert.KernelIdeal.Hand.isReal_transpose _ _ _ r9)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
